-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S512x1 : Shape := ⟨2, ![512, 1]⟩
abbrev S128x256 : Shape := ⟨2, ![128, 256]⟩
abbrev S256 : Shape := ⟨1, ![256]⟩
abbrev S256x256 : Shape := ⟨2, ![256, 256]⟩
abbrev S258x196 : Shape := ⟨2, ![258, 196]⟩
abbrev S196 : Shape := ⟨1, ![196]⟩
abbrev S196x16 : Shape := ⟨2, ![196, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S258x196 : S_.BroadcastsInDim S258x196 (![] : Fin 0 → Fin S258x196.rank)
  reducesTo_S258x196_S_d0_1 : S258x196.ReducesTo [0, 1] S_
  bcast_S_S196 : S_.BroadcastsInDim S196 (![] : Fin 0 → Fin S196.rank)
  reducesTo_S196_S_d0 : S196.ReducesTo [0] S_
  bcast_S_S196x16 : S_.BroadcastsInDim S196x16 (![] : Fin 0 → Fin S196x16.rank)
  reducesTo_S196x16_S_d0_1 : S196x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg13 : FVec F S196x16 .f32) (main_arg14 : FVec F S16 .f32) (main_v48 : IVec S_ 1) (main_v49 : FVec F S196 .f32) (main_v50 : FVec F S196 .f32) : IVec S_ 1 :=
  let main_v51 : IVec S196 1 := cmpf .olt main_v49 main_v50
  let main_c_19 : IVec S_ 1 := constantI S_ 1 1#1
  let main_v52 : IVec S_ 1 := (fun x v => Host.reduce IntOp.andi x v reducesTo_S196_S_d0 h_S_) main_v51 main_c_19
  let main_v53 : IVec S_ 1 := andi main_v48 main_v52
  let main_v54 : FVec F S196x16 .f32 := Host.absf main_arg13
  let main_cst_20 : FVec F S_ .f32 := constant S_ .f32 0x7F800000#32
  let main_v55 : FVec F S196x16 .f32 := broadcastInDim S196x16 ![] bcast_S_S196x16 main_cst_20
  let main_v56 : IVec S196x16 1 := cmpf .olt main_v54 main_v55
  let main_c_21 : IVec S_ 1 := constantI S_ 1 1#1
  let main_v57 : IVec S_ 1 := (fun x v => Host.reduce IntOp.andi x v reducesTo_S196x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg9 : FVec F S256x256 .f32) (main_arg10 : FVec F S256 .f32) (main_arg11 : FVec F S258x196 .f32) (main_arg12 : FVec F S196 .f32) (main_arg13 : FVec F S196x16 .f32) (main_arg14 : FVec F S16 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S258x196 .f32 := Host.absf main_arg11
  let main_cst_16 : FVec F S_ .f32 := constant S_ .f32 0x7F800000#32
  let main_v45 : FVec F S258x196 .f32 := broadcastInDim S258x196 ![] bcast_S_S258x196 main_cst_16
  let main_v46 : IVec S258x196 1 := cmpf .olt main_v44 main_v45
  let main_c_17 : IVec S_ 1 := constantI S_ 1 1#1
  let main_v47 : IVec S_ 1 := (fun x v => Host.reduce IntOp.andi x v reducesTo_S258x196_S_d0_1 h_S_) main_v46 main_c_17
  let main_v48 : IVec S_ 1 := andi main_v43 main_v47
  let main_v49 : FVec F S196 .f32 := Host.absf main_arg12
  let main_cst_18 : FVec F S_ .f32 := constant S_ .f32 0x7F800000#32
  let main_v50 : FVec F S196 .f32 := broadcastInDim S196 ![] bcast_S_S196 main_cst_18
  fn_part3 (F := F) main_arg13 main_arg14 main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S258x196 .f32) (main_arg12 : FVec F S196 .f32) (main_arg13 : FVec F S196x16 .f32) (main_arg14 : FVec F S16 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S512x1 .f32) (main_arg4 : FVec F S512x1 .f32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S258x196 .f32) (main_arg12 : FVec F S196 .f32) (main_arg13 : FVec F S196x16 .f32) (main_arg14 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x1 .f32 := Host.absf main_arg3
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S512x1 .f32 := Host.absf main_arg4
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S512x1 : Shape := ⟨2, ![512, 1]⟩
abbrev S128x256 : Shape := ⟨2, ![128, 256]⟩
abbrev S256 : Shape := ⟨1, ![256]⟩
abbrev S256x256 : Shape := ⟨2, ![256, 256]⟩
abbrev S258x196 : Shape := ⟨2, ![258, 196]⟩
abbrev S196 : Shape := ⟨1, ![196]⟩
abbrev S196x16 : Shape := ⟨2, ![196, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S2000x128 : Shape := ⟨2, ![2000, 128]⟩
abbrev S2000x256 : Shape := ⟨2, ![2000, 256]⟩
abbrev S850000x256 : Shape := ⟨2, ![850000, 256]⟩
abbrev S1x256 : Shape := ⟨2, ![1, 256]⟩
abbrev S512x256 : Shape := ⟨2, ![512, 256]⟩
abbrev S50000x1 : Shape := ⟨2, ![50000, 1]⟩
abbrev S512 : Shape := ⟨1, ![512]⟩
abbrev S512x258 : Shape := ⟨2, ![512, 258]⟩
abbrev S1x196 : Shape := ⟨2, ![1, 196]⟩
abbrev S1x16 : Shape := ⟨2, ![1, 16]⟩
abbrev S512x16 : Shape := ⟨2, ![512, 16]⟩
abbrev S512x196 : Shape := ⟨2, ![512, 196]⟩

abbrev nBuf : Space → Nat
  | .hbm => 132
  | .vmem => 36
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S512x1, .f32⟩
  | 4 => ⟨S512x1, .f32⟩
  | 5 => ⟨S128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S258x196, .f32⟩
  | 12 => ⟨S196, .f32⟩
  | 13 => ⟨S196x16, .f32⟩
  | 14 => ⟨S16, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x256, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x256, .f32⟩
  | 67 => ⟨S850000x256, .f32⟩
  | 68 => ⟨S_, .f32⟩
  | 69 => ⟨S50000x256, .f32⟩
  | 70 => ⟨S850000x1, .i32⟩
  | 71 => ⟨S50000x256, .f32⟩
  | 72 => ⟨S1x256, .f32⟩
  | 73 => ⟨S50000x256, .f32⟩
  | 74 => ⟨S50000x256, .f32⟩
  | 75 => ⟨S850000x1, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x256, .f32⟩
  | 85 => ⟨S850000x256, .f32⟩
  | 86 => ⟨S850000x256, .f32⟩
  | 87 => ⟨S_, .f32⟩
  | 88 => ⟨S50000x256, .f32⟩
  | 89 => ⟨S850000x1, .i32⟩
  | 90 => ⟨S50000x256, .f32⟩
  | 91 => ⟨S1x256, .f32⟩
  | 92 => ⟨S50000x256, .f32⟩
  | 93 => ⟨S50000x256, .f32⟩
  | 94 => ⟨S850000x1, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x256, .f32⟩
  | 104 => ⟨S850000x256, .f32⟩
  | 105 => ⟨S850000x256, .f32⟩
  | 106 => ⟨S_, .f32⟩
  | 107 => ⟨S50000x256, .f32⟩
  | 108 => ⟨S850000x1, .i32⟩
  | 109 => ⟨S50000x256, .f32⟩
  | 110 => ⟨S1x256, .f32⟩
  | 111 => ⟨S50000x256, .f32⟩
  | 112 => ⟨S_, .f32⟩
  | 113 => ⟨S512x256, .f32⟩
  | 114 => ⟨S50000x1, .i32⟩
  | 115 => ⟨S512x256, .f32⟩
  | 116 => ⟨S_, .f32⟩
  | 117 => ⟨S50000, .f32⟩
  | 118 => ⟨S_, .f32⟩
  | 119 => ⟨S512, .f32⟩
  | 120 => ⟨S50000x1, .i32⟩
  | 121 => ⟨S512, .f32⟩
  | 122 => ⟨S_, .f32⟩
  | 123 => ⟨S512, .f32⟩
  | 124 => ⟨S512, .f32⟩
  | 125 => ⟨S512x1, .f32⟩
  | 126 => ⟨S512x256, .f32⟩
  | 127 => ⟨S512x256, .f32⟩
  | _ => ⟨S50000x128, .f32⟩

abbrev hbmTy0_1 (i : Nat) : BufTy := match i % 128 with
  | 0 => ⟨S512x258, .f32⟩
  | 1 => ⟨S1x196, .f32⟩
  | 2 => ⟨S1x16, .f32⟩
  | 3 => ⟨S512x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S512x258, .f32⟩
  | .local _ .vmem, ⟨31, _⟩ => ⟨S258x196, .f32⟩
  | .local _ .vmem, ⟨32, _⟩ => ⟨S1x196, .f32⟩
  | .local _ .vmem, ⟨33, _⟩ => ⟨S196x16, .f32⟩
  | .local _ .vmem, ⟨34, _⟩ => ⟨S1x16, .f32⟩
  | .local _ .vmem, ⟨35, _⟩ => ⟨S512x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_9 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_12 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_14 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_16 : Ref sig .tc := ⟨.hbm, 116, rfl⟩
abbrev main_v81 : Ref sig .tc := ⟨.hbm, 117, rfl⟩
abbrev main_cst_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_18 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x258 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S258x196 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x196 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S196x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x16 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S512x256 : S_.BroadcastsInDim S512x256 (![] : Fin 0 → Fin S512x256.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S512x256_S512x1_S512x1_S512x258_d1 : Shape.Concatenates [S512x256, S512x1, S512x1] S512x258 1
  shapeCasts_S196_S1x196 : S196.ShapeCasts S1x196
  shapeCasts_S16_S1x16 : S16.ShapeCasts S1x16
  inb_S512x258_S512x258_0_0 : ∀ a, (![0, 0] : Fin 2 → Nat) a + S512x258.size a ≤ S512x258.size a
  h_S512x258 : 0 < S512x258.numel
  shapeCasts_S512x258_S512x258 : S512x258.ShapeCasts S512x258
  inb_S258x196_S258x196_0_0 : ∀ a, (![0, 0] : Fin 2 → Nat) a + S258x196.size a ≤ S258x196.size a
  h_S258x196 : 0 < S258x196.numel
  inb_S1x196_S1x196_0_0 : ∀ a, (![0, 0] : Fin 2 → Nat) a + S1x196.size a ≤ S1x196.size a
  h_S1x196 : 0 < S1x196.numel
  shapeCasts_S1x196_S1x196 : S1x196.ShapeCasts S1x196
  broadcasts_S1x196_S512x196 : S1x196.Broadcasts S512x196
  inb_S196x16_S196x16_0_0 : ∀ a, (![0, 0] : Fin 2 → Nat) a + S196x16.size a ≤ S196x16.size a
  h_S196x16 : 0 < S196x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x258_S258x196_S512x196_1_0_0_1_n_n_wf : DotDims.WF S512x258 S258x196 S512x196 [1] [0] [0] [1] [] []
  dot_S512x196_S196x16_S512x16_1_0_0_1_n_n_wf : DotDims.WF S512x196 S196x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x258.size a ≤ S512x258.size a
  hwx6_0 : ∀ i : grid6.Coords, EltTy.bits .f32 = 32 ∨ (Rect.block (s := S512x258) S512x258.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S258x196.size a ≤ S258x196.size a
  hwx6_1 : ∀ i : grid6.Coords, EltTy.bits .f32 = 32 ∨ (Rect.block (s := S258x196) S258x196.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x196.size a ≤ S1x196.size a
  hwx6_2 : ∀ i : grid6.Coords, EltTy.bits .f32 = 32 ∨ (Rect.block (s := S1x196) S1x196.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S196x16.size a ≤ S196x16.size a
  hwx6_3 : ∀ i : grid6.Coords, EltTy.bits .f32 = 32 ∨ (Rect.block (s := S196x16) S196x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x16.size a ≤ S1x16.size a
  hwx6_4 : ∀ i : grid6.Coords, EltTy.bits .f32 = 32 ∨ (Rect.block (s := S1x16) S1x16.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x16.size a ≤ S512x16.size a
  hwx6_5 : ∀ i : grid6.Coords, EltTy.bits .f32 = 32 ∨ (Rect.block (s := S512x16) S512x16.size (cc6_transform_5 i) (hinb6_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x258_S258x196_S512x196_1_0_0_1_n_n : DotDims S512x258 S258x196 S512x196 where
  lhsContracting := [1]
  rhsContracting := [0]
  lhsNonContracting := [0]
  rhsNonContracting := [1]
  lhsBatch := []
  rhsBatch := []
  wf := dot_S512x258_S258x196_S512x196_1_0_0_1_n_n_wf
def dot_S512x196_S196x16_S512x16_1_0_0_1_n_n : DotDims S512x196 S196x16 S512x16 where
  lhsContracting := [1]
  rhsContracting := [0]
  lhsNonContracting := [0]
  rhsNonContracting := [1]
  lhsBatch := []
  rhsBatch := []
  wf := dot_S512x196_S196x16_S512x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S2000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v90) S512x258.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S258x196.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S1x196.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S196x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92) S1x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v93) S512x16.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S512x1 : Shape := ⟨2, ![512, 1]⟩
abbrev S128x256 : Shape := ⟨2, ![128, 256]⟩
abbrev S256 : Shape := ⟨1, ![256]⟩
abbrev S256x256 : Shape := ⟨2, ![256, 256]⟩
abbrev S258x196 : Shape := ⟨2, ![258, 196]⟩
abbrev S196 : Shape := ⟨1, ![196]⟩
abbrev S196x16 : Shape := ⟨2, ![196, 16]⟩
abbrev S16 : Shape := ⟨1, ![16]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S512x256 : Shape := ⟨2, ![512, 256]⟩
abbrev S50000x1 : Shape := ⟨2, ![50000, 1]⟩
abbrev S512 : Shape := ⟨1, ![512]⟩
abbrev S512x258 : Shape := ⟨2, ![512, 258]⟩
abbrev S512x196 : Shape := ⟨2, ![512, 196]⟩
abbrev S1x196 : Shape := ⟨2, ![1, 196]⟩
abbrev S512x16 : Shape := ⟨2, ![512, 16]⟩
abbrev S1x16 : Shape := ⟨2, ![1, 16]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S512x1, .f32⟩
  | 4 => ⟨S512x1, .f32⟩
  | 5 => ⟨S128x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S258x196, .f32⟩
  | 12 => ⟨S196, .f32⟩
  | 13 => ⟨S196x16, .f32⟩
  | 14 => ⟨S16, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S50000x256, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x256, .f32⟩
  | 66 => ⟨S850000x256, .f32⟩
  | 67 => ⟨S850000x256, .f32⟩
  | 68 => ⟨S_, .f32⟩
  | 69 => ⟨S50000x256, .f32⟩
  | 70 => ⟨S850000x1, .i32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S50000x256, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S850000x1, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x256, .f32⟩
  | 108 => ⟨S850000x256, .f32⟩
  | 109 => ⟨S850000x256, .f32⟩
  | 110 => ⟨S_, .f32⟩
  | 111 => ⟨S50000x256, .f32⟩
  | 112 => ⟨S850000x1, .i32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S50000x256, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000, .f32⟩
  | 11 => ⟨S850000, .f32⟩
  | 12 => ⟨S850000x1, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x256, .f32⟩
  | 22 => ⟨S850000x256, .f32⟩
  | 23 => ⟨S850000x256, .f32⟩
  | 24 => ⟨S_, .f32⟩
  | 25 => ⟨S50000x256, .f32⟩
  | 26 => ⟨S850000x1, .i32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S50000x256, .f32⟩
  | 33 => ⟨S50000x256, .f32⟩
  | 34 => ⟨S_, .f32⟩
  | 35 => ⟨S512x256, .f32⟩
  | 36 => ⟨S50000x1, .i32⟩
  | 37 => ⟨S512x256, .f32⟩
  | 38 => ⟨S_, .f32⟩
  | 39 => ⟨S50000, .f32⟩
  | 40 => ⟨S_, .f32⟩
  | 41 => ⟨S512, .f32⟩
  | 42 => ⟨S50000x1, .i32⟩
  | 43 => ⟨S512, .f32⟩
  | 44 => ⟨S_, .f32⟩
  | 45 => ⟨S512, .f32⟩
  | 46 => ⟨S512, .f32⟩
  | 47 => ⟨S512x1, .f32⟩
  | 48 => ⟨S512x256, .f32⟩
  | 49 => ⟨S512x256, .f32⟩
  | 50 => ⟨S512x258, .f32⟩
  | 51 => ⟨S512x196, .f32⟩
  | 52 => ⟨S1x196, .f32⟩
  | 53 => ⟨S512x196, .f32⟩
  | 54 => ⟨S512x196, .f32⟩
  | 55 => ⟨S_, .f32⟩
  | 56 => ⟨S512x196, .f32⟩
  | 57 => ⟨S512x196, .f32⟩
  | 58 => ⟨S512x16, .f32⟩
  | 59 => ⟨S1x16, .f32⟩
  | 60 => ⟨S512x16, .f32⟩
  | 61 => ⟨S512x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call2_cst : Ref sig .tc := ⟨.hbm, 117, rfl⟩
abbrev main_call2_v0 : Ref sig .tc := ⟨.hbm, 118, rfl⟩
abbrev main_v80 : Ref sig .tc := ⟨.hbm, 119, rfl⟩
abbrev main_v81 : Ref sig .tc := ⟨.hbm, 120, rfl⟩
abbrev main_c_16 : Ref sig .tc := ⟨.hbm, 121, rfl⟩
abbrev main_v82 : Ref sig .tc := ⟨.hbm, 122, rfl⟩
abbrev main_v83 : Ref sig .tc := ⟨.hbm, 123, rfl⟩
abbrev main_c_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_18 : Ref sig .tc := ⟨.hbm, 130, rfl⟩
abbrev main_v89 : Ref sig .tc := ⟨.hbm, 131, rfl⟩
abbrev main_v90 : Ref sig .tc := ⟨.hbm, 132, rfl⟩
abbrev main_c_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_20 : Ref sig .tc := ⟨.hbm, 141, rfl⟩
abbrev main_v98 : Ref sig .tc := ⟨.hbm, 142, rfl⟩
abbrev main_v99 : Ref sig .tc := ⟨.hbm, 143, rfl⟩
abbrev main_c_21 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_22 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call3_cst : Ref sig .tc := ⟨.hbm, 159, rfl⟩
abbrev main_call3_v0 : Ref sig .tc := ⟨.hbm, 160, rfl⟩
abbrev main_v113 : Ref sig .tc := ⟨.hbm, 161, rfl⟩
abbrev main_cst_23 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_24 : Ref sig .tc := ⟨.hbm, 166, rfl⟩
abbrev main_v117 : Ref sig .tc := ⟨.hbm, 167, rfl⟩
abbrev main_cst_25 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_26 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_call4_cst : Ref sig .tc := ⟨.hbm, 183, rfl⟩
abbrev main_call4_v0 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S512x256 : S_.BroadcastsInDim S512x256 (![] : Fin 0 → Fin S512x256.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  concatenates_S512x256_S512x1_S512x1_S512x258_d1 : Shape.Concatenates [S512x256, S512x1, S512x1] S512x258 1
  bcast_S196_S1x196_1 : S196.BroadcastsInDim S1x196 (![1] : Fin 1 → Fin S1x196.rank)
  bcast_S1x196_S512x196_0_1 : S1x196.BroadcastsInDim S512x196 (![0, 1] : Fin 2 → Fin S512x196.rank)
  bcast_S_S512x196 : S_.BroadcastsInDim S512x196 (![] : Fin 0 → Fin S512x196.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S50000_S850000x1_S850000_n_0_0_1_wf : ScatterDims.WF S50000 S850000x1 S850000 [] [0] [0] 1
  dot_S50000x128_S128x256_S50000x256_1_0_0_1_n_n_wf : DotDims.WF S50000x128 S128x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  dot_S512x258_S258x196_S512x196_1_0_0_1_n_n_wf : DotDims.WF S512x258 S258x196 S512x196 [1] [0] [0] [1] [] []
  dot_S512x196_S196x16_S512x16_1_0_0_1_n_n_wf : DotDims.WF S512x196 S196x16 S512x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x258_S258x196_S512x196_1_0_0_1_n_n : DotDims S512x258 S258x196 S512x196 where
  lhsContracting := [1]
  rhsContracting := [0]
  lhsNonContracting := [0]
  rhsNonContracting := [1]
  lhsBatch := []
  rhsBatch := []
  wf := dot_S512x258_S258x196_S512x196_1_0_0_1_n_n_wf
def dot_S512x196_S196x16_S512x16_1_0_0_1_n_n : DotDims S512x196 S196x16 S512x16 where
  lhsContracting := [1]
  rhsContracting := [0]
  lhsNonContracting := [0]
  rhsNonContracting := [1]
  lhsBatch := []
  rhsBatch := []
  wf := dot_S512x196_S196x16_S512x16_1_0_0_1_n_n_wf

class Facts : Prop extends Facts₀ where

variable [Facts]
-- ==== Proof.KB.Data.lean ====
/-
  The data every later module of this proof speaks about, for the program's seven kernel regions and the host operations
  between them: per region, a window's block of the array found on entry, what one run of the body leaves in the output
  buffer (one whole-buffer store of the body's arithmetic on the input buffers), and the pipeline's data built from them;
  then the contents of every buffer after each item of @main, folded from the launch memory. Definitions and their
  projections only.
-/
import proofs.«166593_j71528385348100_1_alg».proof.Proof.Gen.Kernel.Launch
import proofs.«166593_j71528385348100_1_alg».proof.Proof.Gen.Kernel.Skeleton
import proofs.«166593_j71528385348100_1_alg».proof.Proof.Gen.Kernel.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: a block of 2000 rows of the node features times the whole weight matrix -/

/-- Window `w`'s block at grid point `t`, read off the array the region finds on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What one run of the body leaves in the output window's buffer: its single whole-buffer store, of the body's
    arithmetic applied to the whole input buffers. -/
def out0_2 (x0 : Vec F S2000x128 .f32) (x1 : Vec F S128x256 .f32) : Vec F S2000x256 .f32 :=
  View.canon [⟨(Rect.unit (s := S2000x256) ![0, 0] S2000x256.size inb_S2000x256_S2000x256_0_0), k0_pay1 (View.ld x0 (Rect.unit (s := S2000x128) ![0, 0] S2000x128.size inb_S2000x128_S2000x128_0_0)) (View.ld x1 (Rect.unit (s := S128x256) ![0, 0] S128x256.size inb_S128x256_S128x256_0_0))⟩]

/-- The pipeline's data on core `c`: arrays as found on entry; after the body every input buffer still holds its block and
    the output buffer holds the body's result on the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: a block of 2000 aggregated rows plus the bias row, clamped below at zero -/

/-- Window `w`'s block at grid point `t`, read off the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one run of the body leaves in the output window's buffer: its single whole-buffer store, of the body's
    arithmetic applied to the whole input buffers. -/
def out1_2 (x0 : Vec F S2000x256 .f32) (x1 : Vec F S1x256 .f32) : Vec F S2000x256 .f32 :=
  View.canon [⟨(Rect.unit (s := S2000x256) ![0, 0] S2000x256.size inb_S2000x256_S2000x256_0_0), k1_pay1 (View.ld x0 (Rect.unit (s := S2000x256) ![0, 0] S2000x256.size inb_S2000x256_S2000x256_0_0)) (View.ld x1 (Rect.unit (s := S1x256) ![0, 0] S1x256.size inb_S1x256_S1x256_0_0))⟩]

/-- The pipeline's data on core `c`: arrays as found on entry; after the body every input buffer still holds its block and
    the output buffer holds the body's result on the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: a block of 2000 rows of the hidden features times the whole weight matrix -/

/-- Window `w`'s block at grid point `t`, read off the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What one run of the body leaves in the output window's buffer: its single whole-buffer store, of the body's
    arithmetic applied to the whole input buffers. -/
def out2_2 (x0 : Vec F S2000x256 .f32) (x1 : Vec F S256x256 .f32) : Vec F S2000x256 .f32 :=
  View.canon [⟨(Rect.unit (s := S2000x256) ![0, 0] S2000x256.size inb_S2000x256_S2000x256_0_0), k2_pay1 (View.ld x0 (Rect.unit (s := S2000x256) ![0, 0] S2000x256.size inb_S2000x256_S2000x256_0_0)) (View.ld x1 (Rect.unit (s := S256x256) ![0, 0] S256x256.size inb_S256x256_S256x256_0_0))⟩]

/-- The pipeline's data on core `c`: arrays as found on entry; after the body every input buffer still holds its block and
    the output buffer holds the body's result on the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3: a block of 2000 aggregated rows plus the bias row, clamped below at zero -/

/-- Window `w`'s block at grid point `t`, read off the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What one run of the body leaves in the output window's buffer: its single whole-buffer store, of the body's
    arithmetic applied to the whole input buffers. -/
def out3_2 (x0 : Vec F S2000x256 .f32) (x1 : Vec F S1x256 .f32) : Vec F S2000x256 .f32 :=
  View.canon [⟨(Rect.unit (s := S2000x256) ![0, 0] S2000x256.size inb_S2000x256_S2000x256_0_0), k3_pay1 (View.ld x0 (Rect.unit (s := S2000x256) ![0, 0] S2000x256.size inb_S2000x256_S2000x256_0_0)) (View.ld x1 (Rect.unit (s := S1x256) ![0, 0] S1x256.size inb_S1x256_S1x256_0_0))⟩]

/-- The pipeline's data on core `c`: arrays as found on entry; after the body every input buffer still holds its block and
    the output buffer holds the body's result on the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! ## Region 4: a block of 2000 rows of the hidden features times the whole weight matrix -/

/-- Window `w`'s block at grid point `t`, read off the array the region finds on entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What one run of the body leaves in the output window's buffer: its single whole-buffer store, of the body's
    arithmetic applied to the whole input buffers. -/
def out4_2 (x0 : Vec F S2000x256 .f32) (x1 : Vec F S256x256 .f32) : Vec F S2000x256 .f32 :=
  View.canon [⟨(Rect.unit (s := S2000x256) ![0, 0] S2000x256.size inb_S2000x256_S2000x256_0_0), k4_pay1 (View.ld x0 (Rect.unit (s := S2000x256) ![0, 0] S2000x256.size inb_S2000x256_S2000x256_0_0)) (View.ld x1 (Rect.unit (s := S256x256) ![0, 0] S256x256.size inb_S256x256_S256x256_0_0))⟩]

/-- The pipeline's data on core `c`: arrays as found on entry; after the body every input buffer still holds its block and
    the output buffer holds the body's result on the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-! ## Region 5: a block of 2000 aggregated rows plus the bias row, clamped below at zero -/

/-- Window `w`'s block at grid point `t`, read off the array the region finds on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What one run of the body leaves in the output window's buffer: its single whole-buffer store, of the body's
    arithmetic applied to the whole input buffers. -/
def out5_2 (x0 : Vec F S2000x256 .f32) (x1 : Vec F S1x256 .f32) : Vec F S2000x256 .f32 :=
  View.canon [⟨(Rect.unit (s := S2000x256) ![0, 0] S2000x256.size inb_S2000x256_S2000x256_0_0), k5_pay1 (View.ld x0 (Rect.unit (s := S2000x256) ![0, 0] S2000x256.size inb_S2000x256_S2000x256_0_0)) (View.ld x1 (Rect.unit (s := S1x256) ![0, 0] S1x256.size inb_S1x256_S1x256_0_0))⟩]

/-- The pipeline's data on core `c`: arrays as found on entry; after the body every input buffer still holds its block and
    the output buffer holds the body's result on the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-! ## Region 6: the two-layer head on all 512 pooled rows at once -/

/-- Window `w`'s block at grid point `t`, read off the array the region finds on entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What one run of the body leaves in the output window's buffer: its single whole-buffer store, of the body's
    arithmetic applied to the whole input buffers. -/
def out6_5 (x0 : Vec F S512x258 .f32) (x1 : Vec F S258x196 .f32) (x2 : Vec F S1x196 .f32) (x3 : Vec F S196x16 .f32) (x4 : Vec F S1x16 .f32) : Vec F S512x16 .f32 :=
  View.canon [⟨(Rect.unit (s := S512x16) ![0, 0] S512x16.size inb_S512x16_S512x16_0_0), k6_pay1 (View.ld x0 (Rect.unit (s := S512x258) ![0, 0] S512x258.size inb_S512x258_S512x258_0_0)) (View.ld x1 (Rect.unit (s := S258x196) ![0, 0] S258x196.size inb_S258x196_S258x196_0_0)) (View.ld x2 (Rect.unit (s := S1x196) ![0, 0] S1x196.size inb_S1x196_S1x196_0_0)) (View.ld x3 (Rect.unit (s := S196x16) ![0, 0] S196x16.size inb_S196x16_S196x16_0_0)) (View.ld x4 (Rect.unit (s := S1x16) ![0, 0] S1x16.size inb_S1x16_S1x16_0_0))⟩]

/-- The pipeline's data on core `c`: arrays as found on entry; after the body every input buffer still holds its block and
    the output buffer holds the body's result on the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

end Regions

/-! ## The buffers' contents between @main's items

Core `c`'s buffer contents after each item of @main, folded from the launch memory: a stretch of host operations applies
them in order; a kernel region leaves each of its windows' arrays at what its write-backs add up to and every other buffer
as it was. -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After kernel region 0. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After kernel region 1. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After kernel region 2. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- After kernel region 3. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After kernel region 4. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After kernel region 5. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch `hostOps6`. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After kernel region 6. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

end Cert.Kernel.Hand

end
-- ==== Proof.KB.Reg0.lean ====
/-
  Kernel region 0 (a block of 2000 rows of the node features times the whole weight matrix): the body, run on whole staging buffers that hold the inputs' blocks, ends with the inputs'
  buffers as they were and the output's buffer at its single store's payload; hence the pipeline's body obligation at every
  grid point, over the data of KB/Data. The body also loads its output buffer before storing into it; nothing it computes
  depends on that load.
-/
import proofs.«166593_j71528385348100_1_alg».proof.Proof.KB.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current buffer holds its block at every grid point, whether the pipeline fetched it there or the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- The one store covers the output buffer. -/
theorem cover0_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out0_2` of the inputs. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ Kont ⟨⟩))
      ⊢ wp frame (wpE (defs₀ (F := F)) Variants.none c none) E (cc0__linear_kernel i arg1 harg1 arg2 harg2 arg3 harg3) Kont := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the pipeline calls the body with at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Kernel region 1 (a block of 2000 aggregated rows plus the bias row, clamped below at zero): the body, run on whole staging buffers that hold the inputs' blocks, ends with the inputs'
  buffers as they were and the output's buffer at its single store's payload; hence the pipeline's body obligation at every
  grid point, over the data of KB/Data. The body also loads its output buffer before storing into it; nothing it computes
  depends on that load.
-/
import proofs.«166593_j71528385348100_1_alg».proof.Proof.KB.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current buffer holds its block at every grid point, whether the pipeline fetched it there or the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- The one store covers the output buffer. -/
theorem cover1_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out1_2` of the inputs. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ Kont ⟨⟩))
      ⊢ wp frame (wpE (defs₀ (F := F)) Variants.none c none) E (cc1__bias_relu_kernel i arg1 harg1 arg2 harg2 arg3 harg3) Kont := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the pipeline calls the body with at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Kernel region 2 (a block of 2000 rows of the hidden features times the whole weight matrix): the body, run on whole staging buffers that hold the inputs' blocks, ends with the inputs'
  buffers as they were and the output's buffer at its single store's payload; hence the pipeline's body obligation at every
  grid point, over the data of KB/Data. The body also loads its output buffer before storing into it; nothing it computes
  depends on that load.
-/
import proofs.«166593_j71528385348100_1_alg».proof.Proof.KB.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- Input window 1's current buffer holds its block at every grid point, whether the pipeline fetched it there or the
    block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- The one store covers the output buffer. -/
theorem cover2_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out2_2` of the inputs. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ Kont ⟨⟩))
      ⊢ wp frame (wpE (defs₀ (F := F)) Variants.none c none) E (cc2__linear_kernel i arg1 harg1 arg2 harg2 arg3 harg3) Kont := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the pipeline calls the body with at grid point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Kernel region 3 (a block of 2000 aggregated rows plus the bias row, clamped below at zero): the body, run on whole staging buffers that hold the inputs' blocks, ends with the inputs'
  buffers as they were and the output's buffer at its single store's payload; hence the pipeline's body obligation at every
  grid point, over the data of KB/Data. The body also loads its output buffer before storing into it; nothing it computes
  depends on that load.
-/
import proofs.«166593_j71528385348100_1_alg».proof.Proof.KB.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_0 (c : Dev nD) (t : Fin cfg3.N) (d) : (dat3 V c).before 0 t d = iblk3 V c 0 t :=
  before3_0_of V (dat3 V c) (A_eq3 V c 0) (after3_0 V c) t d

/-- Input window 1's current buffer holds its block at every grid point, whether the pipeline fetched it there or the
    block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_1 (c : Dev nD) (t : Fin cfg3.N) (d) : (dat3 V c).before 1 t d = iblk3 V c 1 t :=
  before3_1_of V (dat3 V c) (A_eq3 V c 1) (after3_1 V c) t d

/-- The one store covers the output buffer. -/
theorem cover3_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out3_2` of the inputs. -/
theorem sound_kernel3 (c : Dev nD) (E : Set ℕ) (i : grid3.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ Kont ⟨⟩))
      ⊢ wp frame (wpE (defs₀ (F := F)) Variants.none c none) E (cc3__bias_relu_kernel i arg1 harg1 arg2 harg2 arg3 harg3) Kont := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the pipeline calls the body with at grid point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it must return. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Reg4.lean ====
/-
  Kernel region 4 (a block of 2000 rows of the hidden features times the whole weight matrix): the body, run on whole staging buffers that hold the inputs' blocks, ends with the inputs'
  buffers as they were and the output's buffer at its single store's payload; hence the pipeline's body obligation at every
  grid point, over the data of KB/Data. The body also loads its output buffer before storing into it; nothing it computes
  depends on that load.
-/
import proofs.«166593_j71528385348100_1_alg».proof.Proof.KB.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_0 (c : Dev nD) (t : Fin cfg4.N) (d) : (dat4 V c).before 0 t d = iblk4 V c 0 t :=
  before4_0_of V (dat4 V c) (A_eq4 V c 0) (after4_0 V c) t d

/-- Input window 1's current buffer holds its block at every grid point, whether the pipeline fetched it there or the
    block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_1 (c : Dev nD) (t : Fin cfg4.N) (d) : (dat4 V c).before 1 t d = iblk4 V c 1 t :=
  before4_1_of V (dat4 V c) (A_eq4 V c 1) (after4_1 V c) t d

/-- The one store covers the output buffer. -/
theorem cover4_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out4_2` of the inputs. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ Kont ⟨⟩))
      ⊢ wp frame (wpE (defs₀ (F := F)) Variants.none c none) E (cc4__linear_kernel i arg1 harg1 arg2 harg2 arg3 harg3) Kont := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- What the pipeline calls the body with at grid point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it must return. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Reg5.lean ====
/-
  Kernel region 5 (a block of 2000 aggregated rows plus the bias row, clamped below at zero): the body, run on whole staging buffers that hold the inputs' blocks, ends with the inputs'
  buffers as they were and the output's buffer at its single store's payload; hence the pipeline's body obligation at every
  grid point, over the data of KB/Data. The body also loads its output buffer before storing into it; nothing it computes
  depends on that load.
-/
import proofs.«166593_j71528385348100_1_alg».proof.Proof.KB.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_0 (c : Dev nD) (t : Fin cfg5.N) (d) : (dat5 V c).before 0 t d = iblk5 V c 0 t :=
  before5_0_of V (dat5 V c) (A_eq5 V c 0) (after5_0 V c) t d

/-- Input window 1's current buffer holds its block at every grid point, whether the pipeline fetched it there or the
    block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_1 (c : Dev nD) (t : Fin cfg5.N) (d) : (dat5 V c).before 1 t d = iblk5 V c 1 t :=
  before5_1_of V (dat5 V c) (A_eq5 V c 1) (after5_1 V c) t d

/-- The one store covers the output buffer. -/
theorem cover5_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out5_2` of the inputs. -/
theorem sound_kernel5 (c : Dev nD) (E : Set ℕ) (i : grid5.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ Kont ⟨⟩))
      ⊢ wp frame (wpE (defs₀ (F := F)) Variants.none c none) E (cc5__bias_relu_kernel i arg1 harg1 arg2 harg2 arg3 harg3) Kont := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- What the pipeline calls the body with at grid point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it must return. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KB.Reg6.lean ====
/-
  Kernel region 6 (the two-layer head on all 512 pooled rows at once): the body, run on whole staging buffers that hold the inputs' blocks, ends with the inputs'
  buffers as they were and the output's buffer at its single store's payload; hence the pipeline's body obligation at every
  grid point, over the data of KB/Data. The body also loads its output buffer before storing into it; nothing it computes
  depends on that load.
-/
import proofs.«166593_j71528385348100_1_alg».proof.Proof.KB.Data
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_0 (c : Dev nD) (t : Fin cfg6.N) (d) : (dat6 V c).before 0 t d = iblk6 V c 0 t :=
  before6_0_of V (dat6 V c) (A_eq6 V c 0) (after6_0 V c) t d

/-- Input window 1's current buffer holds its block at every grid point, whether the pipeline fetched it there or the
    block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_1 (c : Dev nD) (t : Fin cfg6.N) (d) : (dat6 V c).before 1 t d = iblk6 V c 1 t :=
  before6_1_of V (dat6 V c) (A_eq6 V c 1) (after6_1 V c) t d

/-- Input window 2's current buffer holds its block at every grid point, whether the pipeline fetched it there or the
    block index has not moved since the last fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_2 (c : Dev nD) (t : Fin cfg6.N) (d) : (dat6 V c).before 2 t d = iblk6 V c 2 t :=
  before6_2_of V (dat6 V c) (A_eq6 V c 2) (after6_2 V c) t d

/-- Input window 3's current buffer holds its block at every grid point, whether the pipeline fetched it there or the
    block index has not moved since the last fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_3 (c : Dev nD) (t : Fin cfg6.N) (d) : (dat6 V c).before 3 t d = iblk6 V c 3 t :=
  before6_3_of V (dat6 V c) (A_eq6 V c 3) (after6_3 V c) t d

/-- Input window 4's current buffer holds its block at every grid point, whether the pipeline fetched it there or the
    block index has not moved since the last fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_4 (c : Dev nD) (t : Fin cfg6.N) (d) : (dat6 V c).before 4 t d = iblk6 V c 4 t :=
  before6_4_of V (dat6 V c) (A_eq6 V c 4) (after6_4 V c) t d

/-- The one store covers the output buffer. -/
theorem cover6_5 (p0 : Vec F S512x16 .f32) (y : S512x16.Idx) :
    ∃ pc ∈ ([⟨(Rect.unit (s := S512x16) ![0, 0] S512x16.size inb_S512x16_S512x16_0_0), p0⟩] : List (View.Piece (Elt F) S512x16 .f32)), y ∈ pc.1.set :=
  View.cover_of_tiled [⟨(Rect.unit (s := S512x16) ![0, 0] S512x16.size inb_S512x16_S512x16_0_0), p0⟩] S512x16.size (by rfl) y

set_option maxHeartbeats 1000000 in
/-- The body on whole staging buffers: inputs at contents `x`, the output at anything; it returns the inputs untouched and
    the output at `out6_5` of the inputs. -/
theorem sound_kernel6 (c : Dev nD) (E : Set ℕ) (i : grid6.Coords) (arg1 : Memref sig .tc .vmem S512x258 .f32) (harg1 : arg1.IsWhole) (arg2 : Memref sig .tc .vmem S258x196 .f32) (harg2 : arg2.IsWhole) (arg3 : Memref sig .tc .vmem S1x196 .f32) (harg3 : arg3.IsWhole) (arg4 : Memref sig .tc .vmem S196x16 .f32) (harg4 : arg4.IsWhole) (arg5 : Memref sig .tc .vmem S1x16 .f32) (harg5 : arg5.IsWhole) (arg6 : Memref sig .tc .vmem S512x16 .f32) (harg6 : arg6.IsWhole)
    (x0 : Vec F S512x258 .f32) (x1 : Vec F S258x196 .f32) (x2 : Vec F S1x196 .f32) (x3 : Vec F S196x16 .f32) (x4 : Vec F S1x16 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ Kont ⟨⟩))
      ⊢ wp frame (wpE (defs₀ (F := F)) Variants.none c none) E (cc6__mlp_head_kernel i arg1 harg1 arg2 harg2 arg3 harg3 arg4 harg4 arg5 harg5 arg6 harg6) Kont := by
  simp only [cc6__mlp_head_kernel_eq_skeleton]; unfold cc6__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- What the pipeline calls the body with at grid point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it must return. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KB.Run.lean ====
/-
  The whole run of @main: fourteen items, host stretches and kernel regions alternating. Every item is entered with all
  unscoped buffers held at the fold's contents before it (KB/Data's `W`) and left with them at the contents after it; a
  region splits its windows' arrays out of those buffers, runs its pipeline on the body obligation of its module, and
  puts the arrays back at what the write-backs add up to. The launch hands out the first contents, and at the end every
  unscoped buffer is read back at the last contents `W14`: the result array and, since no item writes an argument, the
  arguments as launched.
-/
import proofs.«166593_j71528385348100_1_alg».proof.Proof.KB.Reg0
import proofs.«166593_j71528385348100_1_alg».proof.Proof.KB.Reg1
import proofs.«166593_j71528385348100_1_alg».proof.Proof.KB.Reg2
import proofs.«166593_j71528385348100_1_alg».proof.Proof.KB.Reg3
import proofs.«166593_j71528385348100_1_alg».proof.Proof.KB.Reg4
import proofs.«166593_j71528385348100_1_alg».proof.Proof.KB.Reg5
import proofs.«166593_j71528385348100_1_alg».proof.Proof.KB.Reg6
import proofs.«166593_j71528385348100_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves alone -/

/-- Region 0 changes no buffer but its output array `main_v30`: an input window's array is written back as read, any
    other buffer is not the pipeline's. -/
theorem W4_keep (c : Dev nD) (b : Ref sig .tc) (hb : b ≠ main_v30) :
    W4 m ρ c (Proc.devRef .tc b) = W3 m ρ c (Proc.devRef .tc b) := by
  by_cases h0 : Pipeline.arrRef spec0 0 = b
  · subst h0; exact (W4_arr m ρ c 0).trans (((dat0 (V3 m ρ) c).arrAt_in 0 rfl _).trans (A_eq0 (V3 m ρ) c 0))
  by_cases h1 : Pipeline.arrRef spec0 1 = b
  · subst h1; exact (W4_arr m ρ c 1).trans (((dat0 (V3 m ρ) c).arrAt_in 1 rfl _).trans (A_eq0 (V3 m ρ) c 1))
  exact W4_of_ne m ρ c b fun w => match w with
    | ⟨0, _⟩ => h0
    | ⟨1, _⟩ => h1
    | ⟨2, _⟩ => fun e => hb e.symm

/-- Region 1 changes no buffer but its output array `main_v45`: an input window's array is written back as read, any
    other buffer is not the pipeline's. -/
theorem W6_keep (c : Dev nD) (b : Ref sig .tc) (hb : b ≠ main_v45) :
    W6 m ρ c (Proc.devRef .tc b) = W5 m ρ c (Proc.devRef .tc b) := by
  by_cases h0 : Pipeline.arrRef spec1 0 = b
  · subst h0; exact (W6_arr m ρ c 0).trans (((dat1 (V5 m ρ) c).arrAt_in 0 rfl _).trans (A_eq1 (V5 m ρ) c 0))
  by_cases h1 : Pipeline.arrRef spec1 1 = b
  · subst h1; exact (W6_arr m ρ c 1).trans (((dat1 (V5 m ρ) c).arrAt_in 1 rfl _).trans (A_eq1 (V5 m ρ) c 1))
  exact W6_of_ne m ρ c b fun w => match w with
    | ⟨0, _⟩ => h0
    | ⟨1, _⟩ => h1
    | ⟨2, _⟩ => fun e => hb e.symm

/-- Region 2 changes no buffer but its output array `main_v46`: an input window's array is written back as read, any
    other buffer is not the pipeline's. -/
theorem W7_keep (c : Dev nD) (b : Ref sig .tc) (hb : b ≠ main_v46) :
    W7 m ρ c (Proc.devRef .tc b) = W6 m ρ c (Proc.devRef .tc b) := by
  by_cases h0 : Pipeline.arrRef spec2 0 = b
  · subst h0; exact (W7_arr m ρ c 0).trans (((dat2 (V6 m ρ) c).arrAt_in 0 rfl _).trans (A_eq2 (V6 m ρ) c 0))
  by_cases h1 : Pipeline.arrRef spec2 1 = b
  · subst h1; exact (W7_arr m ρ c 1).trans (((dat2 (V6 m ρ) c).arrAt_in 1 rfl _).trans (A_eq2 (V6 m ρ) c 1))
  exact W7_of_ne m ρ c b fun w => match w with
    | ⟨0, _⟩ => h0
    | ⟨1, _⟩ => h1
    | ⟨2, _⟩ => fun e => hb e.symm

/-- Region 3 changes no buffer but its output array `main_v61`: an input window's array is written back as read, any
    other buffer is not the pipeline's. -/
theorem W9_keep (c : Dev nD) (b : Ref sig .tc) (hb : b ≠ main_v61) :
    W9 m ρ c (Proc.devRef .tc b) = W8 m ρ c (Proc.devRef .tc b) := by
  by_cases h0 : Pipeline.arrRef spec3 0 = b
  · subst h0; exact (W9_arr m ρ c 0).trans (((dat3 (V8 m ρ) c).arrAt_in 0 rfl _).trans (A_eq3 (V8 m ρ) c 0))
  by_cases h1 : Pipeline.arrRef spec3 1 = b
  · subst h1; exact (W9_arr m ρ c 1).trans (((dat3 (V8 m ρ) c).arrAt_in 1 rfl _).trans (A_eq3 (V8 m ρ) c 1))
  exact W9_of_ne m ρ c b fun w => match w with
    | ⟨0, _⟩ => h0
    | ⟨1, _⟩ => h1
    | ⟨2, _⟩ => fun e => hb e.symm

/-- Region 4 changes no buffer but its output array `main_v62`: an input window's array is written back as read, any
    other buffer is not the pipeline's. -/
theorem W10_keep (c : Dev nD) (b : Ref sig .tc) (hb : b ≠ main_v62) :
    W10 m ρ c (Proc.devRef .tc b) = W9 m ρ c (Proc.devRef .tc b) := by
  by_cases h0 : Pipeline.arrRef spec4 0 = b
  · subst h0; exact (W10_arr m ρ c 0).trans (((dat4 (V9 m ρ) c).arrAt_in 0 rfl _).trans (A_eq4 (V9 m ρ) c 0))
  by_cases h1 : Pipeline.arrRef spec4 1 = b
  · subst h1; exact (W10_arr m ρ c 1).trans (((dat4 (V9 m ρ) c).arrAt_in 1 rfl _).trans (A_eq4 (V9 m ρ) c 1))
  exact W10_of_ne m ρ c b fun w => match w with
    | ⟨0, _⟩ => h0
    | ⟨1, _⟩ => h1
    | ⟨2, _⟩ => fun e => hb e.symm

/-- Region 5 changes no buffer but its output array `main_v77`: an input window's array is written back as read, any
    other buffer is not the pipeline's. -/
theorem W12_keep (c : Dev nD) (b : Ref sig .tc) (hb : b ≠ main_v77) :
    W12 m ρ c (Proc.devRef .tc b) = W11 m ρ c (Proc.devRef .tc b) := by
  by_cases h0 : Pipeline.arrRef spec5 0 = b
  · subst h0; exact (W12_arr m ρ c 0).trans (((dat5 (V11 m ρ) c).arrAt_in 0 rfl _).trans (A_eq5 (V11 m ρ) c 0))
  by_cases h1 : Pipeline.arrRef spec5 1 = b
  · subst h1; exact (W12_arr m ρ c 1).trans (((dat5 (V11 m ρ) c).arrAt_in 1 rfl _).trans (A_eq5 (V11 m ρ) c 1))
  exact W12_of_ne m ρ c b fun w => match w with
    | ⟨0, _⟩ => h0
    | ⟨1, _⟩ => h1
    | ⟨2, _⟩ => fun e => hb e.symm

/-- Region 6 changes no buffer but its output array `main_v93`: an input window's array is written back as read, any
    other buffer is not the pipeline's. -/
theorem W14_keep (c : Dev nD) (b : Ref sig .tc) (hb : b ≠ main_v93) :
    W14 m ρ c (Proc.devRef .tc b) = W13 m ρ c (Proc.devRef .tc b) := by
  by_cases h0 : Pipeline.arrRef spec6 0 = b
  · subst h0; exact (W14_arr m ρ c 0).trans (((dat6 (V13 m ρ) c).arrAt_in 0 rfl _).trans (A_eq6 (V13 m ρ) c 0))
  by_cases h1 : Pipeline.arrRef spec6 1 = b
  · subst h1; exact (W14_arr m ρ c 1).trans (((dat6 (V13 m ρ) c).arrAt_in 1 rfl _).trans (A_eq6 (V13 m ρ) c 1))
  by_cases h2 : Pipeline.arrRef spec6 2 = b
  · subst h2; exact (W14_arr m ρ c 2).trans (((dat6 (V13 m ρ) c).arrAt_in 2 rfl _).trans (A_eq6 (V13 m ρ) c 2))
  by_cases h3 : Pipeline.arrRef spec6 3 = b
  · subst h3; exact (W14_arr m ρ c 3).trans (((dat6 (V13 m ρ) c).arrAt_in 3 rfl _).trans (A_eq6 (V13 m ρ) c 3))
  by_cases h4 : Pipeline.arrRef spec6 4 = b
  · subst h4; exact (W14_arr m ρ c 4).trans (((dat6 (V13 m ρ) c).arrAt_in 4 rfl _).trans (A_eq6 (V13 m ρ) c 4))
  exact W14_of_ne m ρ c b fun w => match w with
    | ⟨0, _⟩ => h0
    | ⟨1, _⟩ => h1
    | ⟨2, _⟩ => h2
    | ⟨3, _⟩ => h3
    | ⟨4, _⟩ => h4
    | ⟨5, _⟩ => fun e => hb e.symm

theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

theorem W2_keep (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb

theorem W3_keep (c : Dev nD) (b : Ref sig .tc) (hb : b ∉ hostOps0_2_W) :
    W3 m ρ c (Proc.devRef .tc b) = W2 m ρ c (Proc.devRef .tc b) :=
  StableHlo.after_of_writes_sub hostOps0_2 _ hostOps0_2_writes hb

theorem W5_keep (c : Dev nD) (b : Ref sig .tc) (hb : b ∉ hostOps1_W) :
    W5 m ρ c (Proc.devRef .tc b) = W4 m ρ c (Proc.devRef .tc b) :=
  StableHlo.after_of_writes_sub hostOps1 _ hostOps1_writes hb

theorem W8_keep (c : Dev nD) (b : Ref sig .tc) (hb : b ∉ hostOps3_W) :
    W8 m ρ c (Proc.devRef .tc b) = W7 m ρ c (Proc.devRef .tc b) :=
  StableHlo.after_of_writes_sub hostOps3 _ hostOps3_writes hb

theorem W11_keep (c : Dev nD) (b : Ref sig .tc) (hb : b ∉ hostOps5_W) :
    W11 m ρ c (Proc.devRef .tc b) = W10 m ρ c (Proc.devRef .tc b) :=
  StableHlo.after_of_writes_sub hostOps5 _ hostOps5_writes hb

theorem W13_keep (c : Dev nD) (b : Ref sig .tc) (hb : b ∉ hostOps6_W) :
    W13 m ρ c (Proc.devRef .tc b) = W12 m ρ c (Proc.devRef .tc b) :=
  StableHlo.after_of_writes_sub hostOps6 _ hostOps6_writes hb

/-! ## No item writes an argument -/
theorem W14_main_arg0 (c : Dev nD) : W14 m ρ c (Proc.devRef .tc main_arg0) = m ((c : Thread nD τ).loc main_arg0) :=
  (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl
theorem W14_main_arg1 (c : Dev nD) : W14 m ρ c (Proc.devRef .tc main_arg1) = m ((c : Thread nD τ).loc main_arg1) :=
  (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl
theorem W14_main_arg2 (c : Dev nD) : W14 m ρ c (Proc.devRef .tc main_arg2) = m ((c : Thread nD τ).loc main_arg2) :=
  (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl
theorem W14_main_arg3 (c : Dev nD) : W14 m ρ c (Proc.devRef .tc main_arg3) = m ((c : Thread nD τ).loc main_arg3) :=
  (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl
theorem W14_main_arg4 (c : Dev nD) : W14 m ρ c (Proc.devRef .tc main_arg4) = m ((c : Thread nD τ).loc main_arg4) :=
  (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl
theorem W14_main_arg5 (c : Dev nD) : W14 m ρ c (Proc.devRef .tc main_arg5) = m ((c : Thread nD τ).loc main_arg5) :=
  (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl
theorem W14_main_arg6 (c : Dev nD) : W14 m ρ c (Proc.devRef .tc main_arg6) = m ((c : Thread nD τ).loc main_arg6) :=
  (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl
theorem W14_main_arg7 (c : Dev nD) : W14 m ρ c (Proc.devRef .tc main_arg7) = m ((c : Thread nD τ).loc main_arg7) :=
  (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl
theorem W14_main_arg8 (c : Dev nD) : W14 m ρ c (Proc.devRef .tc main_arg8) = m ((c : Thread nD τ).loc main_arg8) :=
  (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl
theorem W14_main_arg9 (c : Dev nD) : W14 m ρ c (Proc.devRef .tc main_arg9) = m ((c : Thread nD τ).loc main_arg9) :=
  (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl
theorem W14_main_arg10 (c : Dev nD) : W14 m ρ c (Proc.devRef .tc main_arg10) = m ((c : Thread nD τ).loc main_arg10) :=
  (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans rfl
theorem W14_main_arg11 (c : Dev nD) : W14 m ρ c (Proc.devRef .tc main_arg11) = m ((c : Thread nD τ).loc main_arg11) :=
  (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans rfl
theorem W14_main_arg12 (c : Dev nD) : W14 m ρ c (Proc.devRef .tc main_arg12) = m ((c : Thread nD τ).loc main_arg12) :=
  (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans rfl
theorem W14_main_arg13 (c : Dev nD) : W14 m ρ c (Proc.devRef .tc main_arg13) = m ((c : Thread nD τ).loc main_arg13) :=
  (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans rfl
theorem W14_main_arg14 (c : Dev nD) : W14 m ρ c (Proc.devRef .tc main_arg14) = m ((c : Thread nD τ).loc main_arg14) :=
  (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans rfl

/-! ## The pipelines' data, the thread state, the segments -/

abbrev adm : (p : Fin 7) → (pcfgs (F := F) p).Adm := fun p => (cfgs p).toPCfg_adm
/-- Every pipeline's data at its region's entry contents. -/
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

set_option backward.isDefEq.respectTransparency.types false in
/-- Region 0 as a segment: entered from all unscoped buffers at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from all unscoped buffers at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from all unscoped buffers at `W6`, left at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from all unscoped buffers at `W8`, left at `W9`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from all unscoped buffers at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from all unscoped buffers at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from all unscoped buffers at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

set_option backward.isDefEq.respectTransparency.types false in
/-- Every weakly fair execution of @main from memory `m` with zero counters terminates, nothing faulting, and in the final
    memory every unscoped buffer of every core holds the fold's last contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c)⟩)
    (run_all m ρ)

end Cert.Kernel.Hand

end
-- ==== Proof.KI.Data.lean ====
/-
  The data every later module of this proof speaks about, for the program's seven kernel regions and the host operations
  between them: per region, a window's block of the array found on entry, what one run of the body leaves in the output
  buffer (one whole-buffer store of the body's arithmetic on the input buffers), and the pipeline's data built from them;
  then the contents of every buffer after each item of @main, folded from the launch memory. Definitions and their
  projections only.
-/
import proofs.«166593_j71528385348100_1_alg».proof.Proof.Gen.KernelIdeal.Launch
import proofs.«166593_j71528385348100_1_alg».proof.Proof.Gen.KernelIdeal.Skeleton
import proofs.«166593_j71528385348100_1_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: a block of 2000 rows of the node features times the whole weight matrix -/

/-- Window `w`'s block at grid point `t`, read off the array the region finds on entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What one run of the body leaves in the output window's buffer: its single whole-buffer store, of the body's
    arithmetic applied to the whole input buffers. -/
def out0_2 (x0 : Vec F S2000x128 .f32) (x1 : Vec F S128x256 .f32) : Vec F S2000x256 .f32 :=
  View.canon [⟨(Rect.unit (s := S2000x256) ![0, 0] S2000x256.size inb_S2000x256_S2000x256_0_0), k0_pay1 (View.ld x0 (Rect.unit (s := S2000x128) ![0, 0] S2000x128.size inb_S2000x128_S2000x128_0_0)) (View.ld x1 (Rect.unit (s := S128x256) ![0, 0] S128x256.size inb_S128x256_S128x256_0_0))⟩]

/-- The pipeline's data on core `c`: arrays as found on entry; after the body every input buffer still holds its block and
    the output buffer holds the body's result on the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: a block of 2000 aggregated rows plus the bias row, clamped below at zero -/

/-- Window `w`'s block at grid point `t`, read off the array the region finds on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What one run of the body leaves in the output window's buffer: its single whole-buffer store, of the body's
    arithmetic applied to the whole input buffers. -/
def out1_2 (x0 : Vec F S2000x256 .f32) (x1 : Vec F S1x256 .f32) : Vec F S2000x256 .f32 :=
  View.canon [⟨(Rect.unit (s := S2000x256) ![0, 0] S2000x256.size inb_S2000x256_S2000x256_0_0), k1_pay1 (View.ld x0 (Rect.unit (s := S2000x256) ![0, 0] S2000x256.size inb_S2000x256_S2000x256_0_0)) (View.ld x1 (Rect.unit (s := S1x256) ![0, 0] S1x256.size inb_S1x256_S1x256_0_0))⟩]

/-- The pipeline's data on core `c`: arrays as found on entry; after the body every input buffer still holds its block and
    the output buffer holds the body's result on the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-! ## Region 2: a block of 2000 rows of the hidden features times the whole weight matrix -/

/-- Window `w`'s block at grid point `t`, read off the array the region finds on entry. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What one run of the body leaves in the output window's buffer: its single whole-buffer store, of the body's
    arithmetic applied to the whole input buffers. -/
def out2_2 (x0 : Vec F S2000x256 .f32) (x1 : Vec F S256x256 .f32) : Vec F S2000x256 .f32 :=
  View.canon [⟨(Rect.unit (s := S2000x256) ![0, 0] S2000x256.size inb_S2000x256_S2000x256_0_0), k2_pay1 (View.ld x0 (Rect.unit (s := S2000x256) ![0, 0] S2000x256.size inb_S2000x256_S2000x256_0_0)) (View.ld x1 (Rect.unit (s := S256x256) ![0, 0] S256x256.size inb_S256x256_S256x256_0_0))⟩]

/-- The pipeline's data on core `c`: arrays as found on entry; after the body every input buffer still holds its block and
    the output buffer holds the body's result on the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-! ## Region 3: a block of 2000 aggregated rows plus the bias row, clamped below at zero -/

/-- Window `w`'s block at grid point `t`, read off the array the region finds on entry. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What one run of the body leaves in the output window's buffer: its single whole-buffer store, of the body's
    arithmetic applied to the whole input buffers. -/
def out3_2 (x0 : Vec F S2000x256 .f32) (x1 : Vec F S1x256 .f32) : Vec F S2000x256 .f32 :=
  View.canon [⟨(Rect.unit (s := S2000x256) ![0, 0] S2000x256.size inb_S2000x256_S2000x256_0_0), k3_pay1 (View.ld x0 (Rect.unit (s := S2000x256) ![0, 0] S2000x256.size inb_S2000x256_S2000x256_0_0)) (View.ld x1 (Rect.unit (s := S1x256) ![0, 0] S1x256.size inb_S1x256_S1x256_0_0))⟩]

/-- The pipeline's data on core `c`: arrays as found on entry; after the body every input buffer still holds its block and
    the output buffer holds the body's result on the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! ## Region 4: a block of 2000 rows of the hidden features times the whole weight matrix -/

/-- Window `w`'s block at grid point `t`, read off the array the region finds on entry. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- What one run of the body leaves in the output window's buffer: its single whole-buffer store, of the body's
    arithmetic applied to the whole input buffers. -/
def out4_2 (x0 : Vec F S2000x256 .f32) (x1 : Vec F S256x256 .f32) : Vec F S2000x256 .f32 :=
  View.canon [⟨(Rect.unit (s := S2000x256) ![0, 0] S2000x256.size inb_S2000x256_S2000x256_0_0), k4_pay1 (View.ld x0 (Rect.unit (s := S2000x256) ![0, 0] S2000x256.size inb_S2000x256_S2000x256_0_0)) (View.ld x1 (Rect.unit (s := S256x256) ![0, 0] S256x256.size inb_S256x256_S256x256_0_0))⟩]

/-- The pipeline's data on core `c`: arrays as found on entry; after the body every input buffer still holds its block and
    the output buffer holds the body's result on the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-! ## Region 5: a block of 2000 aggregated rows plus the bias row, clamped below at zero -/

/-- Window `w`'s block at grid point `t`, read off the array the region finds on entry. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What one run of the body leaves in the output window's buffer: its single whole-buffer store, of the body's
    arithmetic applied to the whole input buffers. -/
def out5_2 (x0 : Vec F S2000x256 .f32) (x1 : Vec F S1x256 .f32) : Vec F S2000x256 .f32 :=
  View.canon [⟨(Rect.unit (s := S2000x256) ![0, 0] S2000x256.size inb_S2000x256_S2000x256_0_0), k5_pay1 (View.ld x0 (Rect.unit (s := S2000x256) ![0, 0] S2000x256.size inb_S2000x256_S2000x256_0_0)) (View.ld x1 (Rect.unit (s := S1x256) ![0, 0] S1x256.size inb_S1x256_S1x256_0_0))⟩]

/-- The pipeline's data on core `c`: arrays as found on entry; after the body every input buffer still holds its block and
    the output buffer holds the body's result on the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-! ## Region 6: the two-layer head on all 512 pooled rows at once -/

/-- Window `w`'s block at grid point `t`, read off the array the region finds on entry. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- What one run of the body leaves in the output window's buffer: its single whole-buffer store, of the body's
    arithmetic applied to the whole input buffers. -/
def out6_5 (x0 : Vec F S512x258 .f32) (x1 : Vec F S258x196 .f32) (x2 : Vec F S1x196 .f32) (x3 : Vec F S196x16 .f32) (x4 : Vec F S1x16 .f32) : Vec F S512x16 .f32 :=
  View.canon [⟨(Rect.unit (s := S512x16) ![0, 0] S512x16.size inb_S512x16_S512x16_0_0), k6_pay1 (View.ld x0 (Rect.unit (s := S512x258) ![0, 0] S512x258.size inb_S512x258_S512x258_0_0)) (View.ld x1 (Rect.unit (s := S258x196) ![0, 0] S258x196.size inb_S258x196_S258x196_0_0)) (View.ld x2 (Rect.unit (s := S1x196) ![0, 0] S1x196.size inb_S1x196_S1x196_0_0)) (View.ld x3 (Rect.unit (s := S196x16) ![0, 0] S196x16.size inb_S196x16_S196x16_0_0)) (View.ld x4 (Rect.unit (s := S1x16) ![0, 0] S1x16.size inb_S1x16_S1x16_0_0))⟩]

/-- The pipeline's data on core `c`: arrays as found on entry; after the body every input buffer still holds its block and
    the output buffer holds the body's result on the input blocks; nothing owed, full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

end Regions

/-! ## The buffers' contents between @main's items

Core `c`'s buffer contents after each item of @main, folded from the launch memory: a stretch of host operations applies
them in order; a kernel region leaves each of its windows' arrays at what its write-backs add up to and every other buffer
as it was. -/

variable (m : (ℓ : Loc nD τ sig) → Buf (Elt F) ℓ) (ρ : Dev nD → PrngReg)

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After kernel region 0. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch `hostOps1`. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
/-- After kernel region 1. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After kernel region 2. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)
/-- After the host stretch `hostOps3`. -/
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
/-- After kernel region 3. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)
/-- After kernel region 4. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- After the host stretch `hostOps5`. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After kernel region 5. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- After the host stretch `hostOps6`. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After kernel region 6. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

end Cert.KernelIdeal.Hand

end
-- ==== Proof.KI.Reg0.lean ====
/-
  Kernel region 0 (a block of 2000 rows of the node features times the whole weight matrix): the body, run on whole staging buffers that hold the inputs' blocks, ends with the inputs'
  buffers as they were and the output's buffer at its single store's payload; hence the pipeline's body obligation at every
  grid point, over the data of KI/Data. The body also loads its output buffer before storing into it; nothing it computes
  depends on that load.
-/
import proofs.«166593_j71528385348100_1_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d

/-- Input window 1's current buffer holds its block at every grid point, whether the pipeline fetched it there or the
    block index has not moved since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_1 (c : Dev nD) (t : Fin cfg0.N) (d) : (dat0 V c).before 1 t d = iblk0 V c 1 t :=
  before0_1_of V (dat0 V c) (A_eq0 V c 1) (after0_1 V c) t d

/-- The one store covers the output buffer. -/
theorem cover0_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out0_2` of the inputs. -/
theorem sound_kernel0 (c : Dev nD) (E : Set ℕ) (i : grid0.Coords) (arg1 : Memref sig .tc .vmem S2000x128 .f32) (harg1 : arg1.IsWhole) (arg2 : Memref sig .tc .vmem S128x256 .f32) (harg2 : arg2.IsWhole) (arg3 : Memref sig .tc .vmem S2000x256 .f32) (harg3 : arg3.IsWhole)
    (x0 : Vec F S2000x128 .f32) (x1 : Vec F S128x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ Kont ⟨⟩))
      ⊢ wp frame (wpE (defs₀ (F := F)) Variants.none c none) E (cc0__linear_kernel i arg1 harg1 arg2 harg2 arg3 harg3) Kont := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the pipeline calls the body with at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it must return. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Kernel region 1 (a block of 2000 aggregated rows plus the bias row, clamped below at zero): the body, run on whole staging buffers that hold the inputs' blocks, ends with the inputs'
  buffers as they were and the output's buffer at its single store's payload; hence the pipeline's body obligation at every
  grid point, over the data of KI/Data. The body also loads its output buffer before storing into it; nothing it computes
  depends on that load.
-/
import proofs.«166593_j71528385348100_1_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d

/-- Input window 1's current buffer holds its block at every grid point, whether the pipeline fetched it there or the
    block index has not moved since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_1 (c : Dev nD) (t : Fin cfg1.N) (d) : (dat1 V c).before 1 t d = iblk1 V c 1 t :=
  before1_1_of V (dat1 V c) (A_eq1 V c 1) (after1_1 V c) t d

/-- The one store covers the output buffer. -/
theorem cover1_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out1_2` of the inputs. -/
theorem sound_kernel1 (c : Dev nD) (E : Set ℕ) (i : grid1.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ Kont ⟨⟩))
      ⊢ wp frame (wpE (defs₀ (F := F)) Variants.none c none) E (cc1__bias_relu_kernel i arg1 harg1 arg2 harg2 arg3 harg3) Kont := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- What the pipeline calls the body with at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it must return. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Kernel region 2 (a block of 2000 rows of the hidden features times the whole weight matrix): the body, run on whole staging buffers that hold the inputs' blocks, ends with the inputs'
  buffers as they were and the output's buffer at its single store's payload; hence the pipeline's body obligation at every
  grid point, over the data of KI/Data. The body also loads its output buffer before storing into it; nothing it computes
  depends on that load.
-/
import proofs.«166593_j71528385348100_1_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d

/-- Input window 1's current buffer holds its block at every grid point, whether the pipeline fetched it there or the
    block index has not moved since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_1 (c : Dev nD) (t : Fin cfg2.N) (d) : (dat2 V c).before 1 t d = iblk2 V c 1 t :=
  before2_1_of V (dat2 V c) (A_eq2 V c 1) (after2_1 V c) t d

/-- The one store covers the output buffer. -/
theorem cover2_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out2_2` of the inputs. -/
theorem sound_kernel2 (c : Dev nD) (E : Set ℕ) (i : grid2.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ Kont ⟨⟩))
      ⊢ wp frame (wpE (defs₀ (F := F)) Variants.none c none) E (cc2__linear_kernel i arg1 harg1 arg2 harg2 arg3 harg3) Kont := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- What the pipeline calls the body with at grid point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it must return. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Kernel region 3 (a block of 2000 aggregated rows plus the bias row, clamped below at zero): the body, run on whole staging buffers that hold the inputs' blocks, ends with the inputs'
  buffers as they were and the output's buffer at its single store's payload; hence the pipeline's body obligation at every
  grid point, over the data of KI/Data. The body also loads its output buffer before storing into it; nothing it computes
  depends on that load.
-/
import proofs.«166593_j71528385348100_1_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_0 (c : Dev nD) (t : Fin cfg3.N) (d) : (dat3 V c).before 0 t d = iblk3 V c 0 t :=
  before3_0_of V (dat3 V c) (A_eq3 V c 0) (after3_0 V c) t d

/-- Input window 1's current buffer holds its block at every grid point, whether the pipeline fetched it there or the
    block index has not moved since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_1 (c : Dev nD) (t : Fin cfg3.N) (d) : (dat3 V c).before 1 t d = iblk3 V c 1 t :=
  before3_1_of V (dat3 V c) (A_eq3 V c 1) (after3_1 V c) t d

/-- The one store covers the output buffer. -/
theorem cover3_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out3_2` of the inputs. -/
theorem sound_kernel3 (c : Dev nD) (E : Set ℕ) (i : grid3.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ Kont ⟨⟩))
      ⊢ wp frame (wpE (defs₀ (F := F)) Variants.none c none) E (cc3__bias_relu_kernel i arg1 harg1 arg2 harg2 arg3 harg3) Kont := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the pipeline calls the body with at grid point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it must return. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Kernel region 4 (a block of 2000 rows of the hidden features times the whole weight matrix): the body, run on whole staging buffers that hold the inputs' blocks, ends with the inputs'
  buffers as they were and the output's buffer at its single store's payload; hence the pipeline's body obligation at every
  grid point, over the data of KI/Data. The body also loads its output buffer before storing into it; nothing it computes
  depends on that load.
-/
import proofs.«166593_j71528385348100_1_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_0 (c : Dev nD) (t : Fin cfg4.N) (d) : (dat4 V c).before 0 t d = iblk4 V c 0 t :=
  before4_0_of V (dat4 V c) (A_eq4 V c 0) (after4_0 V c) t d

/-- Input window 1's current buffer holds its block at every grid point, whether the pipeline fetched it there or the
    block index has not moved since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_1 (c : Dev nD) (t : Fin cfg4.N) (d) : (dat4 V c).before 1 t d = iblk4 V c 1 t :=
  before4_1_of V (dat4 V c) (A_eq4 V c 1) (after4_1 V c) t d

/-- The one store covers the output buffer. -/
theorem cover4_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out4_2` of the inputs. -/
theorem sound_kernel4 (c : Dev nD) (E : Set ℕ) (i : grid4.Coords) (arg1 : Memref sig .tc .vmem S2000x256 .f32) (harg1 : arg1.IsWhole) (arg2 : Memref sig .tc .vmem S256x256 .f32) (harg2 : arg2.IsWhole) (arg3 : Memref sig .tc .vmem S2000x256 .f32) (harg3 : arg3.IsWhole)
    (x0 : Vec F S2000x256 .f32) (x1 : Vec F S256x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ Kont ⟨⟩))
      ⊢ wp frame (wpE (defs₀ (F := F)) Variants.none c none) E (cc4__linear_kernel i arg1 harg1 arg2 harg2 arg3 harg3) Kont := by
  simp only [cc4__linear_kernel_eq_skeleton]; unfold cc4__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- What the pipeline calls the body with at grid point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it must return. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/-
  Kernel region 5 (a block of 2000 aggregated rows plus the bias row, clamped below at zero): the body, run on whole staging buffers that hold the inputs' blocks, ends with the inputs'
  buffers as they were and the output's buffer at its single store's payload; hence the pipeline's body obligation at every
  grid point, over the data of KI/Data. The body also loads its output buffer before storing into it; nothing it computes
  depends on that load.
-/
import proofs.«166593_j71528385348100_1_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_0 (c : Dev nD) (t : Fin cfg5.N) (d) : (dat5 V c).before 0 t d = iblk5 V c 0 t :=
  before5_0_of V (dat5 V c) (A_eq5 V c 0) (after5_0 V c) t d

/-- Input window 1's current buffer holds its block at every grid point, whether the pipeline fetched it there or the
    block index has not moved since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_1 (c : Dev nD) (t : Fin cfg5.N) (d) : (dat5 V c).before 1 t d = iblk5 V c 1 t :=
  before5_1_of V (dat5 V c) (A_eq5 V c 1) (after5_1 V c) t d

/-- The one store covers the output buffer. -/
theorem cover5_2 (p0 : Vec F S2000x256 .f32) (y : S2000x256.Idx) :
    ∃ pc ∈ ([⟨(Rect.unit (s := S2000x256) ![0, 0] S2000x256.size inb_S2000x256_S2000x256_0_0), p0⟩] : List (View.Piece (Elt F) S2000x256 .f32)), y ∈ pc.1.set :=
  View.cover_of_tiled [⟨(Rect.unit (s := S2000x256) ![0, 0] S2000x256.size inb_S2000x256_S2000x256_0_0), p0⟩] S2000x256.size (by rfl) y

set_option maxHeartbeats 1000000 in
/-- The body on whole staging buffers: inputs at contents `x`, the output at anything; it returns the inputs untouched and
    the output at `out5_2` of the inputs. -/
theorem sound_kernel5 (c : Dev nD) (E : Set ℕ) (i : grid5.Coords) (arg1 : Memref sig .tc .vmem S2000x256 .f32) (harg1 : arg1.IsWhole) (arg2 : Memref sig .tc .vmem S1x256 .f32) (harg2 : arg2.IsWhole) (arg3 : Memref sig .tc .vmem S2000x256 .f32) (harg3 : arg3.IsWhole)
    (x0 : Vec F S2000x256 .f32) (x1 : Vec F S1x256 .f32) (Kont : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ Kont ⟨⟩))
      ⊢ wp frame (wpE (defs₀ (F := F)) Variants.none c none) E (cc5__bias_relu_kernel i arg1 harg1 arg2 harg2 arg3 harg3) Kont := by
  simp only [cc5__bias_relu_kernel_eq_skeleton]; unfold cc5__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- What the pipeline calls the body with at grid point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it must return. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/-
  Kernel region 6 (the two-layer head on all 512 pooled rows at once): the body, run on whole staging buffers that hold the inputs' blocks, ends with the inputs'
  buffers as they were and the output's buffer at its single store's payload; hence the pipeline's body obligation at every
  grid point, over the data of KI/Data. The body also loads its output buffer before storing into it; nothing it computes
  depends on that load.
-/
import proofs.«166593_j71528385348100_1_alg».proof.Proof.KI.Data
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current buffer holds its block at every grid point, whether the pipeline fetched it there or the
    block index has not moved since the last fetch. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_0 (c : Dev nD) (t : Fin cfg6.N) (d) : (dat6 V c).before 0 t d = iblk6 V c 0 t :=
  before6_0_of V (dat6 V c) (A_eq6 V c 0) (after6_0 V c) t d

/-- Input window 1's current buffer holds its block at every grid point, whether the pipeline fetched it there or the
    block index has not moved since the last fetch. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_1 (c : Dev nD) (t : Fin cfg6.N) (d) : (dat6 V c).before 1 t d = iblk6 V c 1 t :=
  before6_1_of V (dat6 V c) (A_eq6 V c 1) (after6_1 V c) t d

/-- Input window 2's current buffer holds its block at every grid point, whether the pipeline fetched it there or the
    block index has not moved since the last fetch. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_2 (c : Dev nD) (t : Fin cfg6.N) (d) : (dat6 V c).before 2 t d = iblk6 V c 2 t :=
  before6_2_of V (dat6 V c) (A_eq6 V c 2) (after6_2 V c) t d

/-- Input window 3's current buffer holds its block at every grid point, whether the pipeline fetched it there or the
    block index has not moved since the last fetch. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_3 (c : Dev nD) (t : Fin cfg6.N) (d) : (dat6 V c).before 3 t d = iblk6 V c 3 t :=
  before6_3_of V (dat6 V c) (A_eq6 V c 3) (after6_3 V c) t d

/-- Input window 4's current buffer holds its block at every grid point, whether the pipeline fetched it there or the
    block index has not moved since the last fetch. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_4 (c : Dev nD) (t : Fin cfg6.N) (d) : (dat6 V c).before 4 t d = iblk6 V c 4 t :=
  before6_4_of V (dat6 V c) (A_eq6 V c 4) (after6_4 V c) t d

/-- The one store covers the output buffer. -/
theorem cover6_5 (p0 : Vec F S512x16 .f32) (y : S512x16.Idx) :
    ∃ pc ∈ ([⟨(Rect.unit (s := S512x16) ![0, 0] S512x16.size inb_S512x16_S512x16_0_0), p0⟩] : List (View.Piece (Elt F) S512x16 .f32)), y ∈ pc.1.set :=
  View.cover_of_tiled [⟨(Rect.unit (s := S512x16) ![0, 0] S512x16.size inb_S512x16_S512x16_0_0), p0⟩] S512x16.size (by rfl) y

set_option maxHeartbeats 1000000 in
/-- The body on whole staging buffers: inputs at contents `x`, the output at anything; it returns the inputs untouched and
    the output at `out6_5` of the inputs. -/
theorem sound_kernel6 (c : Dev nD) (E : Set ℕ) (i : grid6.Coords) (arg1 : Memref sig .tc .vmem S512x258 .f32) (harg1 : arg1.IsWhole) (arg2 : Memref sig .tc .vmem S258x196 .f32) (harg2 : arg2.IsWhole) (arg3 : Memref sig .tc .vmem S1x196 .f32) (harg3 : arg3.IsWhole) (arg4 : Memref sig .tc .vmem S196x16 .f32) (harg4 : arg4.IsWhole) (arg5 : Memref sig .tc .vmem S1x16 .f32) (harg5 : arg5.IsWhole) (arg6 : Memref sig .tc .vmem S512x16 .f32) (harg6 : arg6.IsWhole)
    (x0 : Vec F S512x258 .f32) (x1 : Vec F S258x196 .f32) (x2 : Vec F S1x196 .f32) (x3 : Vec F S196x16 .f32) (x4 : Vec F S1x16 .f32) (Kont : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ Kont ⟨⟩))
      ⊢ wp frame (wpE (defs₀ (F := F)) Variants.none c none) E (cc6__mlp_head_kernel i arg1 harg1 arg2 harg2 arg3 harg3 arg4 harg4 arg5 harg5 arg6 harg6) Kont := by
  simp only [cc6__mlp_head_kernel_eq_skeleton]; unfold cc6__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- What the pipeline calls the body with at grid point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it must return. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every grid point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Run.lean ====
/-
  The whole run of @main: fourteen items, host stretches and kernel regions alternating. Every item is entered with all
  unscoped buffers held at the fold's contents before it (KI/Data's `W`) and left with them at the contents after it; a
  region splits its windows' arrays out of those buffers, runs its pipeline on the body obligation of its module, and
  puts the arrays back at what the write-backs add up to. The launch hands out the first contents, and at the end every
  unscoped buffer is read back at the last contents `W14`: the result array and, since no item writes an argument, the
  arguments as launched.
-/
import proofs.«166593_j71528385348100_1_alg».proof.Proof.KI.Reg0
import proofs.«166593_j71528385348100_1_alg».proof.Proof.KI.Reg1
import proofs.«166593_j71528385348100_1_alg».proof.Proof.KI.Reg2
import proofs.«166593_j71528385348100_1_alg».proof.Proof.KI.Reg3
import proofs.«166593_j71528385348100_1_alg».proof.Proof.KI.Reg4
import proofs.«166593_j71528385348100_1_alg».proof.Proof.KI.Reg5
import proofs.«166593_j71528385348100_1_alg».proof.Proof.KI.Reg6
import proofs.«166593_j71528385348100_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves alone -/

/-- Region 0 changes no buffer but its output array `main_v30`: an input window's array is written back as read, any
    other buffer is not the pipeline's. -/
theorem W4_keep (c : Dev nD) (b : Ref sig .tc) (hb : b ≠ main_v30) :
    W4 m ρ c (Proc.devRef .tc b) = W3 m ρ c (Proc.devRef .tc b) := by
  by_cases h0 : Pipeline.arrRef spec0 0 = b
  · subst h0; exact (W4_arr m ρ c 0).trans (((dat0 (V3 m ρ) c).arrAt_in 0 rfl _).trans (A_eq0 (V3 m ρ) c 0))
  by_cases h1 : Pipeline.arrRef spec0 1 = b
  · subst h1; exact (W4_arr m ρ c 1).trans (((dat0 (V3 m ρ) c).arrAt_in 1 rfl _).trans (A_eq0 (V3 m ρ) c 1))
  exact W4_of_ne m ρ c b fun w => match w with
    | ⟨0, _⟩ => h0
    | ⟨1, _⟩ => h1
    | ⟨2, _⟩ => fun e => hb e.symm

/-- Region 1 changes no buffer but its output array `main_v45`: an input window's array is written back as read, any
    other buffer is not the pipeline's. -/
theorem W6_keep (c : Dev nD) (b : Ref sig .tc) (hb : b ≠ main_v45) :
    W6 m ρ c (Proc.devRef .tc b) = W5 m ρ c (Proc.devRef .tc b) := by
  by_cases h0 : Pipeline.arrRef spec1 0 = b
  · subst h0; exact (W6_arr m ρ c 0).trans (((dat1 (V5 m ρ) c).arrAt_in 0 rfl _).trans (A_eq1 (V5 m ρ) c 0))
  by_cases h1 : Pipeline.arrRef spec1 1 = b
  · subst h1; exact (W6_arr m ρ c 1).trans (((dat1 (V5 m ρ) c).arrAt_in 1 rfl _).trans (A_eq1 (V5 m ρ) c 1))
  exact W6_of_ne m ρ c b fun w => match w with
    | ⟨0, _⟩ => h0
    | ⟨1, _⟩ => h1
    | ⟨2, _⟩ => fun e => hb e.symm

/-- Region 2 changes no buffer but its output array `main_v46`: an input window's array is written back as read, any
    other buffer is not the pipeline's. -/
theorem W7_keep (c : Dev nD) (b : Ref sig .tc) (hb : b ≠ main_v46) :
    W7 m ρ c (Proc.devRef .tc b) = W6 m ρ c (Proc.devRef .tc b) := by
  by_cases h0 : Pipeline.arrRef spec2 0 = b
  · subst h0; exact (W7_arr m ρ c 0).trans (((dat2 (V6 m ρ) c).arrAt_in 0 rfl _).trans (A_eq2 (V6 m ρ) c 0))
  by_cases h1 : Pipeline.arrRef spec2 1 = b
  · subst h1; exact (W7_arr m ρ c 1).trans (((dat2 (V6 m ρ) c).arrAt_in 1 rfl _).trans (A_eq2 (V6 m ρ) c 1))
  exact W7_of_ne m ρ c b fun w => match w with
    | ⟨0, _⟩ => h0
    | ⟨1, _⟩ => h1
    | ⟨2, _⟩ => fun e => hb e.symm

/-- Region 3 changes no buffer but its output array `main_v61`: an input window's array is written back as read, any
    other buffer is not the pipeline's. -/
theorem W9_keep (c : Dev nD) (b : Ref sig .tc) (hb : b ≠ main_v61) :
    W9 m ρ c (Proc.devRef .tc b) = W8 m ρ c (Proc.devRef .tc b) := by
  by_cases h0 : Pipeline.arrRef spec3 0 = b
  · subst h0; exact (W9_arr m ρ c 0).trans (((dat3 (V8 m ρ) c).arrAt_in 0 rfl _).trans (A_eq3 (V8 m ρ) c 0))
  by_cases h1 : Pipeline.arrRef spec3 1 = b
  · subst h1; exact (W9_arr m ρ c 1).trans (((dat3 (V8 m ρ) c).arrAt_in 1 rfl _).trans (A_eq3 (V8 m ρ) c 1))
  exact W9_of_ne m ρ c b fun w => match w with
    | ⟨0, _⟩ => h0
    | ⟨1, _⟩ => h1
    | ⟨2, _⟩ => fun e => hb e.symm

/-- Region 4 changes no buffer but its output array `main_v62`: an input window's array is written back as read, any
    other buffer is not the pipeline's. -/
theorem W10_keep (c : Dev nD) (b : Ref sig .tc) (hb : b ≠ main_v62) :
    W10 m ρ c (Proc.devRef .tc b) = W9 m ρ c (Proc.devRef .tc b) := by
  by_cases h0 : Pipeline.arrRef spec4 0 = b
  · subst h0; exact (W10_arr m ρ c 0).trans (((dat4 (V9 m ρ) c).arrAt_in 0 rfl _).trans (A_eq4 (V9 m ρ) c 0))
  by_cases h1 : Pipeline.arrRef spec4 1 = b
  · subst h1; exact (W10_arr m ρ c 1).trans (((dat4 (V9 m ρ) c).arrAt_in 1 rfl _).trans (A_eq4 (V9 m ρ) c 1))
  exact W10_of_ne m ρ c b fun w => match w with
    | ⟨0, _⟩ => h0
    | ⟨1, _⟩ => h1
    | ⟨2, _⟩ => fun e => hb e.symm

/-- Region 5 changes no buffer but its output array `main_v77`: an input window's array is written back as read, any
    other buffer is not the pipeline's. -/
theorem W12_keep (c : Dev nD) (b : Ref sig .tc) (hb : b ≠ main_v77) :
    W12 m ρ c (Proc.devRef .tc b) = W11 m ρ c (Proc.devRef .tc b) := by
  by_cases h0 : Pipeline.arrRef spec5 0 = b
  · subst h0; exact (W12_arr m ρ c 0).trans (((dat5 (V11 m ρ) c).arrAt_in 0 rfl _).trans (A_eq5 (V11 m ρ) c 0))
  by_cases h1 : Pipeline.arrRef spec5 1 = b
  · subst h1; exact (W12_arr m ρ c 1).trans (((dat5 (V11 m ρ) c).arrAt_in 1 rfl _).trans (A_eq5 (V11 m ρ) c 1))
  exact W12_of_ne m ρ c b fun w => match w with
    | ⟨0, _⟩ => h0
    | ⟨1, _⟩ => h1
    | ⟨2, _⟩ => fun e => hb e.symm

/-- Region 6 changes no buffer but its output array `main_v93`: an input window's array is written back as read, any
    other buffer is not the pipeline's. -/
theorem W14_keep (c : Dev nD) (b : Ref sig .tc) (hb : b ≠ main_v93) :
    W14 m ρ c (Proc.devRef .tc b) = W13 m ρ c (Proc.devRef .tc b) := by
  by_cases h0 : Pipeline.arrRef spec6 0 = b
  · subst h0; exact (W14_arr m ρ c 0).trans (((dat6 (V13 m ρ) c).arrAt_in 0 rfl _).trans (A_eq6 (V13 m ρ) c 0))
  by_cases h1 : Pipeline.arrRef spec6 1 = b
  · subst h1; exact (W14_arr m ρ c 1).trans (((dat6 (V13 m ρ) c).arrAt_in 1 rfl _).trans (A_eq6 (V13 m ρ) c 1))
  by_cases h2 : Pipeline.arrRef spec6 2 = b
  · subst h2; exact (W14_arr m ρ c 2).trans (((dat6 (V13 m ρ) c).arrAt_in 2 rfl _).trans (A_eq6 (V13 m ρ) c 2))
  by_cases h3 : Pipeline.arrRef spec6 3 = b
  · subst h3; exact (W14_arr m ρ c 3).trans (((dat6 (V13 m ρ) c).arrAt_in 3 rfl _).trans (A_eq6 (V13 m ρ) c 3))
  by_cases h4 : Pipeline.arrRef spec6 4 = b
  · subst h4; exact (W14_arr m ρ c 4).trans (((dat6 (V13 m ρ) c).arrAt_in 4 rfl _).trans (A_eq6 (V13 m ρ) c 4))
  exact W14_of_ne m ρ c b fun w => match w with
    | ⟨0, _⟩ => h0
    | ⟨1, _⟩ => h1
    | ⟨2, _⟩ => h2
    | ⟨3, _⟩ => h3
    | ⟨4, _⟩ => h4
    | ⟨5, _⟩ => fun e => hb e.symm

theorem W1_keep (c : Dev nD) (b : Ref sig .tc) (hb : b ∉ hostOps0_W) :
    W1 m ρ c (Proc.devRef .tc b) = W0 m ρ c (Proc.devRef .tc b) :=
  StableHlo.after_of_writes_sub hostOps0 _ hostOps0_writes hb

theorem W2_keep (c : Dev nD) (b : Ref sig .tc) (hb : b ∉ hostOps0_1_W) :
    W2 m ρ c (Proc.devRef .tc b) = W1 m ρ c (Proc.devRef .tc b) :=
  StableHlo.after_of_writes_sub hostOps0_1 _ hostOps0_1_writes hb

theorem W3_keep (c : Dev nD) (b : Ref sig .tc) (hb : b ∉ hostOps0_2_W) :
    W3 m ρ c (Proc.devRef .tc b) = W2 m ρ c (Proc.devRef .tc b) :=
  StableHlo.after_of_writes_sub hostOps0_2 _ hostOps0_2_writes hb

theorem W5_keep (c : Dev nD) (b : Ref sig .tc) (hb : b ∉ hostOps1_W) :
    W5 m ρ c (Proc.devRef .tc b) = W4 m ρ c (Proc.devRef .tc b) :=
  StableHlo.after_of_writes_sub hostOps1 _ hostOps1_writes hb

theorem W8_keep (c : Dev nD) (b : Ref sig .tc) (hb : b ∉ hostOps3_W) :
    W8 m ρ c (Proc.devRef .tc b) = W7 m ρ c (Proc.devRef .tc b) :=
  StableHlo.after_of_writes_sub hostOps3 _ hostOps3_writes hb

theorem W11_keep (c : Dev nD) (b : Ref sig .tc) (hb : b ∉ hostOps5_W) :
    W11 m ρ c (Proc.devRef .tc b) = W10 m ρ c (Proc.devRef .tc b) :=
  StableHlo.after_of_writes_sub hostOps5 _ hostOps5_writes hb

theorem W13_keep (c : Dev nD) (b : Ref sig .tc) (hb : b ∉ hostOps6_W) :
    W13 m ρ c (Proc.devRef .tc b) = W12 m ρ c (Proc.devRef .tc b) :=
  StableHlo.after_of_writes_sub hostOps6 _ hostOps6_writes hb

/-! ## No item writes an argument -/
theorem W14_main_arg0 (c : Dev nD) : W14 m ρ c (Proc.devRef .tc main_arg0) = m ((c : Thread nD τ).loc main_arg0) :=
  (W14_keep m ρ c main_arg0 (by decide)).trans <| (W13_keep m ρ c main_arg0 (by decide)).trans <| (W12_keep m ρ c main_arg0 (by decide)).trans <| (W11_keep m ρ c main_arg0 (by decide)).trans <| (W10_keep m ρ c main_arg0 (by decide)).trans <| (W9_keep m ρ c main_arg0 (by decide)).trans <| (W8_keep m ρ c main_arg0 (by decide)).trans <| (W7_keep m ρ c main_arg0 (by decide)).trans <| (W6_keep m ρ c main_arg0 (by decide)).trans <| (W5_keep m ρ c main_arg0 (by decide)).trans <| (W4_keep m ρ c main_arg0 (by decide)).trans <| (W3_keep m ρ c main_arg0 (by decide)).trans <| (W2_keep m ρ c main_arg0 (by decide)).trans <| (W1_keep m ρ c main_arg0 (by decide)).trans rfl
theorem W14_main_arg1 (c : Dev nD) : W14 m ρ c (Proc.devRef .tc main_arg1) = m ((c : Thread nD τ).loc main_arg1) :=
  (W14_keep m ρ c main_arg1 (by decide)).trans <| (W13_keep m ρ c main_arg1 (by decide)).trans <| (W12_keep m ρ c main_arg1 (by decide)).trans <| (W11_keep m ρ c main_arg1 (by decide)).trans <| (W10_keep m ρ c main_arg1 (by decide)).trans <| (W9_keep m ρ c main_arg1 (by decide)).trans <| (W8_keep m ρ c main_arg1 (by decide)).trans <| (W7_keep m ρ c main_arg1 (by decide)).trans <| (W6_keep m ρ c main_arg1 (by decide)).trans <| (W5_keep m ρ c main_arg1 (by decide)).trans <| (W4_keep m ρ c main_arg1 (by decide)).trans <| (W3_keep m ρ c main_arg1 (by decide)).trans <| (W2_keep m ρ c main_arg1 (by decide)).trans <| (W1_keep m ρ c main_arg1 (by decide)).trans rfl
theorem W14_main_arg2 (c : Dev nD) : W14 m ρ c (Proc.devRef .tc main_arg2) = m ((c : Thread nD τ).loc main_arg2) :=
  (W14_keep m ρ c main_arg2 (by decide)).trans <| (W13_keep m ρ c main_arg2 (by decide)).trans <| (W12_keep m ρ c main_arg2 (by decide)).trans <| (W11_keep m ρ c main_arg2 (by decide)).trans <| (W10_keep m ρ c main_arg2 (by decide)).trans <| (W9_keep m ρ c main_arg2 (by decide)).trans <| (W8_keep m ρ c main_arg2 (by decide)).trans <| (W7_keep m ρ c main_arg2 (by decide)).trans <| (W6_keep m ρ c main_arg2 (by decide)).trans <| (W5_keep m ρ c main_arg2 (by decide)).trans <| (W4_keep m ρ c main_arg2 (by decide)).trans <| (W3_keep m ρ c main_arg2 (by decide)).trans <| (W2_keep m ρ c main_arg2 (by decide)).trans <| (W1_keep m ρ c main_arg2 (by decide)).trans rfl
theorem W14_main_arg3 (c : Dev nD) : W14 m ρ c (Proc.devRef .tc main_arg3) = m ((c : Thread nD τ).loc main_arg3) :=
  (W14_keep m ρ c main_arg3 (by decide)).trans <| (W13_keep m ρ c main_arg3 (by decide)).trans <| (W12_keep m ρ c main_arg3 (by decide)).trans <| (W11_keep m ρ c main_arg3 (by decide)).trans <| (W10_keep m ρ c main_arg3 (by decide)).trans <| (W9_keep m ρ c main_arg3 (by decide)).trans <| (W8_keep m ρ c main_arg3 (by decide)).trans <| (W7_keep m ρ c main_arg3 (by decide)).trans <| (W6_keep m ρ c main_arg3 (by decide)).trans <| (W5_keep m ρ c main_arg3 (by decide)).trans <| (W4_keep m ρ c main_arg3 (by decide)).trans <| (W3_keep m ρ c main_arg3 (by decide)).trans <| (W2_keep m ρ c main_arg3 (by decide)).trans <| (W1_keep m ρ c main_arg3 (by decide)).trans rfl
theorem W14_main_arg4 (c : Dev nD) : W14 m ρ c (Proc.devRef .tc main_arg4) = m ((c : Thread nD τ).loc main_arg4) :=
  (W14_keep m ρ c main_arg4 (by decide)).trans <| (W13_keep m ρ c main_arg4 (by decide)).trans <| (W12_keep m ρ c main_arg4 (by decide)).trans <| (W11_keep m ρ c main_arg4 (by decide)).trans <| (W10_keep m ρ c main_arg4 (by decide)).trans <| (W9_keep m ρ c main_arg4 (by decide)).trans <| (W8_keep m ρ c main_arg4 (by decide)).trans <| (W7_keep m ρ c main_arg4 (by decide)).trans <| (W6_keep m ρ c main_arg4 (by decide)).trans <| (W5_keep m ρ c main_arg4 (by decide)).trans <| (W4_keep m ρ c main_arg4 (by decide)).trans <| (W3_keep m ρ c main_arg4 (by decide)).trans <| (W2_keep m ρ c main_arg4 (by decide)).trans <| (W1_keep m ρ c main_arg4 (by decide)).trans rfl
theorem W14_main_arg5 (c : Dev nD) : W14 m ρ c (Proc.devRef .tc main_arg5) = m ((c : Thread nD τ).loc main_arg5) :=
  (W14_keep m ρ c main_arg5 (by decide)).trans <| (W13_keep m ρ c main_arg5 (by decide)).trans <| (W12_keep m ρ c main_arg5 (by decide)).trans <| (W11_keep m ρ c main_arg5 (by decide)).trans <| (W10_keep m ρ c main_arg5 (by decide)).trans <| (W9_keep m ρ c main_arg5 (by decide)).trans <| (W8_keep m ρ c main_arg5 (by decide)).trans <| (W7_keep m ρ c main_arg5 (by decide)).trans <| (W6_keep m ρ c main_arg5 (by decide)).trans <| (W5_keep m ρ c main_arg5 (by decide)).trans <| (W4_keep m ρ c main_arg5 (by decide)).trans <| (W3_keep m ρ c main_arg5 (by decide)).trans <| (W2_keep m ρ c main_arg5 (by decide)).trans <| (W1_keep m ρ c main_arg5 (by decide)).trans rfl
theorem W14_main_arg6 (c : Dev nD) : W14 m ρ c (Proc.devRef .tc main_arg6) = m ((c : Thread nD τ).loc main_arg6) :=
  (W14_keep m ρ c main_arg6 (by decide)).trans <| (W13_keep m ρ c main_arg6 (by decide)).trans <| (W12_keep m ρ c main_arg6 (by decide)).trans <| (W11_keep m ρ c main_arg6 (by decide)).trans <| (W10_keep m ρ c main_arg6 (by decide)).trans <| (W9_keep m ρ c main_arg6 (by decide)).trans <| (W8_keep m ρ c main_arg6 (by decide)).trans <| (W7_keep m ρ c main_arg6 (by decide)).trans <| (W6_keep m ρ c main_arg6 (by decide)).trans <| (W5_keep m ρ c main_arg6 (by decide)).trans <| (W4_keep m ρ c main_arg6 (by decide)).trans <| (W3_keep m ρ c main_arg6 (by decide)).trans <| (W2_keep m ρ c main_arg6 (by decide)).trans <| (W1_keep m ρ c main_arg6 (by decide)).trans rfl
theorem W14_main_arg7 (c : Dev nD) : W14 m ρ c (Proc.devRef .tc main_arg7) = m ((c : Thread nD τ).loc main_arg7) :=
  (W14_keep m ρ c main_arg7 (by decide)).trans <| (W13_keep m ρ c main_arg7 (by decide)).trans <| (W12_keep m ρ c main_arg7 (by decide)).trans <| (W11_keep m ρ c main_arg7 (by decide)).trans <| (W10_keep m ρ c main_arg7 (by decide)).trans <| (W9_keep m ρ c main_arg7 (by decide)).trans <| (W8_keep m ρ c main_arg7 (by decide)).trans <| (W7_keep m ρ c main_arg7 (by decide)).trans <| (W6_keep m ρ c main_arg7 (by decide)).trans <| (W5_keep m ρ c main_arg7 (by decide)).trans <| (W4_keep m ρ c main_arg7 (by decide)).trans <| (W3_keep m ρ c main_arg7 (by decide)).trans <| (W2_keep m ρ c main_arg7 (by decide)).trans <| (W1_keep m ρ c main_arg7 (by decide)).trans rfl
theorem W14_main_arg8 (c : Dev nD) : W14 m ρ c (Proc.devRef .tc main_arg8) = m ((c : Thread nD τ).loc main_arg8) :=
  (W14_keep m ρ c main_arg8 (by decide)).trans <| (W13_keep m ρ c main_arg8 (by decide)).trans <| (W12_keep m ρ c main_arg8 (by decide)).trans <| (W11_keep m ρ c main_arg8 (by decide)).trans <| (W10_keep m ρ c main_arg8 (by decide)).trans <| (W9_keep m ρ c main_arg8 (by decide)).trans <| (W8_keep m ρ c main_arg8 (by decide)).trans <| (W7_keep m ρ c main_arg8 (by decide)).trans <| (W6_keep m ρ c main_arg8 (by decide)).trans <| (W5_keep m ρ c main_arg8 (by decide)).trans <| (W4_keep m ρ c main_arg8 (by decide)).trans <| (W3_keep m ρ c main_arg8 (by decide)).trans <| (W2_keep m ρ c main_arg8 (by decide)).trans <| (W1_keep m ρ c main_arg8 (by decide)).trans rfl
theorem W14_main_arg9 (c : Dev nD) : W14 m ρ c (Proc.devRef .tc main_arg9) = m ((c : Thread nD τ).loc main_arg9) :=
  (W14_keep m ρ c main_arg9 (by decide)).trans <| (W13_keep m ρ c main_arg9 (by decide)).trans <| (W12_keep m ρ c main_arg9 (by decide)).trans <| (W11_keep m ρ c main_arg9 (by decide)).trans <| (W10_keep m ρ c main_arg9 (by decide)).trans <| (W9_keep m ρ c main_arg9 (by decide)).trans <| (W8_keep m ρ c main_arg9 (by decide)).trans <| (W7_keep m ρ c main_arg9 (by decide)).trans <| (W6_keep m ρ c main_arg9 (by decide)).trans <| (W5_keep m ρ c main_arg9 (by decide)).trans <| (W4_keep m ρ c main_arg9 (by decide)).trans <| (W3_keep m ρ c main_arg9 (by decide)).trans <| (W2_keep m ρ c main_arg9 (by decide)).trans <| (W1_keep m ρ c main_arg9 (by decide)).trans rfl
theorem W14_main_arg10 (c : Dev nD) : W14 m ρ c (Proc.devRef .tc main_arg10) = m ((c : Thread nD τ).loc main_arg10) :=
  (W14_keep m ρ c main_arg10 (by decide)).trans <| (W13_keep m ρ c main_arg10 (by decide)).trans <| (W12_keep m ρ c main_arg10 (by decide)).trans <| (W11_keep m ρ c main_arg10 (by decide)).trans <| (W10_keep m ρ c main_arg10 (by decide)).trans <| (W9_keep m ρ c main_arg10 (by decide)).trans <| (W8_keep m ρ c main_arg10 (by decide)).trans <| (W7_keep m ρ c main_arg10 (by decide)).trans <| (W6_keep m ρ c main_arg10 (by decide)).trans <| (W5_keep m ρ c main_arg10 (by decide)).trans <| (W4_keep m ρ c main_arg10 (by decide)).trans <| (W3_keep m ρ c main_arg10 (by decide)).trans <| (W2_keep m ρ c main_arg10 (by decide)).trans <| (W1_keep m ρ c main_arg10 (by decide)).trans rfl
theorem W14_main_arg11 (c : Dev nD) : W14 m ρ c (Proc.devRef .tc main_arg11) = m ((c : Thread nD τ).loc main_arg11) :=
  (W14_keep m ρ c main_arg11 (by decide)).trans <| (W13_keep m ρ c main_arg11 (by decide)).trans <| (W12_keep m ρ c main_arg11 (by decide)).trans <| (W11_keep m ρ c main_arg11 (by decide)).trans <| (W10_keep m ρ c main_arg11 (by decide)).trans <| (W9_keep m ρ c main_arg11 (by decide)).trans <| (W8_keep m ρ c main_arg11 (by decide)).trans <| (W7_keep m ρ c main_arg11 (by decide)).trans <| (W6_keep m ρ c main_arg11 (by decide)).trans <| (W5_keep m ρ c main_arg11 (by decide)).trans <| (W4_keep m ρ c main_arg11 (by decide)).trans <| (W3_keep m ρ c main_arg11 (by decide)).trans <| (W2_keep m ρ c main_arg11 (by decide)).trans <| (W1_keep m ρ c main_arg11 (by decide)).trans rfl
theorem W14_main_arg12 (c : Dev nD) : W14 m ρ c (Proc.devRef .tc main_arg12) = m ((c : Thread nD τ).loc main_arg12) :=
  (W14_keep m ρ c main_arg12 (by decide)).trans <| (W13_keep m ρ c main_arg12 (by decide)).trans <| (W12_keep m ρ c main_arg12 (by decide)).trans <| (W11_keep m ρ c main_arg12 (by decide)).trans <| (W10_keep m ρ c main_arg12 (by decide)).trans <| (W9_keep m ρ c main_arg12 (by decide)).trans <| (W8_keep m ρ c main_arg12 (by decide)).trans <| (W7_keep m ρ c main_arg12 (by decide)).trans <| (W6_keep m ρ c main_arg12 (by decide)).trans <| (W5_keep m ρ c main_arg12 (by decide)).trans <| (W4_keep m ρ c main_arg12 (by decide)).trans <| (W3_keep m ρ c main_arg12 (by decide)).trans <| (W2_keep m ρ c main_arg12 (by decide)).trans <| (W1_keep m ρ c main_arg12 (by decide)).trans rfl
theorem W14_main_arg13 (c : Dev nD) : W14 m ρ c (Proc.devRef .tc main_arg13) = m ((c : Thread nD τ).loc main_arg13) :=
  (W14_keep m ρ c main_arg13 (by decide)).trans <| (W13_keep m ρ c main_arg13 (by decide)).trans <| (W12_keep m ρ c main_arg13 (by decide)).trans <| (W11_keep m ρ c main_arg13 (by decide)).trans <| (W10_keep m ρ c main_arg13 (by decide)).trans <| (W9_keep m ρ c main_arg13 (by decide)).trans <| (W8_keep m ρ c main_arg13 (by decide)).trans <| (W7_keep m ρ c main_arg13 (by decide)).trans <| (W6_keep m ρ c main_arg13 (by decide)).trans <| (W5_keep m ρ c main_arg13 (by decide)).trans <| (W4_keep m ρ c main_arg13 (by decide)).trans <| (W3_keep m ρ c main_arg13 (by decide)).trans <| (W2_keep m ρ c main_arg13 (by decide)).trans <| (W1_keep m ρ c main_arg13 (by decide)).trans rfl
theorem W14_main_arg14 (c : Dev nD) : W14 m ρ c (Proc.devRef .tc main_arg14) = m ((c : Thread nD τ).loc main_arg14) :=
  (W14_keep m ρ c main_arg14 (by decide)).trans <| (W13_keep m ρ c main_arg14 (by decide)).trans <| (W12_keep m ρ c main_arg14 (by decide)).trans <| (W11_keep m ρ c main_arg14 (by decide)).trans <| (W10_keep m ρ c main_arg14 (by decide)).trans <| (W9_keep m ρ c main_arg14 (by decide)).trans <| (W8_keep m ρ c main_arg14 (by decide)).trans <| (W7_keep m ρ c main_arg14 (by decide)).trans <| (W6_keep m ρ c main_arg14 (by decide)).trans <| (W5_keep m ρ c main_arg14 (by decide)).trans <| (W4_keep m ρ c main_arg14 (by decide)).trans <| (W3_keep m ρ c main_arg14 (by decide)).trans <| (W2_keep m ρ c main_arg14 (by decide)).trans <| (W1_keep m ρ c main_arg14 (by decide)).trans rfl

/-! ## The pipelines' data, the thread state, the segments -/

abbrev adm : (p : Fin 7) → (pcfgs (F := F) p).Adm := fun p => (cfgs p).toPCfg_adm
/-- Every pipeline's data at its region's entry contents. -/
def pdats : (p : Fin 7) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V6 m ρ) c
  | ⟨3, _⟩ => fun c => dat3 (V8 m ρ) c
  | ⟨4, _⟩ => fun c => dat4 (V9 m ρ) c
  | ⟨5, _⟩ => fun c => dat5 (V11 m ρ) c
  | ⟨6, _⟩ => fun c => dat6 (V13 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m ρ c) ∗ ∃ r, prngReg c r)

set_option backward.isDefEq.respectTransparency.types false in
/-- Region 0 as a segment: entered from all unscoped buffers at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from all unscoped buffers at `W5`, left at `W6`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from all unscoped buffers at `W6`, left at `W7`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from all unscoped buffers at `W8`, left at `W9`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from all unscoped buffers at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 as a segment: entered from all unscoped buffers at `W11`, left at `W12`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 as a segment: entered from all unscoped buffers at `W13`, left at `W14`. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .region (reg2 m ρ),
    .host (hseg hostOps3 hostOps3_sub hostOps3_fresh (W7 m ρ)),
    .region (reg3 m ρ),
    .region (reg4 m ρ),
    .host (hseg hostOps5 hostOps5_sub hostOps5_fresh (W10 m ρ)),
    .region (reg5 m ρ),
    .host (hseg hostOps6 hostOps6_sub hostOps6_fresh (W12 m ρ)),
    .region (reg6 m ρ) ]

set_option backward.isDefEq.respectTransparency.types false in
/-- Every weakly fair execution of @main from memory `m` with zero counters terminates, nothing faulting, and in the final
    memory every unscoped buffer of every core holds the fold's last contents `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W14_main_arg0 m ρ c),
     (h c _ (mem_uc main_arg1 (by decide))).trans (W14_main_arg1 m ρ c),
     (h c _ (mem_uc main_arg2 (by decide))).trans (W14_main_arg2 m ρ c),
     (h c _ (mem_uc main_arg3 (by decide))).trans (W14_main_arg3 m ρ c),
     (h c _ (mem_uc main_arg4 (by decide))).trans (W14_main_arg4 m ρ c),
     (h c _ (mem_uc main_arg5 (by decide))).trans (W14_main_arg5 m ρ c),
     (h c _ (mem_uc main_arg6 (by decide))).trans (W14_main_arg6 m ρ c),
     (h c _ (mem_uc main_arg7 (by decide))).trans (W14_main_arg7 m ρ c),
     (h c _ (mem_uc main_arg8 (by decide))).trans (W14_main_arg8 m ρ c),
     (h c _ (mem_uc main_arg9 (by decide))).trans (W14_main_arg9 m ρ c),
     (h c _ (mem_uc main_arg10 (by decide))).trans (W14_main_arg10 m ρ c),
     (h c _ (mem_uc main_arg11 (by decide))).trans (W14_main_arg11 m ρ c),
     (h c _ (mem_uc main_arg12 (by decide))).trans (W14_main_arg12 m ρ c),
     (h c _ (mem_uc main_arg13 (by decide))).trans (W14_main_arg13 m ρ c),
     (h c _ (mem_uc main_arg14 (by decide))).trans (W14_main_arg14 m ρ c)⟩)
    (run_all m ρ)

end Cert.KernelIdeal.Hand

end
-- ==== Proof.RefStages.lean ====
/- The reference program's result, cut into named stages.

   The result of the reference is one term: its host operations nested into each other, applied to the
   argument buffers. The functions below name the stages of that term, for any float values `F`;
   `res_eq` says that their composition `out` is that term.

   The stages (a graph convolution network):
   * `src`, `dst`: row 0 / row 1 of the edge list, each followed by 0, 1, …, 49999 (the self loops);
   * `nrm`: `deg` = the number of edges into each node (a scatter-add of ones at `dst`),
     `dis` = `deg > 0 ? rsqrt deg : 0`, and the edge weight `dis[src] * dis[dst]` (negative indices wrapped);
   * `agg e xw`: the scatter-add at `dst` of the rows `xw[src]`, each scaled by its edge weight;
   * `lin1`, `lin`: a matrix product; `addb`: add a bias row to every row; `relu`: maximum with 0;
   * `pool h batch`: per-graph sums of the rows of `h` divided by `max (rows in the graph) 1`;
   * `cat`: the pooled features joined with two extra columns;
   * `head`: `relu (cat · W1 + b1) · W2 + b2`. -/
import proofs.«166593_j71528385348100_1_alg».proof.Proof.RefRun

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge list followed by 0, …, 49999. -/
def src (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Row 1 of the edge list followed by 0, …, 49999. -/
def dst (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The edge weights `dis[src] * dis[dst]`, `dis = deg > 0 ? rsqrt deg : 0`, `deg` the in-degrees. -/
def nrm (e : (⟨S2x800000, .i32⟩ : BufTy).Contents (Elt F)) : (⟨S850000, .f32⟩ : BufTy).Contents (Elt F) :=
  mulf (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (src e) (broadcastInDim S850000 ![] bcast_S_S850000 (constantI S_ 32 0#32))) (addi (src e) (broadcastInDim S850000 ![] bcast_S_S850000 (constantI S_ 32 50000#32))) (src e)))) (Host.gather gather_S50000_S850000x1_S850000_n_0_n_n_0_1_1 (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32)))) (broadcastInDim S50000 ![] bcast_S_S50000 (id (constant S_ .f32 0x00000000#32)))) (broadcastInDim S850000x1 ![0] bcast_S850000_S850000x1_0 (select (cmpi .slt (dst e) (broadcastInDim S850000 ![] bcast_S_S850000 (constantI S_ 32 0#32))) (addi (dst e) (broadcastInDim S850000 ![] bcast_S_S850000 (constantI S_ 32 50000#32))) (dst e))))

/-- The weighted neighbourhood sums: scatter-add at `dst` of `nrm * xw[src]` into zeros. -/
def agg (e : (⟨S2x800000, .i32⟩ : BufTy).Contents (Elt F)) (xw : (⟨S50000x256, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 (dst e)) (mulf (broadcastInDim S850000x256 ![0, 1] bcast_S850000x1_S850000x256_0_1 (broadcastInDim S850000x1 ![0] bcast_S850000_S850000x1_0 (nrm e))) (Host.gather gather_S50000x256_S850000x1_S850000x256_1_0_n_n_0_1_1256 xw (broadcastInDim S850000x1 ![0] bcast_S850000_S850000x1_0 (select (cmpi .slt (src e) (broadcastInDim S850000 ![] bcast_S_S850000 (constantI S_ 32 0#32))) (addi (src e) (broadcastInDim S850000 ![] bcast_S_S850000 (constantI S_ 32 50000#32))) (src e)))))

/-- The first layer's matrix product. -/
def lin1 (x : (⟨S50000x128, .f32⟩ : BufTy).Contents (Elt F)) (W : (⟨S128x256, .f32⟩ : BufTy).Contents (Elt F)) : (⟨S50000x256, .f32⟩ : BufTy).Contents (Elt F) :=
  Host.dotGeneral dot_S50000x128_S128x256_S50000x256_1_0_0_1_n_n none x W

/-- The later layers' matrix product. -/
def lin (h : (⟨S50000x256, .f32⟩ : BufTy).Contents (Elt F)) (W : (⟨S256x256, .f32⟩ : BufTy).Contents (Elt F)) : (⟨S50000x256, .f32⟩ : BufTy).Contents (Elt F) :=
  Host.dotGeneral dot_S50000x256_S256x256_S50000x256_1_0_0_1_n_n none h W

/-- Add the bias row to every row. -/
def addb (a : (⟨S50000x256, .f32⟩ : BufTy).Contents (Elt F)) (b : (⟨S256, .f32⟩ : BufTy).Contents (Elt F)) : (⟨S50000x256, .f32⟩ : BufTy).Contents (Elt F) :=
  addf a (broadcastInDim S50000x256 ![0, 1] bcast_S1x256_S50000x256_0_1 (broadcastInDim S1x256 ![1] bcast_S256_S1x256_1 b))

/-- Maximum with zero. -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- Mean pooling by graph: the per-graph row sums divided by `max count 1`. -/
def pool (h : (⟨S50000x256, .f32⟩ : BufTy).Contents (Elt F)) (batch : (⟨S50000, .i32⟩ : BufTy).Contents (Elt F)) : (⟨S512x256, .f32⟩ : BufTy).Contents (Elt F) :=
  Host.divf (Host.scatterAdd scatter_S512x256_S50000x1_S50000x256_1_0_0_1 (broadcastInDim S512x256 ![] bcast_S_S512x256 (constant S_ .f32 0x00000000#32)) (broadcastInDim S50000x1 ![0] bcast_S50000_S50000x1_0 batch) h) (broadcastInDim S512x256 ![0, 1] bcast_S512x1_S512x256_0_1 (broadcastInDim S512x1 ![0] bcast_S512_S512x1_0 (maximumf (Host.scatterAdd scatter_S512_S50000x1_S50000_n_0_0_1 (broadcastInDim S512 ![] bcast_S_S512 (constant S_ .f32 0x00000000#32)) (broadcastInDim S50000x1 ![0] bcast_S50000_S50000x1_0 batch) (broadcastInDim S50000 ![] bcast_S_S50000 (constant S_ .f32 0x3F800000#32))) (broadcastInDim S512 ![] bcast_S_S512 (constant S_ .f32 0x3F800000#32)))))

/-- The pooled features joined with the two extra columns. -/
def cat (p : (⟨S512x256, .f32⟩ : BufTy).Contents (Elt F)) (mw : (⟨S512x1, .f32⟩ : BufTy).Contents (Elt F)) (nr : (⟨S512x1, .f32⟩ : BufTy).Contents (Elt F)) : (⟨S512x258, .f32⟩ : BufTy).Contents (Elt F) :=
  concatenate S512x258 1 [⟨S512x256, p⟩, ⟨S512x1, mw⟩, ⟨S512x1, nr⟩] concatenates_S512x256_S512x1_S512x1_S512x258_d1

/-- The two-layer head `relu (ct · W1 + b1) · W2 + b2`. -/
def head (ct : (⟨S512x258, .f32⟩ : BufTy).Contents (Elt F)) (W1 : (⟨S258x196, .f32⟩ : BufTy).Contents (Elt F)) (b1 : (⟨S196, .f32⟩ : BufTy).Contents (Elt F)) (W2 : (⟨S196x16, .f32⟩ : BufTy).Contents (Elt F)) (b2 : (⟨S16, .f32⟩ : BufTy).Contents (Elt F)) : (⟨S512x16, .f32⟩ : BufTy).Contents (Elt F) :=
  addf (Host.dotGeneral dot_S512x196_S196x16_S512x16_1_0_0_1_n_n none (maximumf (addf (Host.dotGeneral dot_S512x258_S258x196_S512x196_1_0_0_1_n_n none ct W1) (broadcastInDim S512x196 ![0, 1] bcast_S1x196_S512x196_0_1 (broadcastInDim S1x196 ![1] bcast_S196_S1x196_1 b1))) (broadcastInDim S512x196 ![] bcast_S_S512x196 (constant S_ .f32 0x00000000#32))) W2) (broadcastInDim S512x16 ![0, 1] bcast_S1x16_S512x16_0_1 (broadcastInDim S1x16 ![1] bcast_S16_S1x16_1 b2))

/-- The whole reference: three convolution layers, the pooling, the join and the head. -/
def out (x : (⟨S50000x128, .f32⟩ : BufTy).Contents (Elt F))
    (e : (⟨S2x800000, .i32⟩ : BufTy).Contents (Elt F))
    (batch : (⟨S50000, .i32⟩ : BufTy).Contents (Elt F))
    (mw : (⟨S512x1, .f32⟩ : BufTy).Contents (Elt F))
    (nr : (⟨S512x1, .f32⟩ : BufTy).Contents (Elt F))
    (W1 : (⟨S128x256, .f32⟩ : BufTy).Contents (Elt F))
    (b1 : (⟨S256, .f32⟩ : BufTy).Contents (Elt F))
    (W2 : (⟨S256x256, .f32⟩ : BufTy).Contents (Elt F))
    (b2 : (⟨S256, .f32⟩ : BufTy).Contents (Elt F))
    (W3 : (⟨S256x256, .f32⟩ : BufTy).Contents (Elt F))
    (b3 : (⟨S256, .f32⟩ : BufTy).Contents (Elt F))
    (fW1 : (⟨S258x196, .f32⟩ : BufTy).Contents (Elt F))
    (fb1 : (⟨S196, .f32⟩ : BufTy).Contents (Elt F))
    (fW2 : (⟨S196x16, .f32⟩ : BufTy).Contents (Elt F))
    (fb2 : (⟨S16, .f32⟩ : BufTy).Contents (Elt F)) :
    (⟨S512x16, .f32⟩ : BufTy).Contents (Elt F) :=
  head (cat (pool (relu (addb (agg e (lin (relu (addb (agg e (lin (relu (addb (agg e (lin1 x W1)) b1)) W2)) b2)) W3)) b3)) batch) mw nr) fW1 fb1 fW2 fb2

set_option maxRecDepth 8192 in
/-- The generated run's result term is `out` of the argument buffers. -/
theorem res_eq (m : (ℓ : Loc nD τ sig) → Buf (Elt F) ℓ) (c : Dev nD) :
    ValueP.res_main_v135 (F := F) m c
      = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14)) := by
  unfold ValueP.res_main_v135 out head cat pool relu addb agg lin lin1 nrm src dst
  rfl

end Cert.ReferenceIdeal.Stages

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.LibPlainMatmul.lean ====
/-
  The plain matrix product, M×K by K×N, read at an output entry.

  For the dimension numbers that contract the left operand's second axis with the right operand's first one and have no
  batch axes, the left operand is read at (p, l) and the right one at (l, q) when the output index is (p, q) and the
  contraction position is l. Hence, at the ideal instance, a matrix product into the zero accumulator and the host's
  product are at (p, q) the sum over l < K of lhs (p, l) * rhs (l, q), for every M, K, N and operand formats.
-/
import Idealize.ShloMosaic.PureOps.Ideal.Laws
import Idealize.ShloMosaic.Lib.ValueIdx
import proofs.«166593_j71528385348100_1_alg».proof.Proof.LibMatmulSum

noncomputable section

namespace Idealize.ShloMosaic.PlainMatmul

open Idealize.ShloMosaic Idealize.ShloMosaic.ValueIdx

variable (M K N : Nat)

/-- On its first axis (a free axis) the left operand's index is the output index's first coordinate. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its second axis (the contracted one) the left operand's index is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- On its first axis (the contracted one) the right operand's index is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- On its second axis (a free axis) the right operand's index is the output index's second coordinate. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index (p, q) and contraction position l is (p, l). -/
theorem plain_lhsIdx (p : Fin M) (q : Fin N) (l : Fin K) :
    (DotDims.plain M K N).lhsIdx (ix2 p q) ((contrEquiv1 (DotDims.plain M K N) K rfl rfl).symm l) = ix2 p l :=
  funext fun a => Fin.ext (by
    match a with
    | ⟨0, _⟩ => exact plain_lhs_0 M K N _ _
    | ⟨1, _⟩ => exact (plain_lhs_1 M K N _ _).trans (contrEquiv1_symm_val (DotDims.plain M K N) K rfl rfl l))

/-- The right operand's index at output index (p, q) and contraction position l is (l, q). -/
theorem plain_rhsIdx (p : Fin M) (q : Fin N) (l : Fin K) :
    (DotDims.plain M K N).rhsIdx (ix2 p q) ((contrEquiv1 (DotDims.plain M K N) K rfl rfl).symm l) = ix2 l q :=
  funext fun a => Fin.ext (by
    match a with
    | ⟨0, _⟩ => exact (plain_rhs_0 M K N _ _).trans (contrEquiv1_symm_val (DotDims.plain M K N) K rfl rfl l)
    | ⟨1, _⟩ => exact plain_rhs_1 M K N _ _)

/-- A matrix product M×K by K×N into the zero accumulator is, at (p, q), the sum over l of lhs (p, l) * rhs (l, q). -/
theorem plain_matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ l : Fin K, lhs (ix2 p l) * rhs (ix2 l q) :=
  MatmulSum.matmul_zero_apply_single (DotDims.plain M K N) prec K rfl rfl lhs rhs (ix2 p q) (fun l => ix2 p l) (fun l => ix2 l q)
    (plain_lhsIdx M K N p q) (plain_rhsIdx M K N p q)

/-- The host's product M×K by K×N is, at (p, q), the sum over l of lhs (p, l) * rhs (l, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  MatmulSum.dotGeneral_apply_single (DotDims.plain M K N) prec sched K rfl rfl lhs rhs (ix2 p q) (fun l => ix2 p l) (fun l => ix2 l q)
    (plain_lhsIdx M K N p q) (plain_rhsIdx M K N p q)

end Idealize.ShloMosaic.PlainMatmul

end
-- ==== Proof.RefApply.lean ====
/- The stages of the reference that face a kernel region, read at an index, at the ideal floats.

   At the ideal floats a host matrix product is the exact sum over the contracted axis, a bias vector laid along every
   row reads the vector at the column, the constant 0 broadcast reads 0, and the elementwise operations act entrywise.
   Hence, at row p and column q:
   * `lin1 x W` and `lin h W` are ∑ k, x (p, k) * W (k, q);
   * `relu (addb a b)` is max (a (p, q) + b q) 0;
   * `head ct W1 b1 W2 b2` is (∑ j, max ((∑ k, ct (p, k) * W1 (k, j)) + b1 j) 0 * W2 (j, q)) + b2 q. -/
import proofs.«166593_j71528385348100_1_alg».proof.Proof.RefStages
import proofs.«166593_j71528385348100_1_alg».proof.Proof.LibPlainMatmul
import Idealize.ShloMosaic.Lib.KernelVsHost
import Idealize.ShloMosaic.Lib.IdealHost

noncomputable section

namespace Cert.ReferenceIdeal.Stages

open Cert.ReferenceIdeal Cert.ReferenceIdeal.Gen Idealize.ShloMosaic Idealize.ShloMosaic.ValueIdx Idealize.ShloMosaic.PlainMatmul
open scoped BigOperators

/-! ## Layout operations at an index -/

/-- A vector of n entries laid out as a one-row matrix reads, at (0, t), the vector at t. -/
theorem broadcastInDim_vecRow_apply {α : Type} {n : Nat} (h : (⟨1, ![n]⟩ : Shape).BroadcastsInDim ⟨2, ![1, n]⟩ ![1])
    (b : (⟨1, ![n]⟩ : Shape).Idx → α) (t : Fin n) :
    broadcastInDim ⟨2, ![1, n]⟩ ![1] h b (ix2 (0 : Fin 1) t) = b (ix1 t) := by
  refine broadcastInDim_apply ![1] h b (ix2 (0 : Fin 1) t) (ix1 t) ?_
  intro a
  match a with
  | ⟨0, _⟩ =>
    show t.val = if n = 1 then 0 else t.val
    split
    · have := t.isLt; omega
    · rfl

/-- A vector laid along every one of m rows (as a one-row matrix broadcast down the rows) reads, at (r, t), the vector at t. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) :=
  (broadcastInDim_oneRow_apply h2 _ r t).trans (broadcastInDim_vecRow_apply h1 b t)

/-- The constant 0 broadcast to any shape reads 0. -/
theorem zeros_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-! ## The stages at an index -/

/-- The first layer's product at (p, q). -/
theorem lin1_apply (x : FVec Ideal S50000x128 .f32) (W : FVec Ideal S128x256 .f32) (p : Fin 50000) (q : Fin 256) :
    lin1 (F := Ideal) x W (ix2 p q) = ∑ k : Fin 128, x (ix2 p k) * W (ix2 k q) :=
  plain_dotGeneral_apply 50000 128 256 none .single x W p q

/-- A later layer's product at (p, q). -/
theorem lin_apply (h : FVec Ideal S50000x256 .f32) (W : FVec Ideal S256x256 .f32) (p : Fin 50000) (q : Fin 256) :
    lin (F := Ideal) h W (ix2 p q) = ∑ k : Fin 256, h (ix2 p k) * W (ix2 k q) :=
  plain_dotGeneral_apply 50000 256 256 none .single h W p q

/-- Bias then clamp at (p, q). -/
theorem relu_addb_apply (a : FVec Ideal S50000x256 .f32) (b : FVec Ideal S256 .f32) (p : Fin 50000) (q : Fin 256) :
    relu (F := Ideal) (addb a b) (ix2 p q) = max (a (ix2 p q) + b (ix1 q)) 0 := by
  unfold relu addb
  rw [maximumf_apply, addf_apply, biasRows_apply, zeros_apply]

/-- The head at (p, q). -/
theorem head_apply (ct : FVec Ideal S512x258 .f32) (W1 : FVec Ideal S258x196 .f32) (b1 : FVec Ideal S196 .f32)
    (W2 : FVec Ideal S196x16 .f32) (b2 : FVec Ideal S16 .f32) (p : Fin 512) (q : Fin 16) :
    head (F := Ideal) ct W1 b1 W2 b2 (ix2 p q)
      = (∑ j : Fin 196, max ((∑ k : Fin 258, ct (ix2 p k) * W1 (ix2 k j)) + b1 (ix1 j)) 0 * W2 (ix2 j q)) + b2 (ix1 q) := by
  unfold head
  rw [addf_apply, biasRows_apply]
  refine congrArg (· + b2 (ix1 q)) ?_
  refine (plain_dotGeneral_apply 512 196 16 none .single _ W2 p q).trans ?_
  refine Finset.sum_congr rfl fun j _ => ?_
  rw [maximumf_apply, addf_apply, biasRows_apply, zeros_apply]
  refine congrArg (fun t => max (t + b1 (ix1 j)) 0 * W2 (ix2 j q)) ?_
  exact plain_dotGeneral_apply 512 258 196 none .single ct W1 p j

end Cert.ReferenceIdeal.Stages

end
-- ==== Proof.KI.HostStages.lean ====
/-
  The host operations between the program's kernel regions, as named functions of the arrays they read, and the
  contents of the buffers along the fold of @main's items read through them: the edge endpoints with the self loops
  appended, the symmetric degree normalisation of every edge, one round of normalised neighbour aggregation, the bias
  rows, the mean pool over the graphs of the batch and the concatenation with the two per-graph scalars.
-/
import proofs.«166593_j71528385348100_1_alg».proof.Proof.KI.Data
import proofs.«166593_j71528385348100_1_alg».proof.Proof.Gen.KernelIdeal.Regions
import Idealize.ShloMosaic.Lib.StableHlo.Run

set_option maxRecDepth 16384

noncomputable section

namespace Cert.KernelIdeal.Stages

open Cert.KernelIdeal Cert.KernelIdeal.Gen Cert.KernelIdeal.Hand Idealize.ShloMosaic
open Idealize.ShloMosaic.TcCoe Idealize.SL.Sem

variable {F : FTy → Type} [FloatOps F]

/-- The contents of a buffer of shape `S` and element type `φ`. -/
local notation "T[" S ", " φ "]" => BufTy.Contents (Elt F) (BufTy.mk S φ)

/-! ## The stage functions -/

/-- An index array with the negative entries moved up by the number of nodes (how a gather reads its indices). -/
def wrap (i : T[S850000, .i32]) : T[S850000, .i32] :=
  select (cmpi .slt i (broadcastInDim S850000 ![] bcast_S_S850000 (constantI S_ 32 0#32))) (addi i (broadcastInDim S850000 ![] bcast_S_S850000 (constantI S_ 32 50000#32))) i

/-- The source endpoint of every edge: row 0 of the edge list, then one self loop per node. -/
def src (e : T[S2x800000, .i32]) : T[S850000, .i32] :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target endpoint of every edge: row 1 of the edge list, then one self loop per node. -/
def dst (e : T[S2x800000, .i32]) : T[S850000, .i32] :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- The degree of every node: ones summed over the edges by target. -/
def deg (e : T[S2x800000, .i32]) : T[S50000, .f32] :=
  Host.scatterAdd scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))

/-- The inverse square root of the degree where it is positive, zero elsewhere. -/
def dis (e : T[S2x800000, .i32]) : T[S50000, .f32] :=
  select (cmpf .ogt (deg e) (broadcastInDim S50000 ![] bcast_S_S50000 (constant S_ .f32 0x00000000#32))) (Host.rsqrt (deg e)) (broadcastInDim S50000 ![] bcast_S_S50000 (id (constant S_ .f32 0x00000000#32)))

/-- The weight of every edge: the normalisation at its source times the normalisation at its target. -/
def nrm (e : T[S2x800000, .i32]) : T[S850000, .f32] :=
  mulf (Host.gather gather_S50000_S850000x1_S850000_n_0_n_n_0_1_1 (dis e) (broadcastInDim S850000x1 ![0] bcast_S850000_S850000x1_0 (wrap (src e)))) (Host.gather gather_S50000_S850000x1_S850000_n_0_n_n_0_1_1 (dis e) (broadcastInDim S850000x1 ![0] bcast_S850000_S850000x1_0 (wrap (dst e))))

/-- One round of aggregation: every edge carries its weight times its source's row, summed by target. -/
def agg (e : T[S2x800000, .i32]) (xw : T[S50000x256, .f32]) : T[S50000x256, .f32] :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 (dst e)) (mulf (broadcastInDim S850000x256 ![0, 1] bcast_S850000x1_S850000x256_0_1 (broadcastInDim S850000x1 ![0] bcast_S850000_S850000x1_0 (nrm e))) (Host.gather gather_S50000x256_S850000x1_S850000x256_1_0_n_n_0_1_1256 xw (broadcastInDim S850000x1 ![0] bcast_S850000_S850000x1_0 (wrap (src e)))))

/-- A bias vector as a one-row matrix. -/
def brow (b : T[S256, .f32]) : T[S1x256, .f32] := shapeCast _ b shapeCasts_S256_S1x256
def brow196 (b : T[S196, .f32]) : T[S1x196, .f32] := shapeCast _ b shapeCasts_S196_S1x196
def brow16 (b : T[S16, .f32]) : T[S1x16, .f32] := shapeCast _ b shapeCasts_S16_S1x16

/-- The mean of the node rows of every graph: the rows summed by graph, over the node count clamped below at one. -/
def pool (h : T[S50000x256, .f32]) (batch : T[S50000, .i32]) : T[S512x256, .f32] :=
  Host.divf (Host.scatterAdd scatter_S512x256_S50000x1_S50000x256_1_0_0_1 (broadcastInDim S512x256 ![] bcast_S_S512x256 (constant S_ .f32 0x00000000#32)) (broadcastInDim S50000x1 ![0] bcast_S50000_S50000x1_0 batch) h) (broadcastInDim S512x256 ![0, 1] bcast_S512x1_S512x256_0_1 (broadcastInDim S512x1 ![0] bcast_S512_S512x1_0 (maximumf (Host.scatterAdd scatter_S512_S50000x1_S50000_n_0_0_1 (broadcastInDim S512 ![] bcast_S_S512 (constant S_ .f32 0x00000000#32)) (broadcastInDim S50000x1 ![0] bcast_S50000_S50000x1_0 batch) (broadcastInDim S50000 ![] bcast_S_S50000 (constant S_ .f32 0x3F800000#32))) (broadcastInDim S512 ![] bcast_S_S512 (constant S_ .f32 0x3F800000#32)))))

/-- The pooled rows with the two per-graph scalars appended as columns. -/
def cat (p : T[S512x256, .f32]) (a : T[S512x1, .f32]) (b : T[S512x1, .f32]) : T[S512x258, .f32] :=
  concatenate S512x258 1 [⟨S512x256, p⟩, ⟨S512x1, a⟩, ⟨S512x1, b⟩] concatenates_S512x256_S512x1_S512x1_S512x258_d1

/-- The edge weights from any normalisation array and any endpoint arrays. -/
def nrmOf (d : T[S50000, .f32]) (s t : T[S850000, .i32]) : T[S850000, .f32] :=
  mulf (Host.gather gather_S50000_S850000x1_S850000_n_0_n_n_0_1_1 d (broadcastInDim S850000x1 ![0] bcast_S850000_S850000x1_0 (wrap s))) (Host.gather gather_S50000_S850000x1_S850000_n_0_n_n_0_1_1 d (broadcastInDim S850000x1 ![0] bcast_S850000_S850000x1_0 (wrap t)))

theorem nrm_eq (e : T[S2x800000, .i32]) : nrm e = nrmOf (dis e) (src e) (dst e) := rfl

/-- One round of aggregation from any edge weights and any endpoint arrays. -/
def aggOf (n : T[S850000, .f32]) (s t : T[S850000, .i32]) (xw : T[S50000x256, .f32]) : T[S50000x256, .f32] :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 t) (mulf (broadcastInDim S850000x256 ![0, 1] bcast_S850000x1_S850000x256_0_1 (broadcastInDim S850000x1 ![0] bcast_S850000_S850000x1_0 n)) (Host.gather gather_S50000x256_S850000x1_S850000x256_1_0_n_n_0_1_1256 xw (broadcastInDim S850000x1 ![0] bcast_S850000_S850000x1_0 (wrap s))))

theorem agg_eq (e : T[S2x800000, .i32]) (xw : T[S50000x256, .f32]) : agg e xw = aggOf (nrm e) (src e) (dst e) xw := rfl

/-! ## The host stretches, each read at the buffers a later item reads, from any contents -/

section Stretches
variable (V : Valuation τ sig (Elt F))

/-- A three-operand operation leaves its result at the function of the three operands' contents, each at its own
    reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

set_option maxHeartbeats 400000 in
theorem ops0_v3 : StableHlo.after hostOps0 V (Proc.devRef .tc main_v3) = src (V (Proc.devRef .tc main_arg1)) := by
  after_results_simp <;> rfl
set_option maxHeartbeats 400000 in
theorem ops0_v6 : StableHlo.after hostOps0 V (Proc.devRef .tc main_v6) = dst (V (Proc.devRef .tc main_arg1)) := by
  after_results_simp <;> rfl
set_option maxHeartbeats 400000 in
theorem ops0_v12 : StableHlo.after hostOps0 V (Proc.devRef .tc main_v12) = cmpf .ogt (deg (V (Proc.devRef .tc main_arg1))) (broadcastInDim S50000 ![] bcast_S_S50000 (constant S_ .f32 0x00000000#32)) := by
  after_results_simp <;> rfl
set_option maxHeartbeats 400000 in
theorem ops0_v13 : StableHlo.after hostOps0 V (Proc.devRef .tc main_v13) = Host.rsqrt (deg (V (Proc.devRef .tc main_arg1))) := by
  after_results_simp <;> rfl
set_option maxHeartbeats 400000 in
theorem ops0_cst_2 : StableHlo.after hostOps0 V (Proc.devRef .tc main_cst_2) = constant S_ .f32 0x00000000#32 := by
  after_results_simp <;> rfl

set_option maxHeartbeats 400000 in
theorem ops0_1_v14 : StableHlo.after hostOps0_1 V (Proc.devRef .tc main_v14) = select (V (Proc.devRef .tc main_v12) : T[S50000, .i1]) (V (Proc.devRef .tc main_v13) : T[S50000, .f32]) (broadcastInDim S50000 ![] bcast_S_S50000 (id (V (Proc.devRef .tc main_cst_2) : T[S_, .f32]))) := by
  after_results_simp <;> rfl

set_option maxHeartbeats 400000 in
theorem ops0_2_v29 : StableHlo.after hostOps0_2 V (Proc.devRef .tc main_v29) = nrmOf (V (Proc.devRef .tc main_v14)) (V (Proc.devRef .tc main_v3)) (V (Proc.devRef .tc main_v6)) := by
  after_results_simp <;> rfl

set_option maxHeartbeats 400000 in
theorem ops1_v43 : StableHlo.after hostOps1 V (Proc.devRef .tc main_v43) = aggOf (V (Proc.devRef .tc main_v29)) (V (Proc.devRef .tc main_v3)) (V (Proc.devRef .tc main_v6)) (V (Proc.devRef .tc main_v30)) := by
  after_results_simp <;> rfl
set_option maxHeartbeats 400000 in
theorem ops1_v44 : StableHlo.after hostOps1 V (Proc.devRef .tc main_v44) = brow (V (Proc.devRef .tc main_arg6)) := by
  after_results_simp <;> rfl

set_option maxHeartbeats 400000 in
theorem ops3_v59 : StableHlo.after hostOps3 V (Proc.devRef .tc main_v59) = aggOf (V (Proc.devRef .tc main_v29)) (V (Proc.devRef .tc main_v3)) (V (Proc.devRef .tc main_v6)) (V (Proc.devRef .tc main_v46)) := by
  after_results_simp <;> rfl
set_option maxHeartbeats 400000 in
theorem ops3_v60 : StableHlo.after hostOps3 V (Proc.devRef .tc main_v60) = brow (V (Proc.devRef .tc main_arg8)) := by
  after_results_simp <;> rfl

set_option maxHeartbeats 400000 in
theorem ops5_v75 : StableHlo.after hostOps5 V (Proc.devRef .tc main_v75) = aggOf (V (Proc.devRef .tc main_v29)) (V (Proc.devRef .tc main_v3)) (V (Proc.devRef .tc main_v6)) (V (Proc.devRef .tc main_v62)) := by
  after_results_simp <;> rfl
set_option maxHeartbeats 400000 in
theorem ops5_v76 : StableHlo.after hostOps5 V (Proc.devRef .tc main_v76) = brow (V (Proc.devRef .tc main_arg10)) := by
  after_results_simp <;> rfl

/-- What the last three operations of the last host stretch leave in the concatenated array, from any contents. -/
theorem post6_v90 (X : Valuation τ sig (Elt F)) : StableHlo.after (List.drop 16 (hostOps6 : List (HloOp τ sig (Elt F)))) X (Proc.devRef .tc main_v90) = cat (X (Proc.devRef .tc main_v89)) (X (Proc.devRef .tc main_arg3)) (X (Proc.devRef .tc main_arg4)) := by
  show StableHlo.after [_, _, _] X _ = _
  simp only [StableHlo.after_cons, StableHlo.after_nil]
  rw [StableHlo.reshape_result_ne _ _ _ _ _ _ _ (by decide), StableHlo.reshape_result_ne _ _ _ _ _ _ _ (by decide), nary3_result]
  rfl
set_option maxHeartbeats 400000 in
theorem pre6_v89 : StableHlo.after (List.take 16 (hostOps6 : List (HloOp τ sig (Elt F)))) V (Proc.devRef .tc main_v89) = pool (V (Proc.devRef .tc main_v77)) (V (Proc.devRef .tc main_arg2)) := by
  show StableHlo.after [_, _, _, _, _, _, _, _, _, _, _, _, _, _, _, _] V _ = _
  after_results_simp <;> rfl
set_option maxHeartbeats 400000 in
theorem pre6_keep {r : Ref sig .tc} (h : r ∉ hostOps6_W) : StableHlo.after (List.take 16 (hostOps6 : List (HloOp τ sig (Elt F)))) V (Proc.devRef .tc r) = V (Proc.devRef .tc r) :=
  StableHlo.after_of_writes_sub _ V (List.forall_iff_forall_mem.mpr fun op hop => (List.forall_iff_forall_mem.mp hostOps6_writes) op (List.mem_of_mem_take hop)) h
set_option maxHeartbeats 400000 in
theorem ops6_v90 : StableHlo.after hostOps6 V (Proc.devRef .tc main_v90) = cat (pool (V (Proc.devRef .tc main_v77)) (V (Proc.devRef .tc main_arg2))) (V (Proc.devRef .tc main_arg3)) (V (Proc.devRef .tc main_arg4)) := by
  have hsplit : (hostOps6 : List (HloOp τ sig (Elt F))) = List.take 16 hostOps6 ++ List.drop 16 hostOps6 := (List.take_append_drop 16 _).symm
  rw [hsplit, StableHlo.after_append, post6_v90, pre6_v89, pre6_keep V (r := main_arg3) (by decide), pre6_keep V (r := main_arg4) (by decide)]

set_option maxHeartbeats 400000 in
theorem ops6_v91 : StableHlo.after hostOps6 V (Proc.devRef .tc main_v91) = brow196 (V (Proc.devRef .tc main_arg12)) := by
  after_results_simp <;> rfl
set_option maxHeartbeats 400000 in
theorem ops6_v92 : StableHlo.after hostOps6 V (Proc.devRef .tc main_v92) = brow16 (V (Proc.devRef .tc main_arg14)) := by
  after_results_simp <;> rfl

end Stretches

/-! ## The fold of @main's items, read at the buffers that matter

Core `c`'s contents `W J m ρ c` after item `J`, at a buffer's device reference; `V0 m ρ c main_argK` is argument `K` as launched. -/

section Fold
variable (m : (ℓ : Loc nD τ sig) → Buf (Elt F) ℓ) (ρ : Dev nD → PrngReg) (c : Dev nD)

/-! ### What each item leaves unchanged -/
theorem W1_keep {r : Ref sig .tc} (h : r ∉ hostOps0_W) : W1 m ρ c (Proc.devRef .tc r) = W0 m ρ c (Proc.devRef .tc r) :=
  StableHlo.after_of_writes_sub hostOps0 _ hostOps0_writes h
theorem W2_keep {r : Ref sig .tc} (h : r ∉ hostOps0_1_W) : W2 m ρ c (Proc.devRef .tc r) = W1 m ρ c (Proc.devRef .tc r) :=
  StableHlo.after_of_writes_sub hostOps0_1 _ hostOps0_1_writes h
theorem W3_keep {r : Ref sig .tc} (h : r ∉ hostOps0_2_W) : W3 m ρ c (Proc.devRef .tc r) = W2 m ρ c (Proc.devRef .tc r) :=
  StableHlo.after_of_writes_sub hostOps0_2 _ hostOps0_2_writes h
/-- Kernel region 0 leaves the arrays of its input windows as it found them. -/
theorem W4_in (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
theorem W5_keep {r : Ref sig .tc} (h : r ∉ hostOps1_W) : W5 m ρ c (Proc.devRef .tc r) = W4 m ρ c (Proc.devRef .tc r) :=
  StableHlo.after_of_writes_sub hostOps1 _ hostOps1_writes h
/-- Kernel region 1 leaves the arrays of its input windows as it found them. -/
theorem W6_in (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
/-- Kernel region 2 leaves the arrays of its input windows as it found them. -/
theorem W7_in (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hin _).trans (A_eq2 (V6 m ρ) c w))
theorem W8_keep {r : Ref sig .tc} (h : r ∉ hostOps3_W) : W8 m ρ c (Proc.devRef .tc r) = W7 m ρ c (Proc.devRef .tc r) :=
  StableHlo.after_of_writes_sub hostOps3 _ hostOps3_writes h
/-- Kernel region 3 leaves the arrays of its input windows as it found them. -/
theorem W9_in (w : Fin cfg3.W) (hin : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hin _).trans (A_eq3 (V8 m ρ) c w))
/-- Kernel region 4 leaves the arrays of its input windows as it found them. -/
theorem W10_in (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))
theorem W11_keep {r : Ref sig .tc} (h : r ∉ hostOps5_W) : W11 m ρ c (Proc.devRef .tc r) = W10 m ρ c (Proc.devRef .tc r) :=
  StableHlo.after_of_writes_sub hostOps5 _ hostOps5_writes h
/-- Kernel region 5 leaves the arrays of its input windows as it found them. -/
theorem W12_in (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))
theorem W13_keep {r : Ref sig .tc} (h : r ∉ hostOps6_W) : W13 m ρ c (Proc.devRef .tc r) = W12 m ρ c (Proc.devRef .tc r) :=
  StableHlo.after_of_writes_sub hostOps6 _ hostOps6_writes h
/-- Kernel region 6 leaves the arrays of its input windows as it found them. -/
theorem W14_in (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hin _).trans (A_eq6 (V13 m ρ) c w))

/-! ### The arguments, where an item reads them -/
theorem W3_arg0 : W3 m ρ c (Proc.devRef .tc main_arg0) = V0 m ρ c main_arg0 :=
  (W3_keep m ρ c (r := main_arg0) (by decide)).trans ((W2_keep m ρ c (r := main_arg0) (by decide)).trans (W1_keep m ρ c (r := main_arg0) (by decide)))
theorem W3_arg5 : W3 m ρ c (Proc.devRef .tc main_arg5) = V0 m ρ c main_arg5 :=
  (W3_keep m ρ c (r := main_arg5) (by decide)).trans ((W2_keep m ρ c (r := main_arg5) (by decide)).trans (W1_keep m ρ c (r := main_arg5) (by decide)))
theorem W4_arg6 : W4 m ρ c (Proc.devRef .tc main_arg6) = V0 m ρ c main_arg6 :=
  (W4_of_ne m ρ c main_arg6 (by decide)).trans ((W3_keep m ρ c (r := main_arg6) (by decide)).trans ((W2_keep m ρ c (r := main_arg6) (by decide)).trans (W1_keep m ρ c (r := main_arg6) (by decide))))
theorem W6_arg7 : W6 m ρ c (Proc.devRef .tc main_arg7) = V0 m ρ c main_arg7 :=
  (W6_of_ne m ρ c main_arg7 (by decide)).trans ((W5_keep m ρ c (r := main_arg7) (by decide)).trans ((W4_of_ne m ρ c main_arg7 (by decide)).trans ((W3_keep m ρ c (r := main_arg7) (by decide)).trans ((W2_keep m ρ c (r := main_arg7) (by decide)).trans (W1_keep m ρ c (r := main_arg7) (by decide))))))
theorem W7_arg8 : W7 m ρ c (Proc.devRef .tc main_arg8) = V0 m ρ c main_arg8 :=
  (W7_of_ne m ρ c main_arg8 (by decide)).trans ((W6_of_ne m ρ c main_arg8 (by decide)).trans ((W5_keep m ρ c (r := main_arg8) (by decide)).trans ((W4_of_ne m ρ c main_arg8 (by decide)).trans ((W3_keep m ρ c (r := main_arg8) (by decide)).trans ((W2_keep m ρ c (r := main_arg8) (by decide)).trans (W1_keep m ρ c (r := main_arg8) (by decide)))))))
theorem W9_arg9 : W9 m ρ c (Proc.devRef .tc main_arg9) = V0 m ρ c main_arg9 :=
  (W9_of_ne m ρ c main_arg9 (by decide)).trans ((W8_keep m ρ c (r := main_arg9) (by decide)).trans ((W7_of_ne m ρ c main_arg9 (by decide)).trans ((W6_of_ne m ρ c main_arg9 (by decide)).trans ((W5_keep m ρ c (r := main_arg9) (by decide)).trans ((W4_of_ne m ρ c main_arg9 (by decide)).trans ((W3_keep m ρ c (r := main_arg9) (by decide)).trans ((W2_keep m ρ c (r := main_arg9) (by decide)).trans (W1_keep m ρ c (r := main_arg9) (by decide)))))))))
theorem W10_arg10 : W10 m ρ c (Proc.devRef .tc main_arg10) = V0 m ρ c main_arg10 :=
  (W10_of_ne m ρ c main_arg10 (by decide)).trans ((W9_of_ne m ρ c main_arg10 (by decide)).trans ((W8_keep m ρ c (r := main_arg10) (by decide)).trans ((W7_of_ne m ρ c main_arg10 (by decide)).trans ((W6_of_ne m ρ c main_arg10 (by decide)).trans ((W5_keep m ρ c (r := main_arg10) (by decide)).trans ((W4_of_ne m ρ c main_arg10 (by decide)).trans ((W3_keep m ρ c (r := main_arg10) (by decide)).trans ((W2_keep m ρ c (r := main_arg10) (by decide)).trans (W1_keep m ρ c (r := main_arg10) (by decide))))))))))
theorem W12_arg2 : W12 m ρ c (Proc.devRef .tc main_arg2) = V0 m ρ c main_arg2 :=
  (W12_of_ne m ρ c main_arg2 (by decide)).trans ((W11_keep m ρ c (r := main_arg2) (by decide)).trans ((W10_of_ne m ρ c main_arg2 (by decide)).trans ((W9_of_ne m ρ c main_arg2 (by decide)).trans ((W8_keep m ρ c (r := main_arg2) (by decide)).trans ((W7_of_ne m ρ c main_arg2 (by decide)).trans ((W6_of_ne m ρ c main_arg2 (by decide)).trans ((W5_keep m ρ c (r := main_arg2) (by decide)).trans ((W4_of_ne m ρ c main_arg2 (by decide)).trans ((W3_keep m ρ c (r := main_arg2) (by decide)).trans ((W2_keep m ρ c (r := main_arg2) (by decide)).trans (W1_keep m ρ c (r := main_arg2) (by decide))))))))))))
theorem W12_arg3 : W12 m ρ c (Proc.devRef .tc main_arg3) = V0 m ρ c main_arg3 :=
  (W12_of_ne m ρ c main_arg3 (by decide)).trans ((W11_keep m ρ c (r := main_arg3) (by decide)).trans ((W10_of_ne m ρ c main_arg3 (by decide)).trans ((W9_of_ne m ρ c main_arg3 (by decide)).trans ((W8_keep m ρ c (r := main_arg3) (by decide)).trans ((W7_of_ne m ρ c main_arg3 (by decide)).trans ((W6_of_ne m ρ c main_arg3 (by decide)).trans ((W5_keep m ρ c (r := main_arg3) (by decide)).trans ((W4_of_ne m ρ c main_arg3 (by decide)).trans ((W3_keep m ρ c (r := main_arg3) (by decide)).trans ((W2_keep m ρ c (r := main_arg3) (by decide)).trans (W1_keep m ρ c (r := main_arg3) (by decide))))))))))))
theorem W12_arg4 : W12 m ρ c (Proc.devRef .tc main_arg4) = V0 m ρ c main_arg4 :=
  (W12_of_ne m ρ c main_arg4 (by decide)).trans ((W11_keep m ρ c (r := main_arg4) (by decide)).trans ((W10_of_ne m ρ c main_arg4 (by decide)).trans ((W9_of_ne m ρ c main_arg4 (by decide)).trans ((W8_keep m ρ c (r := main_arg4) (by decide)).trans ((W7_of_ne m ρ c main_arg4 (by decide)).trans ((W6_of_ne m ρ c main_arg4 (by decide)).trans ((W5_keep m ρ c (r := main_arg4) (by decide)).trans ((W4_of_ne m ρ c main_arg4 (by decide)).trans ((W3_keep m ρ c (r := main_arg4) (by decide)).trans ((W2_keep m ρ c (r := main_arg4) (by decide)).trans (W1_keep m ρ c (r := main_arg4) (by decide))))))))))))
theorem W12_arg12 : W12 m ρ c (Proc.devRef .tc main_arg12) = V0 m ρ c main_arg12 :=
  (W12_of_ne m ρ c main_arg12 (by decide)).trans ((W11_keep m ρ c (r := main_arg12) (by decide)).trans ((W10_of_ne m ρ c main_arg12 (by decide)).trans ((W9_of_ne m ρ c main_arg12 (by decide)).trans ((W8_keep m ρ c (r := main_arg12) (by decide)).trans ((W7_of_ne m ρ c main_arg12 (by decide)).trans ((W6_of_ne m ρ c main_arg12 (by decide)).trans ((W5_keep m ρ c (r := main_arg12) (by decide)).trans ((W4_of_ne m ρ c main_arg12 (by decide)).trans ((W3_keep m ρ c (r := main_arg12) (by decide)).trans ((W2_keep m ρ c (r := main_arg12) (by decide)).trans (W1_keep m ρ c (r := main_arg12) (by decide))))))))))))
theorem W12_arg14 : W12 m ρ c (Proc.devRef .tc main_arg14) = V0 m ρ c main_arg14 :=
  (W12_of_ne m ρ c main_arg14 (by decide)).trans ((W11_keep m ρ c (r := main_arg14) (by decide)).trans ((W10_of_ne m ρ c main_arg14 (by decide)).trans ((W9_of_ne m ρ c main_arg14 (by decide)).trans ((W8_keep m ρ c (r := main_arg14) (by decide)).trans ((W7_of_ne m ρ c main_arg14 (by decide)).trans ((W6_of_ne m ρ c main_arg14 (by decide)).trans ((W5_keep m ρ c (r := main_arg14) (by decide)).trans ((W4_of_ne m ρ c main_arg14 (by decide)).trans ((W3_keep m ρ c (r := main_arg14) (by decide)).trans ((W2_keep m ρ c (r := main_arg14) (by decide)).trans (W1_keep m ρ c (r := main_arg14) (by decide))))))))))))
theorem W13_arg11 : W13 m ρ c (Proc.devRef .tc main_arg11) = V0 m ρ c main_arg11 :=
  (W13_keep m ρ c (r := main_arg11) (by decide)).trans ((W12_of_ne m ρ c main_arg11 (by decide)).trans ((W11_keep m ρ c (r := main_arg11) (by decide)).trans ((W10_of_ne m ρ c main_arg11 (by decide)).trans ((W9_of_ne m ρ c main_arg11 (by decide)).trans ((W8_keep m ρ c (r := main_arg11) (by decide)).trans ((W7_of_ne m ρ c main_arg11 (by decide)).trans ((W6_of_ne m ρ c main_arg11 (by decide)).trans ((W5_keep m ρ c (r := main_arg11) (by decide)).trans ((W4_of_ne m ρ c main_arg11 (by decide)).trans ((W3_keep m ρ c (r := main_arg11) (by decide)).trans ((W2_keep m ρ c (r := main_arg11) (by decide)).trans (W1_keep m ρ c (r := main_arg11) (by decide)))))))))))))
theorem W13_arg13 : W13 m ρ c (Proc.devRef .tc main_arg13) = V0 m ρ c main_arg13 :=
  (W13_keep m ρ c (r := main_arg13) (by decide)).trans ((W12_of_ne m ρ c main_arg13 (by decide)).trans ((W11_keep m ρ c (r := main_arg13) (by decide)).trans ((W10_of_ne m ρ c main_arg13 (by decide)).trans ((W9_of_ne m ρ c main_arg13 (by decide)).trans ((W8_keep m ρ c (r := main_arg13) (by decide)).trans ((W7_of_ne m ρ c main_arg13 (by decide)).trans ((W6_of_ne m ρ c main_arg13 (by decide)).trans ((W5_keep m ρ c (r := main_arg13) (by decide)).trans ((W4_of_ne m ρ c main_arg13 (by decide)).trans ((W3_keep m ρ c (r := main_arg13) (by decide)).trans ((W2_keep m ρ c (r := main_arg13) (by decide)).trans (W1_keep m ρ c (r := main_arg13) (by decide)))))))))))))

/-! ### The edge endpoints and the edge weights -/
theorem W1_v3 : W1 m ρ c (Proc.devRef .tc main_v3) = src (V0 m ρ c main_arg1) :=
  ops0_v3 _
theorem W1_v6 : W1 m ρ c (Proc.devRef .tc main_v6) = dst (V0 m ρ c main_arg1) :=
  ops0_v6 _
theorem W1_v12 : W1 m ρ c (Proc.devRef .tc main_v12) = cmpf .ogt (deg (V0 m ρ c main_arg1)) (broadcastInDim S50000 ![] bcast_S_S50000 (constant S_ .f32 0x00000000#32)) :=
  ops0_v12 _
theorem W1_v13 : W1 m ρ c (Proc.devRef .tc main_v13) = Host.rsqrt (deg (V0 m ρ c main_arg1)) :=
  ops0_v13 _
theorem W1_cst_2 : W1 m ρ c (Proc.devRef .tc main_cst_2) = constant S_ .f32 0x00000000#32 :=
  ops0_cst_2 _
theorem W2_v14 : W2 m ρ c (Proc.devRef .tc main_v14) = dis (V0 m ρ c main_arg1) := by
  refine (ops0_1_v14 (W1 m ρ c)).trans ?_
  rw [W1_v12, W1_v13, W1_cst_2]; rfl
theorem W2_v3 : W2 m ρ c (Proc.devRef .tc main_v3) = src (V0 m ρ c main_arg1) :=
  ((W2_keep m ρ c (r := main_v3) (by decide))).trans (W1_v3 m ρ c)
theorem W3_v3 : W3 m ρ c (Proc.devRef .tc main_v3) = src (V0 m ρ c main_arg1) :=
  ((W3_keep m ρ c (r := main_v3) (by decide)).trans (W2_keep m ρ c (r := main_v3) (by decide))).trans (W1_v3 m ρ c)
theorem W4_v3 : W4 m ρ c (Proc.devRef .tc main_v3) = src (V0 m ρ c main_arg1) :=
  ((W4_of_ne m ρ c main_v3 (by decide)).trans ((W3_keep m ρ c (r := main_v3) (by decide)).trans (W2_keep m ρ c (r := main_v3) (by decide)))).trans (W1_v3 m ρ c)
theorem W7_v3 : W7 m ρ c (Proc.devRef .tc main_v3) = src (V0 m ρ c main_arg1) :=
  ((W7_of_ne m ρ c main_v3 (by decide)).trans ((W6_of_ne m ρ c main_v3 (by decide)).trans ((W5_keep m ρ c (r := main_v3) (by decide)).trans ((W4_of_ne m ρ c main_v3 (by decide)).trans ((W3_keep m ρ c (r := main_v3) (by decide)).trans (W2_keep m ρ c (r := main_v3) (by decide))))))).trans (W1_v3 m ρ c)
theorem W10_v3 : W10 m ρ c (Proc.devRef .tc main_v3) = src (V0 m ρ c main_arg1) :=
  ((W10_of_ne m ρ c main_v3 (by decide)).trans ((W9_of_ne m ρ c main_v3 (by decide)).trans ((W8_keep m ρ c (r := main_v3) (by decide)).trans ((W7_of_ne m ρ c main_v3 (by decide)).trans ((W6_of_ne m ρ c main_v3 (by decide)).trans ((W5_keep m ρ c (r := main_v3) (by decide)).trans ((W4_of_ne m ρ c main_v3 (by decide)).trans ((W3_keep m ρ c (r := main_v3) (by decide)).trans (W2_keep m ρ c (r := main_v3) (by decide)))))))))).trans (W1_v3 m ρ c)
theorem W2_v6 : W2 m ρ c (Proc.devRef .tc main_v6) = dst (V0 m ρ c main_arg1) :=
  ((W2_keep m ρ c (r := main_v6) (by decide))).trans (W1_v6 m ρ c)
theorem W3_v6 : W3 m ρ c (Proc.devRef .tc main_v6) = dst (V0 m ρ c main_arg1) :=
  ((W3_keep m ρ c (r := main_v6) (by decide)).trans (W2_keep m ρ c (r := main_v6) (by decide))).trans (W1_v6 m ρ c)
theorem W4_v6 : W4 m ρ c (Proc.devRef .tc main_v6) = dst (V0 m ρ c main_arg1) :=
  ((W4_of_ne m ρ c main_v6 (by decide)).trans ((W3_keep m ρ c (r := main_v6) (by decide)).trans (W2_keep m ρ c (r := main_v6) (by decide)))).trans (W1_v6 m ρ c)
theorem W7_v6 : W7 m ρ c (Proc.devRef .tc main_v6) = dst (V0 m ρ c main_arg1) :=
  ((W7_of_ne m ρ c main_v6 (by decide)).trans ((W6_of_ne m ρ c main_v6 (by decide)).trans ((W5_keep m ρ c (r := main_v6) (by decide)).trans ((W4_of_ne m ρ c main_v6 (by decide)).trans ((W3_keep m ρ c (r := main_v6) (by decide)).trans (W2_keep m ρ c (r := main_v6) (by decide))))))).trans (W1_v6 m ρ c)
theorem W10_v6 : W10 m ρ c (Proc.devRef .tc main_v6) = dst (V0 m ρ c main_arg1) :=
  ((W10_of_ne m ρ c main_v6 (by decide)).trans ((W9_of_ne m ρ c main_v6 (by decide)).trans ((W8_keep m ρ c (r := main_v6) (by decide)).trans ((W7_of_ne m ρ c main_v6 (by decide)).trans ((W6_of_ne m ρ c main_v6 (by decide)).trans ((W5_keep m ρ c (r := main_v6) (by decide)).trans ((W4_of_ne m ρ c main_v6 (by decide)).trans ((W3_keep m ρ c (r := main_v6) (by decide)).trans (W2_keep m ρ c (r := main_v6) (by decide)))))))))).trans (W1_v6 m ρ c)
theorem W3_v29 : W3 m ρ c (Proc.devRef .tc main_v29) = nrm (V0 m ρ c main_arg1) := by
  refine (ops0_2_v29 (W2 m ρ c)).trans ?_
  rw [W2_v14, W2_v3, W2_v6, ← nrm_eq]
theorem W4_v29 : W4 m ρ c (Proc.devRef .tc main_v29) = nrm (V0 m ρ c main_arg1) :=
  ((W4_of_ne m ρ c main_v29 (by decide))).trans (W3_v29 m ρ c)
theorem W7_v29 : W7 m ρ c (Proc.devRef .tc main_v29) = nrm (V0 m ρ c main_arg1) :=
  ((W7_of_ne m ρ c main_v29 (by decide)).trans ((W6_of_ne m ρ c main_v29 (by decide)).trans ((W5_keep m ρ c (r := main_v29) (by decide)).trans (W4_of_ne m ρ c main_v29 (by decide))))).trans (W3_v29 m ρ c)
theorem W10_v29 : W10 m ρ c (Proc.devRef .tc main_v29) = nrm (V0 m ρ c main_arg1) :=
  ((W10_of_ne m ρ c main_v29 (by decide)).trans ((W9_of_ne m ρ c main_v29 (by decide)).trans ((W8_keep m ρ c (r := main_v29) (by decide)).trans ((W7_of_ne m ρ c main_v29 (by decide)).trans ((W6_of_ne m ρ c main_v29 (by decide)).trans ((W5_keep m ρ c (r := main_v29) (by decide)).trans (W4_of_ne m ρ c main_v29 (by decide)))))))).trans (W3_v29 m ρ c)

/-! ### The regions' arrays: each output array after its region, each input array at its region's entry -/
theorem W4_v30 : W4 m ρ c (Proc.devRef .tc main_v30) = (dat0 (V3 m ρ) c).arrAt 2 cfg0.N :=
  W4_arr m ρ c 2
theorem W5_v43 : W5 m ρ c (Proc.devRef .tc main_v43) = agg (V0 m ρ c main_arg1) (W4 m ρ c (Proc.devRef .tc main_v30)) := by
  refine (ops1_v43 (W4 m ρ c)).trans ?_
  rw [W4_v29, W4_v3, W4_v6, ← agg_eq]
theorem W5_v44 : W5 m ρ c (Proc.devRef .tc main_v44) = brow (V0 m ρ c main_arg6) :=
  (ops1_v44 (W4 m ρ c)).trans (congrArg brow (W4_arg6 m ρ c))
theorem W6_v45 : W6 m ρ c (Proc.devRef .tc main_v45) = (dat1 (V5 m ρ) c).arrAt 2 cfg1.N :=
  W6_arr m ρ c 2
theorem W7_v46 : W7 m ρ c (Proc.devRef .tc main_v46) = (dat2 (V6 m ρ) c).arrAt 2 cfg2.N :=
  W7_arr m ρ c 2
theorem W8_v59 : W8 m ρ c (Proc.devRef .tc main_v59) = agg (V0 m ρ c main_arg1) (W7 m ρ c (Proc.devRef .tc main_v46)) := by
  refine (ops3_v59 (W7 m ρ c)).trans ?_
  rw [W7_v29, W7_v3, W7_v6, ← agg_eq]
theorem W8_v60 : W8 m ρ c (Proc.devRef .tc main_v60) = brow (V0 m ρ c main_arg8) :=
  (ops3_v60 (W7 m ρ c)).trans (congrArg brow (W7_arg8 m ρ c))
theorem W9_v61 : W9 m ρ c (Proc.devRef .tc main_v61) = (dat3 (V8 m ρ) c).arrAt 2 cfg3.N :=
  W9_arr m ρ c 2
theorem W10_v62 : W10 m ρ c (Proc.devRef .tc main_v62) = (dat4 (V9 m ρ) c).arrAt 2 cfg4.N :=
  W10_arr m ρ c 2
theorem W11_v75 : W11 m ρ c (Proc.devRef .tc main_v75) = agg (V0 m ρ c main_arg1) (W10 m ρ c (Proc.devRef .tc main_v62)) := by
  refine (ops5_v75 (W10 m ρ c)).trans ?_
  rw [W10_v29, W10_v3, W10_v6, ← agg_eq]
theorem W11_v76 : W11 m ρ c (Proc.devRef .tc main_v76) = brow (V0 m ρ c main_arg10) :=
  (ops5_v76 (W10 m ρ c)).trans (congrArg brow (W10_arg10 m ρ c))
theorem W12_v77 : W12 m ρ c (Proc.devRef .tc main_v77) = (dat5 (V11 m ρ) c).arrAt 2 cfg5.N :=
  W12_arr m ρ c 2
theorem W13_v90 : W13 m ρ c (Proc.devRef .tc main_v90) = cat (pool (W12 m ρ c (Proc.devRef .tc main_v77)) (V0 m ρ c main_arg2)) (V0 m ρ c main_arg3) (V0 m ρ c main_arg4) := by
  refine (ops6_v90 (W12 m ρ c)).trans ?_
  rw [W12_arg2, W12_arg3, W12_arg4]
theorem W13_v91 : W13 m ρ c (Proc.devRef .tc main_v91) = brow196 (V0 m ρ c main_arg12) :=
  (ops6_v91 (W12 m ρ c)).trans (congrArg brow196 (W12_arg12 m ρ c))
theorem W13_v92 : W13 m ρ c (Proc.devRef .tc main_v92) = brow16 (V0 m ρ c main_arg14) :=
  (ops6_v92 (W12 m ρ c)).trans (congrArg brow16 (W12_arg14 m ρ c))
theorem W14_v93 : W14 m ρ c (Proc.devRef .tc main_v93) = (dat6 (V13 m ρ) c).arrAt 5 cfg6.N :=
  W14_arr m ρ c 5

end Fold

end Cert.KernelIdeal.Stages

end
-- ==== Proof.KI.ValLin.lean ====
/-
  What each of the three matrix-product regions leaves in its output array, read at an index, at the ideal instance: for
  any buffer contents at region entry, entry (p, q) of the output array after the region is the sum over k of the entry
  (p, k) of the row operand times the entry (k, q) of the weight matrix. Per region: the body's arithmetic at an index of
  the output buffer; what a grid point writes back as a block of one whole-array function; the blocks cover the array.
-/
import proofs.«166593_j71528385348100_1_alg».proof.Proof.KI.Data
import proofs.«166593_j71528385348100_1_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-- The zero offsets of a whole-buffer rectangle, as the constant function. -/
theorem hz_lin : (![0, 0] : Fin 2 → Nat) = fun _ => 0 := funext fun a => by fin_cases a <;> rfl

/-- Entry (p, q) of the product of an M×K array with a K×N array. -/
abbrev mulEntry (M K N : Nat) (A : (⟨2, ![M, K]⟩ : Shape).Idx → EReal) (B : (⟨2, ![K, N]⟩ : Shape).Idx → EReal) (p : Fin M) (q : Fin N) : EReal :=
  ∑ k : Fin K, A (ix2 p k) * B (ix2 k q)

variable (V : (c : Dev nD) → (b : Ref sig .tc) → Buf (Elt Ideal) ((c : Thread nD τ).loc b)) (c : Dev nD)

/-! ## Region 0: rows of `main_arg0` times `main_arg5` -/

theorem dot0_plain : dot_S2000x128_S128x256_S2000x256_1_0_0_1_n_n = DotDims.plain 2000 128 256 := rfl

/-- One run of the body leaves, at row r and column q of the output buffer, the sum over k of the row block's entry
    (r, k) times the matrix's entry (k, q): the narrowing to bf16 is the identity on extended reals and the product
    into the zero accumulator is the exact sum. -/
theorem pay0_apply (x0 : Vec Ideal S2000x128 .f32) (x1 : Vec Ideal S128x256 .f32) (r : Fin 2000) (q : Fin 256) :
    out0_2 x0 x1 (ix2 r q) = ∑ k : Fin 128, x0 (ix2 r k) * x1 (ix2 k q) := by
  unfold out0_2
  rw [View.canon_unit_zero hz_lin]
  simp only [View.ld_unit_zero (S := S2000x128) hz_lin, View.ld_unit_zero (S := S128x256) hz_lin]
  unfold k0_pay1
  show FloatOps.matmul (F := Ideal) dot_S2000x128_S128x256_S2000x256_1_0_0_1_n_n none (truncf (F := Ideal) .bf16 (x0 : FVec Ideal S2000x128 .f32) bitsLt_bf16_f32) (truncf (F := Ideal) .bf16 (x1 : FVec Ideal S128x256 .f32) bitsLt_bf16_f32) (constant (F := Ideal) S2000x256 .f32 0x00000000#32) (ix2 r q) = _
  rw [dot0_plain]
  refine (PlainMatmul.plain_matmul_zero_apply 2000 128 256 none _ _ r q).trans ?_
  rfl

/-- The product of `main_arg0` with `main_arg5` as the region finds them, entry by entry. -/
abbrev G0 : S50000x256.Idx → EReal := fun i => mulEntry 50000 128 256 (V c main_arg0) (V c main_arg5) (i 0) (i 1)

/-- The index maps over the grid: the row blocks of `main_arg0` and of the product move together, block t at point t; the
    matrix `main_arg5` is one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed0_eq (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  obtain ⟨e00, e01, e10, e11, e20, e21⟩ := idx_facts0 t
  funext j
  obtain ⟨r, q, rfl⟩ : ∃ (r : Fin 2000) (q : Fin 256), j = ix2 r q := ⟨j 0, j 1, eq_ix2 (n0 := 2000) (n1 := 256) j⟩
  show out0_2 (iblk0 V c 0 t) (iblk0 V c 1 t) (ix2 r q) = G0 V c (((cfg0.win 2).blk t).view.emb (ix2 r q))
  rw [pay0_apply]
  refine Finset.sum_congr rfl fun k _ => ?_
  have h0 : ((cfg0.win 0).blk t).view.emb (ix2 r k) = ix2 ((((cfg0.win 2).blk t).view.emb (ix2 r q)) 0 : Fin 50000) k := by
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 128 + 1 * k.val = k.val; omega
  have h1 : ((cfg0.win 1).blk t).view.emb (ix2 k q) = ix2 k ((((cfg0.win 2).blk t).view.emb (ix2 r q)) 1 : Fin 256) := by
    funext a; apply Fin.ext
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega
  have a0 : (iblk0 V c 0 t : S2000x128.Idx → EReal) (ix2 r k) = (V c main_arg0 : S50000x128.Idx → EReal) (ix2 ((((cfg0.win 2).blk t).view.emb (ix2 r q)) 0 : Fin 50000) k) :=
    congrArg (V c main_arg0 : S50000x128.Idx → EReal) h0
  have a1 : (iblk0 V c 1 t : S128x256.Idx → EReal) (ix2 k q) = (V c main_arg5 : S128x256.Idx → EReal) (ix2 k ((((cfg0.win 2).blk t).view.emb (ix2 r q)) 1 : Fin 256)) :=
    congrArg (V c main_arg5 : S128x256.Idx → EReal) h1
  exact congrArg₂ (fun a b : EReal => a * b) a0 a1

/-- An index of the product is in point t's block iff each coordinate is in the block's range on its axis. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row r of the product lies in the block of point r / 2000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e20, e21⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The array `main_v30` after the region: the matrix product, entry by entry. -/
theorem final0 : (dat0 (F := Ideal) V c).arrAt 2 cfg0.N = G0 V c :=
  (dat0 V c).arrAt_eq_of_cover 2 (G0 V c) (fun t _ => flushed0_eq V c t) (cover0)

theorem lin0_apply (p : Fin 50000) (q : Fin 256) :
    (dat0 (F := Ideal) V c).arrAt 2 cfg0.N (ix2 p q) = mulEntry 50000 128 256 (V c main_arg0) (V c main_arg5) p q := by
  rw [final0]

/-! ## Region 2: rows of `main_v45` times `main_arg7` -/

theorem dot2_plain : dot_S2000x256_S256x256_S2000x256_1_0_0_1_n_n = DotDims.plain 2000 256 256 := rfl

/-- One run of the body leaves, at row r and column q of the output buffer, the sum over k of the row block's entry
    (r, k) times the matrix's entry (k, q): the narrowing to bf16 is the identity on extended reals and the product
    into the zero accumulator is the exact sum. -/
theorem pay2_apply (x0 : Vec Ideal S2000x256 .f32) (x1 : Vec Ideal S256x256 .f32) (r : Fin 2000) (q : Fin 256) :
    out2_2 x0 x1 (ix2 r q) = ∑ k : Fin 256, x0 (ix2 r k) * x1 (ix2 k q) := by
  unfold out2_2
  rw [View.canon_unit_zero hz_lin]
  simp only [View.ld_unit_zero (S := S2000x256) hz_lin, View.ld_unit_zero (S := S256x256) hz_lin]
  unfold k2_pay1
  simp only [shapeCast_self]
  show FloatOps.matmul (F := Ideal) dot_S2000x256_S256x256_S2000x256_1_0_0_1_n_n none (truncf (F := Ideal) .bf16 (x0 : FVec Ideal S2000x256 .f32) bitsLt_bf16_f32) (truncf (F := Ideal) .bf16 (x1 : FVec Ideal S256x256 .f32) bitsLt_bf16_f32) (constant (F := Ideal) S2000x256 .f32 0x00000000#32) (ix2 r q) = _
  rw [dot2_plain]
  refine (PlainMatmul.plain_matmul_zero_apply 2000 256 256 none _ _ r q).trans ?_
  rfl

/-- The product of `main_v45` with `main_arg7` as the region finds them, entry by entry. -/
abbrev G2 : S50000x256.Idx → EReal := fun i => mulEntry 50000 256 256 (V c main_v45) (V c main_arg7) (i 0) (i 1)

/-- The index maps over the grid: the row blocks of `main_v45` and of the product move together, block t at point t; the
    matrix `main_arg7` is one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product. -/
theorem flushed2_eq (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  obtain ⟨e00, e01, e10, e11, e20, e21⟩ := idx_facts2 t
  funext j
  obtain ⟨r, q, rfl⟩ : ∃ (r : Fin 2000) (q : Fin 256), j = ix2 r q := ⟨j 0, j 1, eq_ix2 (n0 := 2000) (n1 := 256) j⟩
  show out2_2 (iblk2 V c 0 t) (iblk2 V c 1 t) (ix2 r q) = G2 V c (((cfg2.win 2).blk t).view.emb (ix2 r q))
  rw [pay2_apply]
  refine Finset.sum_congr rfl fun k _ => ?_
  have h0 : ((cfg2.win 0).blk t).view.emb (ix2 r k) = ix2 ((((cfg2.win 2).blk t).view.emb (ix2 r q)) 0 : Fin 50000) k := by
    funext a; apply Fin.ext
    match a with
    | ⟨0, _⟩ => show win2_0.index t (0 : Fin 2) * 2000 + 1 * r.val = win2_2.index t (0 : Fin 2) * 2000 + 1 * r.val; omega
    | ⟨1, _⟩ => show win2_0.index t (1 : Fin 2) * 256 + 1 * k.val = k.val; omega
  have h1 : ((cfg2.win 1).blk t).view.emb (ix2 k q) = ix2 k ((((cfg2.win 2).blk t).view.emb (ix2 r q)) 1 : Fin 256) := by
    funext a; apply Fin.ext
    match a with
    | ⟨0, _⟩ => show win2_1.index t (0 : Fin 2) * 256 + 1 * k.val = k.val; omega
    | ⟨1, _⟩ => show win2_1.index t (1 : Fin 2) * 256 + 1 * q.val = win2_2.index t (1 : Fin 2) * 256 + 1 * q.val; omega
  have a0 : (iblk2 V c 0 t : S2000x256.Idx → EReal) (ix2 r k) = (V c main_v45 : S50000x256.Idx → EReal) (ix2 ((((cfg2.win 2).blk t).view.emb (ix2 r q)) 0 : Fin 50000) k) :=
    congrArg (V c main_v45 : S50000x256.Idx → EReal) h0
  have a1 : (iblk2 V c 1 t : S256x256.Idx → EReal) (ix2 k q) = (V c main_arg7 : S256x256.Idx → EReal) (ix2 k ((((cfg2.win 2).blk t).view.emb (ix2 r q)) 1 : Fin 256)) :=
    congrArg (V c main_arg7 : S256x256.Idx → EReal) h1
  exact congrArg₂ (fun a b : EReal => a * b) a0 a1

/-- An index of the product is in point t's block iff each coordinate is in the block's range on its axis. -/
theorem mem_blk2 (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v46).slice (win2_2.rect t)).set ↔ _
  rw [View.set_slice_whole, Rect.mem_set_unit]
  exact Iff.rfl

/-- Row r of the product lies in the block of point r / 2000. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e20, e21⟩ := idx_facts2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- The array `main_v46` after the region: the matrix product, entry by entry. -/
theorem final2 : (dat2 (F := Ideal) V c).arrAt 2 cfg2.N = G2 V c :=
  (dat2 V c).arrAt_eq_of_cover 2 (G2 V c) (fun t _ => flushed2_eq V c t) (cover2)

theorem lin2_apply (p : Fin 50000) (q : Fin 256) :
    (dat2 (F := Ideal) V c).arrAt 2 cfg2.N (ix2 p q) = mulEntry 50000 256 256 (V c main_v45) (V c main_arg7) p q := by
  rw [final2]

/-! ## Region 4: rows of `main_v61` times `main_arg9` -/

theorem dot4_plain : dot_S2000x256_S256x256_S2000x256_1_0_0_1_n_n = DotDims.plain 2000 256 256 := rfl

/-- One run of the body leaves, at row r and column q of the output buffer, the sum over k of the row block's entry
    (r, k) times the matrix's entry (k, q): the narrowing to bf16 is the identity on extended reals and the product
    into the zero accumulator is the exact sum. -/
theorem pay4_apply (x0 : Vec Ideal S2000x256 .f32) (x1 : Vec Ideal S256x256 .f32) (r : Fin 2000) (q : Fin 256) :
    out4_2 x0 x1 (ix2 r q) = ∑ k : Fin 256, x0 (ix2 r k) * x1 (ix2 k q) := by
  unfold out4_2
  rw [View.canon_unit_zero hz_lin]
  simp only [View.ld_unit_zero (S := S2000x256) hz_lin, View.ld_unit_zero (S := S256x256) hz_lin]
  unfold k4_pay1
  simp only [shapeCast_self]
  show FloatOps.matmul (F := Ideal) dot_S2000x256_S256x256_S2000x256_1_0_0_1_n_n none (truncf (F := Ideal) .bf16 (x0 : FVec Ideal S2000x256 .f32) bitsLt_bf16_f32) (truncf (F := Ideal) .bf16 (x1 : FVec Ideal S256x256 .f32) bitsLt_bf16_f32) (constant (F := Ideal) S2000x256 .f32 0x00000000#32) (ix2 r q) = _
  rw [dot4_plain]
  refine (PlainMatmul.plain_matmul_zero_apply 2000 256 256 none _ _ r q).trans ?_
  rfl

/-- The product of `main_v61` with `main_arg9` as the region finds them, entry by entry. -/
abbrev G4 : S50000x256.Idx → EReal := fun i => mulEntry 50000 256 256 (V c main_v61) (V c main_arg9) (i 0) (i 1)

/-- The index maps over the grid: the row blocks of `main_v61` and of the product move together, block t at point t; the
    matrix `main_arg9` is one block. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the product. -/
theorem flushed4_eq (t : Fin cfg4.N) :
    (dat4 (F := Ideal) V c).flushed 2 t = ((cfg4.win 2).blk t).view.read (Elt Ideal) (G4 V c) := by
  show (cfg4.win 2).cut (grid4.coords t) ((dat4 V c).after 2 t) = _
  rw [after4_2]
  obtain ⟨e00, e01, e10, e11, e20, e21⟩ := idx_facts4 t
  funext j
  obtain ⟨r, q, rfl⟩ : ∃ (r : Fin 2000) (q : Fin 256), j = ix2 r q := ⟨j 0, j 1, eq_ix2 (n0 := 2000) (n1 := 256) j⟩
  show out4_2 (iblk4 V c 0 t) (iblk4 V c 1 t) (ix2 r q) = G4 V c (((cfg4.win 2).blk t).view.emb (ix2 r q))
  rw [pay4_apply]
  refine Finset.sum_congr rfl fun k _ => ?_
  have h0 : ((cfg4.win 0).blk t).view.emb (ix2 r k) = ix2 ((((cfg4.win 2).blk t).view.emb (ix2 r q)) 0 : Fin 50000) k := by
    funext a; apply Fin.ext
    match a with
    | ⟨0, _⟩ => show win4_0.index t (0 : Fin 2) * 2000 + 1 * r.val = win4_2.index t (0 : Fin 2) * 2000 + 1 * r.val; omega
    | ⟨1, _⟩ => show win4_0.index t (1 : Fin 2) * 256 + 1 * k.val = k.val; omega
  have h1 : ((cfg4.win 1).blk t).view.emb (ix2 k q) = ix2 k ((((cfg4.win 2).blk t).view.emb (ix2 r q)) 1 : Fin 256) := by
    funext a; apply Fin.ext
    match a with
    | ⟨0, _⟩ => show win4_1.index t (0 : Fin 2) * 256 + 1 * k.val = k.val; omega
    | ⟨1, _⟩ => show win4_1.index t (1 : Fin 2) * 256 + 1 * q.val = win4_2.index t (1 : Fin 2) * 256 + 1 * q.val; omega
  have a0 : (iblk4 V c 0 t : S2000x256.Idx → EReal) (ix2 r k) = (V c main_v61 : S50000x256.Idx → EReal) (ix2 ((((cfg4.win 2).blk t).view.emb (ix2 r q)) 0 : Fin 50000) k) :=
    congrArg (V c main_v61 : S50000x256.Idx → EReal) h0
  have a1 : (iblk4 V c 1 t : S256x256.Idx → EReal) (ix2 k q) = (V c main_arg9 : S256x256.Idx → EReal) (ix2 k ((((cfg4.win 2).blk t).view.emb (ix2 r q)) 1 : Fin 256)) :=
    congrArg (V c main_arg9 : S256x256.Idx → EReal) h1
  exact congrArg₂ (fun a b : EReal => a * b) a0 a1

/-- An index of the product is in point t's block iff each coordinate is in the block's range on its axis. -/
theorem mem_blk4 (t : Fin cfg4.N) (i : S50000x256.Idx) :
    i ∈ ((cfg4.win 2).blk t).view.set ↔ ∀ a : Fin 2, win4_2.index t a * S2000x256.size a ≤ (i a).val ∧ (i a).val < win4_2.index t a * S2000x256.size a + S2000x256.size a := by
  show i ∈ ((View.whole main_v62).slice (win4_2.rect t)).set ↔ _
  rw [View.set_slice_whole, Rect.mem_set_unit]
  exact Iff.rfl

/-- Row r of the product lies in the block of point r / 2000. -/
theorem cover4 (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, e20, e21⟩ := idx_facts4 t
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 256 ≤ (i 1).val ∧ (i 1).val < win4_2.index t (1 : Fin 2) * 256 + 256; omega

/-- The array `main_v62` after the region: the matrix product, entry by entry. -/
theorem final4 : (dat4 (F := Ideal) V c).arrAt 2 cfg4.N = G4 V c :=
  (dat4 V c).arrAt_eq_of_cover 2 (G4 V c) (fun t _ => flushed4_eq V c t) (cover4)

theorem lin4_apply (p : Fin 50000) (q : Fin 256) :
    (dat4 (F := Ideal) V c).arrAt 2 cfg4.N (ix2 p q) = mulEntry 50000 256 256 (V c main_v61) (V c main_arg9) p q := by
  rw [final4]

end Cert.KernelIdeal.HandV

end
-- ==== Proof.KI.ValBias.lean ====
/-
  What each of the three bias-and-clamp regions leaves in its output array, read at an index, at the ideal instance: for
  any buffer contents at region entry, entry (p, q) of the output array after the region is the larger of zero and the
  entry (p, q) of the row operand plus the entry q of the one-row bias array. Per region: the body's arithmetic at an
  index of the output buffer; what a grid point writes back as a block of one whole-array function; the blocks cover the
  array.
-/
import proofs.«166593_j71528385348100_1_alg».proof.Proof.KI.Data
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-- The zero offsets of a whole-buffer rectangle, as the constant function. -/
theorem hz_bias : (![0, 0] : Fin 2 → Nat) = fun _ => 0 := funext fun a => by fin_cases a <;> rfl

/-- Entry (p, q) of an M×N array plus a one-row array's entry q, clamped below at zero. -/
abbrev biasEntry (M N : Nat) (A : (⟨2, ![M, N]⟩ : Shape).Idx → EReal) (b : (⟨2, ![1, N]⟩ : Shape).Idx → EReal) (p : Fin M) (q : Fin N) : EReal :=
  max (A (ix2 p q) + b (ix2 (0 : Fin 1) q)) 0

variable (V : (c : Dev nD) → (b : Ref sig .tc) → Buf (Elt Ideal) ((c : Thread nD τ).loc b)) (c : Dev nD)

/-! ## Region 1: rows of `main_v43` plus the row `main_v44`, clamped below at zero -/

/-- One run of the body leaves, at row r and column q of the output buffer, the row block's entry plus the bias row's
    entry at column q, or zero if that is larger: the same-shape casts are the identity, the row broadcast reads the one
    row, and the constant's word is zero. -/
theorem pay1_apply (x0 : Vec Ideal S2000x256 .f32) (x1 : Vec Ideal S1x256 .f32) (r : Fin 2000) (q : Fin 256) :
    out1_2 x0 x1 (ix2 r q) = max (x0 (ix2 r q) + x1 (ix2 (0 : Fin 1) q)) 0 := by
  unfold out1_2
  rw [View.canon_unit_zero hz_bias]
  simp only [View.ld_unit_zero (S := S2000x256) hz_bias, View.ld_unit_zero (S := S1x256) hz_bias]
  unfold k1_pay1
  simp only [shapeCast_self]
  show max ((x0 : FVec Ideal S2000x256 .f32) (ix2 r q) + broadcastTo S2000x256 (x1 : FVec Ideal S1x256 .f32) broadcasts_S1x256_S2000x256 (ix2 r q)) (Ideal.ofBits .f32 0x00000000#32) = _
  rw [broadcastTo_1b_ab_apply, Ideal.ofBits_zero_f32]

/-- `main_v43` plus the row `main_v44` clamped at zero, as the region finds them, entry by entry. -/
abbrev G1 : S50000x256.Idx → EReal := fun i => biasEntry 50000 256 (V c main_v43) (V c main_v44) (i 0) (i 1)

/-- The index maps over the grid: the row blocks of `main_v43` and of the result move together, block t at point t; the
    row `main_v44` is one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of that array. -/
theorem flushed1_eq (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  obtain ⟨e00, e01, e10, e11, e20, e21⟩ := idx_facts1 t
  funext j
  obtain ⟨r, q, rfl⟩ : ∃ (r : Fin 2000) (q : Fin 256), j = ix2 r q := ⟨j 0, j 1, eq_ix2 (n0 := 2000) (n1 := 256) j⟩
  show out1_2 (iblk1 V c 0 t) (iblk1 V c 1 t) (ix2 r q) = G1 V c (((cfg1.win 2).blk t).view.emb (ix2 r q))
  rw [pay1_apply]
  have h0 : ((cfg1.win 0).blk t).view.emb (ix2 r q) = ix2 ((((cfg1.win 2).blk t).view.emb (ix2 r q)) 0 : Fin 50000) ((((cfg1.win 2).blk t).view.emb (ix2 r q)) 1 : Fin 256) := by
    funext a; apply Fin.ext
    match a with
    | ⟨0, _⟩ => show win1_0.index t (0 : Fin 2) * 2000 + 1 * r.val = win1_2.index t (0 : Fin 2) * 2000 + 1 * r.val; omega
    | ⟨1, _⟩ => show win1_0.index t (1 : Fin 2) * 256 + 1 * q.val = win1_2.index t (1 : Fin 2) * 256 + 1 * q.val; omega
  have h1 : ((cfg1.win 1).blk t).view.emb (ix2 (0 : Fin 1) q) = ix2 (0 : Fin 1) ((((cfg1.win 2).blk t).view.emb (ix2 r q)) 1 : Fin 256) := by
    funext a; apply Fin.ext
    match a with
    | ⟨0, _⟩ => show win1_1.index t (0 : Fin 2) * 1 + 1 * 0 = 0; omega
    | ⟨1, _⟩ => show win1_1.index t (1 : Fin 2) * 256 + 1 * q.val = win1_2.index t (1 : Fin 2) * 256 + 1 * q.val; omega
  have a0 : (iblk1 V c 0 t : S2000x256.Idx → EReal) (ix2 r q) = (V c main_v43 : S50000x256.Idx → EReal) (ix2 ((((cfg1.win 2).blk t).view.emb (ix2 r q)) 0 : Fin 50000) ((((cfg1.win 2).blk t).view.emb (ix2 r q)) 1 : Fin 256)) :=
    congrArg (V c main_v43 : S50000x256.Idx → EReal) h0
  have a1 : (iblk1 V c 1 t : S1x256.Idx → EReal) (ix2 (0 : Fin 1) q) = (V c main_v44 : S1x256.Idx → EReal) (ix2 (0 : Fin 1) ((((cfg1.win 2).blk t).view.emb (ix2 r q)) 1 : Fin 256)) :=
    congrArg (V c main_v44 : S1x256.Idx → EReal) h1
  exact congrArg₂ (fun a b : EReal => max (a + b) 0) a0 a1

/-- An index of the result is in point t's block iff each coordinate is in the block's range on its axis. -/
theorem mem_blk1 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v45).slice (win1_2.rect t)).set ↔ _
  rw [View.set_slice_whole, Rect.mem_set_unit]
  exact Iff.rfl

/-- Row r of the result lies in the block of point r / 2000. -/
theorem cover1 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, e20, e21⟩ := idx_facts1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The array `main_v45` after the region, entry by entry. -/
theorem final1 : (dat1 (F := Ideal) V c).arrAt 2 cfg1.N = G1 V c :=
  (dat1 V c).arrAt_eq_of_cover 2 (G1 V c) (fun t _ => flushed1_eq V c t) (cover1)

theorem bias1_apply (p : Fin 50000) (q : Fin 256) :
    (dat1 (F := Ideal) V c).arrAt 2 cfg1.N (ix2 p q) = biasEntry 50000 256 (V c main_v43) (V c main_v44) p q := by
  rw [final1]

/-! ## Region 3: rows of `main_v59` plus the row `main_v60`, clamped below at zero -/

/-- One run of the body leaves, at row r and column q of the output buffer, the row block's entry plus the bias row's
    entry at column q, or zero if that is larger: the same-shape casts are the identity, the row broadcast reads the one
    row, and the constant's word is zero. -/
theorem pay3_apply (x0 : Vec Ideal S2000x256 .f32) (x1 : Vec Ideal S1x256 .f32) (r : Fin 2000) (q : Fin 256) :
    out3_2 x0 x1 (ix2 r q) = max (x0 (ix2 r q) + x1 (ix2 (0 : Fin 1) q)) 0 := by
  unfold out3_2
  rw [View.canon_unit_zero hz_bias]
  simp only [View.ld_unit_zero (S := S2000x256) hz_bias, View.ld_unit_zero (S := S1x256) hz_bias]
  unfold k3_pay1
  simp only [shapeCast_self]
  show max ((x0 : FVec Ideal S2000x256 .f32) (ix2 r q) + broadcastTo S2000x256 (x1 : FVec Ideal S1x256 .f32) broadcasts_S1x256_S2000x256 (ix2 r q)) (Ideal.ofBits .f32 0x00000000#32) = _
  rw [broadcastTo_1b_ab_apply, Ideal.ofBits_zero_f32]

/-- `main_v59` plus the row `main_v60` clamped at zero, as the region finds them, entry by entry. -/
abbrev G3 : S50000x256.Idx → EReal := fun i => biasEntry 50000 256 (V c main_v59) (V c main_v60) (i 0) (i 1)

/-- The index maps over the grid: the row blocks of `main_v59` and of the result move together, block t at point t; the
    row `main_v60` is one block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of that array. -/
theorem flushed3_eq (t : Fin cfg3.N) :
    (dat3 (F := Ideal) V c).flushed 2 t = ((cfg3.win 2).blk t).view.read (Elt Ideal) (G3 V c) := by
  show (cfg3.win 2).cut (grid3.coords t) ((dat3 V c).after 2 t) = _
  rw [after3_2]
  obtain ⟨e00, e01, e10, e11, e20, e21⟩ := idx_facts3 t
  funext j
  obtain ⟨r, q, rfl⟩ : ∃ (r : Fin 2000) (q : Fin 256), j = ix2 r q := ⟨j 0, j 1, eq_ix2 (n0 := 2000) (n1 := 256) j⟩
  show out3_2 (iblk3 V c 0 t) (iblk3 V c 1 t) (ix2 r q) = G3 V c (((cfg3.win 2).blk t).view.emb (ix2 r q))
  rw [pay3_apply]
  have h0 : ((cfg3.win 0).blk t).view.emb (ix2 r q) = ix2 ((((cfg3.win 2).blk t).view.emb (ix2 r q)) 0 : Fin 50000) ((((cfg3.win 2).blk t).view.emb (ix2 r q)) 1 : Fin 256) := by
    funext a; apply Fin.ext
    match a with
    | ⟨0, _⟩ => show win3_0.index t (0 : Fin 2) * 2000 + 1 * r.val = win3_2.index t (0 : Fin 2) * 2000 + 1 * r.val; omega
    | ⟨1, _⟩ => show win3_0.index t (1 : Fin 2) * 256 + 1 * q.val = win3_2.index t (1 : Fin 2) * 256 + 1 * q.val; omega
  have h1 : ((cfg3.win 1).blk t).view.emb (ix2 (0 : Fin 1) q) = ix2 (0 : Fin 1) ((((cfg3.win 2).blk t).view.emb (ix2 r q)) 1 : Fin 256) := by
    funext a; apply Fin.ext
    match a with
    | ⟨0, _⟩ => show win3_1.index t (0 : Fin 2) * 1 + 1 * 0 = 0; omega
    | ⟨1, _⟩ => show win3_1.index t (1 : Fin 2) * 256 + 1 * q.val = win3_2.index t (1 : Fin 2) * 256 + 1 * q.val; omega
  have a0 : (iblk3 V c 0 t : S2000x256.Idx → EReal) (ix2 r q) = (V c main_v59 : S50000x256.Idx → EReal) (ix2 ((((cfg3.win 2).blk t).view.emb (ix2 r q)) 0 : Fin 50000) ((((cfg3.win 2).blk t).view.emb (ix2 r q)) 1 : Fin 256)) :=
    congrArg (V c main_v59 : S50000x256.Idx → EReal) h0
  have a1 : (iblk3 V c 1 t : S1x256.Idx → EReal) (ix2 (0 : Fin 1) q) = (V c main_v60 : S1x256.Idx → EReal) (ix2 (0 : Fin 1) ((((cfg3.win 2).blk t).view.emb (ix2 r q)) 1 : Fin 256)) :=
    congrArg (V c main_v60 : S1x256.Idx → EReal) h1
  exact congrArg₂ (fun a b : EReal => max (a + b) 0) a0 a1

/-- An index of the result is in point t's block iff each coordinate is in the block's range on its axis. -/
theorem mem_blk3 (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v61).slice (win3_2.rect t)).set ↔ _
  rw [View.set_slice_whole, Rect.mem_set_unit]
  exact Iff.rfl

/-- Row r of the result lies in the block of point r / 2000. -/
theorem cover3 (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, e20, e21⟩ := idx_facts3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The array `main_v61` after the region, entry by entry. -/
theorem final3 : (dat3 (F := Ideal) V c).arrAt 2 cfg3.N = G3 V c :=
  (dat3 V c).arrAt_eq_of_cover 2 (G3 V c) (fun t _ => flushed3_eq V c t) (cover3)

theorem bias3_apply (p : Fin 50000) (q : Fin 256) :
    (dat3 (F := Ideal) V c).arrAt 2 cfg3.N (ix2 p q) = biasEntry 50000 256 (V c main_v59) (V c main_v60) p q := by
  rw [final3]

/-! ## Region 5: rows of `main_v75` plus the row `main_v76`, clamped below at zero -/

/-- One run of the body leaves, at row r and column q of the output buffer, the row block's entry plus the bias row's
    entry at column q, or zero if that is larger: the same-shape casts are the identity, the row broadcast reads the one
    row, and the constant's word is zero. -/
theorem pay5_apply (x0 : Vec Ideal S2000x256 .f32) (x1 : Vec Ideal S1x256 .f32) (r : Fin 2000) (q : Fin 256) :
    out5_2 x0 x1 (ix2 r q) = max (x0 (ix2 r q) + x1 (ix2 (0 : Fin 1) q)) 0 := by
  unfold out5_2
  rw [View.canon_unit_zero hz_bias]
  simp only [View.ld_unit_zero (S := S2000x256) hz_bias, View.ld_unit_zero (S := S1x256) hz_bias]
  unfold k5_pay1
  simp only [shapeCast_self]
  show max ((x0 : FVec Ideal S2000x256 .f32) (ix2 r q) + broadcastTo S2000x256 (x1 : FVec Ideal S1x256 .f32) broadcasts_S1x256_S2000x256 (ix2 r q)) (Ideal.ofBits .f32 0x00000000#32) = _
  rw [broadcastTo_1b_ab_apply, Ideal.ofBits_zero_f32]

/-- `main_v75` plus the row `main_v76` clamped at zero, as the region finds them, entry by entry. -/
abbrev G5 : S50000x256.Idx → EReal := fun i => biasEntry 50000 256 (V c main_v75) (V c main_v76) (i 0) (i 1)

/-- The index maps over the grid: the row blocks of `main_v75` and of the result move together, block t at point t; the
    row `main_v76` is one block. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of that array. -/
theorem flushed5_eq (t : Fin cfg5.N) :
    (dat5 (F := Ideal) V c).flushed 2 t = ((cfg5.win 2).blk t).view.read (Elt Ideal) (G5 V c) := by
  show (cfg5.win 2).cut (grid5.coords t) ((dat5 V c).after 2 t) = _
  rw [after5_2]
  obtain ⟨e00, e01, e10, e11, e20, e21⟩ := idx_facts5 t
  funext j
  obtain ⟨r, q, rfl⟩ : ∃ (r : Fin 2000) (q : Fin 256), j = ix2 r q := ⟨j 0, j 1, eq_ix2 (n0 := 2000) (n1 := 256) j⟩
  show out5_2 (iblk5 V c 0 t) (iblk5 V c 1 t) (ix2 r q) = G5 V c (((cfg5.win 2).blk t).view.emb (ix2 r q))
  rw [pay5_apply]
  have h0 : ((cfg5.win 0).blk t).view.emb (ix2 r q) = ix2 ((((cfg5.win 2).blk t).view.emb (ix2 r q)) 0 : Fin 50000) ((((cfg5.win 2).blk t).view.emb (ix2 r q)) 1 : Fin 256) := by
    funext a; apply Fin.ext
    match a with
    | ⟨0, _⟩ => show win5_0.index t (0 : Fin 2) * 2000 + 1 * r.val = win5_2.index t (0 : Fin 2) * 2000 + 1 * r.val; omega
    | ⟨1, _⟩ => show win5_0.index t (1 : Fin 2) * 256 + 1 * q.val = win5_2.index t (1 : Fin 2) * 256 + 1 * q.val; omega
  have h1 : ((cfg5.win 1).blk t).view.emb (ix2 (0 : Fin 1) q) = ix2 (0 : Fin 1) ((((cfg5.win 2).blk t).view.emb (ix2 r q)) 1 : Fin 256) := by
    funext a; apply Fin.ext
    match a with
    | ⟨0, _⟩ => show win5_1.index t (0 : Fin 2) * 1 + 1 * 0 = 0; omega
    | ⟨1, _⟩ => show win5_1.index t (1 : Fin 2) * 256 + 1 * q.val = win5_2.index t (1 : Fin 2) * 256 + 1 * q.val; omega
  have a0 : (iblk5 V c 0 t : S2000x256.Idx → EReal) (ix2 r q) = (V c main_v75 : S50000x256.Idx → EReal) (ix2 ((((cfg5.win 2).blk t).view.emb (ix2 r q)) 0 : Fin 50000) ((((cfg5.win 2).blk t).view.emb (ix2 r q)) 1 : Fin 256)) :=
    congrArg (V c main_v75 : S50000x256.Idx → EReal) h0
  have a1 : (iblk5 V c 1 t : S1x256.Idx → EReal) (ix2 (0 : Fin 1) q) = (V c main_v76 : S1x256.Idx → EReal) (ix2 (0 : Fin 1) ((((cfg5.win 2).blk t).view.emb (ix2 r q)) 1 : Fin 256)) :=
    congrArg (V c main_v76 : S1x256.Idx → EReal) h1
  exact congrArg₂ (fun a b : EReal => max (a + b) 0) a0 a1

/-- An index of the result is in point t's block iff each coordinate is in the block's range on its axis. -/
theorem mem_blk5 (t : Fin cfg5.N) (i : S50000x256.Idx) :
    i ∈ ((cfg5.win 2).blk t).view.set ↔ ∀ a : Fin 2, win5_2.index t a * S2000x256.size a ≤ (i a).val ∧ (i a).val < win5_2.index t a * S2000x256.size a + S2000x256.size a := by
  show i ∈ ((View.whole main_v77).slice (win5_2.rect t)).set ↔ _
  rw [View.set_slice_whole, Rect.mem_set_unit]
  exact Iff.rfl

/-- Row r of the result lies in the block of point r / 2000. -/
theorem cover5 (i : S50000x256.Idx) : ∃ t : Fin cfg5.N, (cfg5.win 2).flush t = true ∧ i ∈ ((cfg5.win 2).blk t).view.set := by
  have hi0 : (i 0).val < 50000 := (i 0).isLt
  have hi1 : (i 1).val < 256 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, e20, e21⟩ := idx_facts5 t
  refine ⟨t, flush5_2 t, ?_⟩
  rw [mem_blk5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 256 ≤ (i 1).val ∧ (i 1).val < win5_2.index t (1 : Fin 2) * 256 + 256; omega

/-- The array `main_v77` after the region, entry by entry. -/
theorem final5 : (dat5 (F := Ideal) V c).arrAt 2 cfg5.N = G5 V c :=
  (dat5 V c).arrAt_eq_of_cover 2 (G5 V c) (fun t _ => flushed5_eq V c t) (cover5)

theorem bias5_apply (p : Fin 50000) (q : Fin 256) :
    (dat5 (F := Ideal) V c).arrAt 2 cfg5.N (ix2 p q) = biasEntry 50000 256 (V c main_v75) (V c main_v76) p q := by
  rw [final5]

end Cert.KernelIdeal.HandV

end
-- ==== Proof.KI.ValHead.lean ====
/-
  What the head region leaves in its output array, read at an index, at the ideal instance: for any buffer contents at
  region entry, entry (p, q) of the output array after the region is the second layer's sum over the 196 hidden units of
  the clamped first layer (the sum over the 258 input features plus the first bias) times the second weight, plus the
  second bias. The region has one grid point and every window's block is its whole array.
-/
import proofs.«166593_j71528385348100_1_alg».proof.Proof.KI.Data
import proofs.«166593_j71528385348100_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.HandV

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-- The zero offsets of a whole-buffer rectangle, as the constant function. -/
theorem hz_head : (![0, 0] : Fin 2 → Nat) = fun _ => 0 := funext fun a => by fin_cases a <;> rfl

/-- Entry (p, q) of the two-layer head of the pooled features X: weights W1, W2 and one-row biases b1, b2. -/
abbrev headEntry (X : S512x258.Idx → EReal) (W1 : S258x196.Idx → EReal) (b1 : S1x196.Idx → EReal) (W2 : S196x16.Idx → EReal)
    (b2 : S1x16.Idx → EReal) (p : Fin 512) (q : Fin 16) : EReal :=
  (∑ j : Fin 196, max ((∑ k : Fin 258, X (ix2 p k) * W1 (ix2 k j)) + b1 (ix2 (0 : Fin 1) j)) 0 * W2 (ix2 j q)) + b2 (ix2 (0 : Fin 1) q)

theorem dot6a_plain : dot_S512x258_S258x196_S512x196_1_0_0_1_n_n = DotDims.plain 512 258 196 := rfl
theorem dot6b_plain : dot_S512x196_S196x16_S512x16_1_0_0_1_n_n = DotDims.plain 512 196 16 := rfl

/-- The hidden layer on whole buffers: the first product plus the first bias row, clamped below at zero. -/
def hid6 (x0 : FVec Ideal S512x258 .f32) (x1 : FVec Ideal S258x196 .f32) (x2 : FVec Ideal S1x196 .f32) : FVec Ideal S512x196 .f32 :=
  maximumf (addf (matmul dot_S512x258_S258x196_S512x196_1_0_0_1_n_n none (truncf .bf16 x0 bitsLt_bf16_f32) (truncf .bf16 x1 bitsLt_bf16_f32) (constant S512x196 .f32 0x00000000#32)) (broadcastTo S512x196 x2 broadcasts_S1x196_S512x196)) (broadcast S512x196 (Scalar.ofBits .f32 0x00000000#32))

set_option maxHeartbeats 400000 in
/-- The hidden layer at row p and unit j. -/
theorem hid6_apply (x0 : FVec Ideal S512x258 .f32) (x1 : FVec Ideal S258x196 .f32) (x2 : FVec Ideal S1x196 .f32) (p : Fin 512) (j : Fin 196) :
    hid6 x0 x1 x2 (ix2 p j) = max ((∑ k : Fin 258, x0 (ix2 p k) * x1 (ix2 k j)) + x2 (ix2 (0 : Fin 1) j)) 0 := by
  unfold hid6
  show max (FloatOps.matmul (F := Ideal) dot_S512x258_S258x196_S512x196_1_0_0_1_n_n none (truncf (F := Ideal) .bf16 x0 bitsLt_bf16_f32) (truncf (F := Ideal) .bf16 x1 bitsLt_bf16_f32) (constant (F := Ideal) S512x196 .f32 0x00000000#32) (ix2 p j) + broadcastTo S512x196 x2 broadcasts_S1x196_S512x196 (ix2 p j)) (Ideal.ofBits .f32 0x00000000#32) = _
  rw [dot6a_plain]
  have e1 := PlainMatmul.plain_matmul_zero_apply 512 258 196 none (truncf (F := Ideal) .bf16 x0 bitsLt_bf16_f32) (truncf (F := Ideal) .bf16 x1 bitsLt_bf16_f32) p j
  have e2 := broadcastTo_1b_ab_apply x2 broadcasts_S1x196_S512x196 p j
  rw [e1, e2, Ideal.ofBits_zero_f32]
  rfl

set_option maxHeartbeats 400000 in
/-- One run of the body leaves, at row p and column q of the output buffer, the head's entry (p, q) of the input buffers. -/
theorem pay6_apply (x0 : Vec Ideal S512x258 .f32) (x1 : Vec Ideal S258x196 .f32) (x2 : Vec Ideal S1x196 .f32) (x3 : Vec Ideal S196x16 .f32)
    (x4 : Vec Ideal S1x16 .f32) (p : Fin 512) (q : Fin 16) :
    out6_5 x0 x1 x2 x3 x4 (ix2 p q) = headEntry x0 x1 x2 x3 x4 p q := by
  unfold out6_5
  rw [View.canon_unit_zero hz_head]
  simp only [View.ld_unit_zero (S := S512x258) hz_head, View.ld_unit_zero (S := S258x196) hz_head, View.ld_unit_zero (S := S1x196) hz_head,
    View.ld_unit_zero (S := S196x16) hz_head, View.ld_unit_zero (S := S1x16) hz_head]
  unfold k6_pay1
  simp only [shapeCast_self]
  show FloatOps.matmul (F := Ideal) dot_S512x196_S196x16_S512x16_1_0_0_1_n_n none (truncf (F := Ideal) .bf16 (hid6 x0 x1 x2) bitsLt_bf16_f32) (truncf (F := Ideal) .bf16 (x3 : FVec Ideal S196x16 .f32) bitsLt_bf16_f32) (constant (F := Ideal) S512x16 .f32 0x00000000#32) (ix2 p q) + broadcastTo S512x16 (x4 : FVec Ideal S1x16 .f32) broadcasts_S1x16_S512x16 (ix2 p q) = _
  rw [dot6b_plain]
  have e1 := PlainMatmul.plain_matmul_zero_apply 512 196 16 none (truncf (F := Ideal) .bf16 (hid6 x0 x1 x2) bitsLt_bf16_f32) (truncf (F := Ideal) .bf16 (x3 : FVec Ideal S196x16 .f32) bitsLt_bf16_f32) p q
  have e2 := broadcastTo_1b_ab_apply (x4 : FVec Ideal S1x16 .f32) broadcasts_S1x16_S512x16 p q
  rw [e1, e2]
  refine congrArg (fun s : EReal => s + x4 (ix2 (0 : Fin 1) q)) (Finset.sum_congr rfl fun j _ => ?_)
  show hid6 x0 x1 x2 (ix2 p j) * x3 (ix2 j q) = _
  rw [hid6_apply]

variable (V : (c : Dev nD) → (b : Ref sig .tc) → Buf (Elt Ideal) ((c : Thread nD τ).loc b)) (c : Dev nD)

/-- The head of the arrays the region finds, entry by entry. -/
abbrev G6 : S512x16.Idx → EReal := fun i =>
  headEntry (V c main_v90) (V c main_arg11) (V c main_v91) (V c main_arg13) (V c main_v92) (i 0) (i 1)

/-- At the region's one grid point every window's block index is zero on both axes. -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's block is the whole array `main_v90`. -/
theorem iblk6_0 (t : Fin cfg6.N) : (iblk6 V c 0 t : S512x258.Idx → EReal) = V c main_v90 := by
  obtain ⟨e00, e01, e10, e11, e20, e21, e30, e31, e40, e41, e50, e51⟩ := idx_facts6 t
  funext y
  show (V c main_v90 : S512x258.Idx → EReal) (((cfg6.win 0).blk t).view.emb y) = _
  refine congrArg (V c main_v90 : S512x258.Idx → EReal) (funext fun a => Fin.ext ?_)
  match a with
  | ⟨0, _⟩ => show win6_0.index t (0 : Fin 2) * 512 + 1 * (y 0).val = (y 0).val; omega
  | ⟨1, _⟩ => show win6_0.index t (1 : Fin 2) * 258 + 1 * (y 1).val = (y 1).val; omega

/-- Window 1's block is the whole array `main_arg11`. -/
theorem iblk6_1 (t : Fin cfg6.N) : (iblk6 V c 1 t : S258x196.Idx → EReal) = V c main_arg11 := by
  obtain ⟨e00, e01, e10, e11, e20, e21, e30, e31, e40, e41, e50, e51⟩ := idx_facts6 t
  funext y
  show (V c main_arg11 : S258x196.Idx → EReal) (((cfg6.win 1).blk t).view.emb y) = _
  refine congrArg (V c main_arg11 : S258x196.Idx → EReal) (funext fun a => Fin.ext ?_)
  match a with
  | ⟨0, _⟩ => show win6_1.index t (0 : Fin 2) * 258 + 1 * (y 0).val = (y 0).val; omega
  | ⟨1, _⟩ => show win6_1.index t (1 : Fin 2) * 196 + 1 * (y 1).val = (y 1).val; omega

/-- Window 2's block is the whole array `main_v91`. -/
theorem iblk6_2 (t : Fin cfg6.N) : (iblk6 V c 2 t : S1x196.Idx → EReal) = V c main_v91 := by
  obtain ⟨e00, e01, e10, e11, e20, e21, e30, e31, e40, e41, e50, e51⟩ := idx_facts6 t
  funext y
  show (V c main_v91 : S1x196.Idx → EReal) (((cfg6.win 2).blk t).view.emb y) = _
  refine congrArg (V c main_v91 : S1x196.Idx → EReal) (funext fun a => Fin.ext ?_)
  match a with
  | ⟨0, _⟩ => show win6_2.index t (0 : Fin 2) * 1 + 1 * (y 0).val = (y 0).val; omega
  | ⟨1, _⟩ => show win6_2.index t (1 : Fin 2) * 196 + 1 * (y 1).val = (y 1).val; omega

/-- Window 3's block is the whole array `main_arg13`. -/
theorem iblk6_3 (t : Fin cfg6.N) : (iblk6 V c 3 t : S196x16.Idx → EReal) = V c main_arg13 := by
  obtain ⟨e00, e01, e10, e11, e20, e21, e30, e31, e40, e41, e50, e51⟩ := idx_facts6 t
  funext y
  show (V c main_arg13 : S196x16.Idx → EReal) (((cfg6.win 3).blk t).view.emb y) = _
  refine congrArg (V c main_arg13 : S196x16.Idx → EReal) (funext fun a => Fin.ext ?_)
  match a with
  | ⟨0, _⟩ => show win6_3.index t (0 : Fin 2) * 196 + 1 * (y 0).val = (y 0).val; omega
  | ⟨1, _⟩ => show win6_3.index t (1 : Fin 2) * 16 + 1 * (y 1).val = (y 1).val; omega

/-- Window 4's block is the whole array `main_v92`. -/
theorem iblk6_4 (t : Fin cfg6.N) : (iblk6 V c 4 t : S1x16.Idx → EReal) = V c main_v92 := by
  obtain ⟨e00, e01, e10, e11, e20, e21, e30, e31, e40, e41, e50, e51⟩ := idx_facts6 t
  funext y
  show (V c main_v92 : S1x16.Idx → EReal) (((cfg6.win 4).blk t).view.emb y) = _
  refine congrArg (V c main_v92 : S1x16.Idx → EReal) (funext fun a => Fin.ext ?_)
  match a with
  | ⟨0, _⟩ => show win6_4.index t (0 : Fin 2) * 1 + 1 * (y 0).val = (y 0).val; omega
  | ⟨1, _⟩ => show win6_4.index t (1 : Fin 2) * 16 + 1 * (y 1).val = (y 1).val; omega

set_option maxHeartbeats 400000 in
/-- What the one point writes back is the head's array read through its whole-array block. -/
theorem flushed6_eq (t : Fin cfg6.N) :
    (dat6 (F := Ideal) V c).flushed 5 t = ((cfg6.win 5).blk t).view.read (Elt Ideal) (G6 V c) := by
  show (cfg6.win 5).cut (grid6.coords t) ((dat6 V c).after 5 t) = _
  rw [after6_5]
  obtain ⟨e00, e01, e10, e11, e20, e21, e30, e31, e40, e41, e50, e51⟩ := idx_facts6 t
  funext j
  obtain ⟨p, q, rfl⟩ : ∃ (p : Fin 512) (q : Fin 16), j = ix2 p q := ⟨j 0, j 1, eq_ix2 (n0 := 512) (n1 := 16) j⟩
  show out6_5 (iblk6 V c 0 t) (iblk6 V c 1 t) (iblk6 V c 2 t) (iblk6 V c 3 t) (iblk6 V c 4 t) (ix2 p q) = G6 V c (((cfg6.win 5).blk t).view.emb (ix2 p q))
  have h5 : ((cfg6.win 5).blk t).view.emb (ix2 p q) = ix2 p q := by
    funext a; apply Fin.ext
    match a with
    | ⟨0, _⟩ => show win6_5.index t (0 : Fin 2) * 512 + 1 * p.val = p.val; omega
    | ⟨1, _⟩ => show win6_5.index t (1 : Fin 2) * 16 + 1 * q.val = q.val; omega
  rw [pay6_apply, h5, iblk6_0 V c t, iblk6_1 V c t, iblk6_2 V c t, iblk6_3 V c t, iblk6_4 V c t]

/-- An index of the output is in the point's block iff each coordinate is in the block's range on its axis. -/
theorem mem_blk6 (t : Fin cfg6.N) (i : S512x16.Idx) :
    i ∈ ((cfg6.win 5).blk t).view.set ↔ ∀ a : Fin 2, win6_5.index t a * S512x16.size a ≤ (i a).val ∧ (i a).val < win6_5.index t a * S512x16.size a + S512x16.size a := by
  show i ∈ ((View.whole main_v93).slice (win6_5.rect t)).set ↔ _
  rw [View.set_slice_whole, Rect.mem_set_unit]
  exact Iff.rfl

/-- The one point's block is the whole output array. -/
theorem cover6 (i : S512x16.Idx) : ∃ t : Fin cfg6.N, (cfg6.win 5).flush t = true ∧ i ∈ ((cfg6.win 5).blk t).view.set := by
  have hi0 : (i 0).val < 512 := (i 0).isLt
  have hi1 : (i 1).val < 16 := (i 1).isLt
  obtain ⟨e00, e01, e10, e11, e20, e21, e30, e31, e40, e41, e50, e51⟩ := idx_facts6 t6_0
  refine ⟨t6_0, flush6_5 t6_0, ?_⟩
  rw [mem_blk6]
  intro a
  match a with
  | ⟨0, _⟩ => show win6_5.index t6_0 (0 : Fin 2) * 512 ≤ (i 0).val ∧ (i 0).val < win6_5.index t6_0 (0 : Fin 2) * 512 + 512; omega
  | ⟨1, _⟩ => show win6_5.index t6_0 (1 : Fin 2) * 16 ≤ (i 1).val ∧ (i 1).val < win6_5.index t6_0 (1 : Fin 2) * 16 + 16; omega

/-- The array `main_v93` after the region, entry by entry. -/
theorem final6 : (dat6 (F := Ideal) V c).arrAt 5 cfg6.N = G6 V c :=
  (dat6 V c).arrAt_eq_of_cover 5 (G6 V c) (fun t _ => flushed6_eq V c t) (cover6)

theorem head6_apply (p : Fin 512) (q : Fin 16) :
    (dat6 (F := Ideal) V c).arrAt 5 cfg6.N (ix2 p q)
      = headEntry (V c main_v90) (V c main_arg11) (V c main_v91) (V c main_arg13) (V c main_v92) p q := by
  rw [final6]

end Cert.KernelIdeal.HandV

end
-- ==== Proof.Bridge.lean ====
/-
  The kernel program's result is the reference's function of the arguments, at the ideal floats.

  The host operations between the kernel regions are, operation for operation, the reference's own: the edge endpoints, the
  edge weights, the weighted neighbourhood sums, the mean pool and the join are the same functions in the two programs, for
  any float values. At the ideal floats each kernel region leaves in its output array the reference's stage of the arrays it
  found: a matrix-product region the exact sums of products (the narrowing of its operands is the identity on extended
  reals), a bias region the entry plus the bias clamped below at zero (the bias as a one-row matrix reads the bias vector at
  the column), the head region the two-layer head. Chained along the contents of the buffers after each item of the
  program, the result buffer holds the reference's `out` of the argument buffers.
-/
import proofs.«166593_j71528385348100_1_alg».proof.Proof.RefApply
import proofs.«166593_j71528385348100_1_alg».proof.Proof.KI.HostStages
import proofs.«166593_j71528385348100_1_alg».proof.Proof.KI.ValLin
import proofs.«166593_j71528385348100_1_alg».proof.Proof.KI.ValBias
import proofs.«166593_j71528385348100_1_alg».proof.Proof.KI.ValHead
import Idealize.ShloMosaic.Lib.ValueLayout

noncomputable section

open Idealize.ShloMosaic Idealize.ShloMosaic.TcCoe Idealize.SL.Sem

namespace Cert.Bridge

open Idealize.ShloMosaic Idealize.ShloMosaic.ValueIdx Idealize.ShloMosaic.TcCoe Idealize.SL.Sem
open scoped BigOperators
open Cert.KernelIdeal Cert.KernelIdeal.Hand Cert.KernelIdeal.HandV

/-! ## The host stages of the two programs are the same functions -/

section AnyFloats
variable {F : FTy → Type} [FloatOps F]

theorem src_eq : KernelIdeal.Stages.src (F := F) = ReferenceIdeal.Stages.src := rfl
theorem dst_eq : KernelIdeal.Stages.dst (F := F) = ReferenceIdeal.Stages.dst := rfl
theorem nrm_eq : KernelIdeal.Stages.nrm (F := F) = ReferenceIdeal.Stages.nrm := rfl
theorem agg_eq : KernelIdeal.Stages.agg (F := F) = ReferenceIdeal.Stages.agg := rfl
theorem pool_eq : KernelIdeal.Stages.pool (F := F) = ReferenceIdeal.Stages.pool := rfl
theorem cat_eq : KernelIdeal.Stages.cat (F := F) = ReferenceIdeal.Stages.cat := rfl

end AnyFloats

/-! ## A bias vector as a one-row matrix, read at an index -/

theorem brow_apply (b : FVec Ideal S256 .f32) (q : Fin 256) :
    KernelIdeal.Stages.brow (F := Ideal) b (ix2 (0 : Fin 1) q) = b (ix1 q) :=
  shapeCast_a_1a_apply b _ 0 q
theorem brow196_apply (b : FVec Ideal S196 .f32) (q : Fin 196) :
    KernelIdeal.Stages.brow196 (F := Ideal) b (ix2 (0 : Fin 1) q) = b (ix1 q) :=
  shapeCast_a_1a_apply b _ 0 q
theorem brow16_apply (b : FVec Ideal S16 .f32) (q : Fin 16) :
    KernelIdeal.Stages.brow16 (F := Ideal) b (ix2 (0 : Fin 1) q) = b (ix1 q) :=
  shapeCast_a_1a_apply b _ 0 q

/-- What a bias region computes at an entry, from the bias as a one-row matrix, is the reference's bias-then-clamp stage there. -/
theorem biasEntry_brow (A : FVec Ideal S50000x256 .f32) (b : FVec Ideal S256 .f32) (p : Fin 50000) (q : Fin 256) :
    biasEntry 50000 256 A (KernelIdeal.Stages.brow (F := Ideal) b) p q
      = ReferenceIdeal.Stages.relu (F := Ideal) (ReferenceIdeal.Stages.addb A b) (ix2 p q) := by
  rw [ReferenceIdeal.Stages.relu_addb_apply]
  show max (A (ix2 p q) + KernelIdeal.Stages.brow (F := Ideal) b (ix2 (0 : Fin 1) q)) 0 = _
  rw [brow_apply]

/-- What the head region computes at an entry, from the biases as one-row matrices, is the reference's head there. -/
theorem headEntry_brow (X : FVec Ideal S512x258 .f32) (W1 : FVec Ideal S258x196 .f32) (b1 : FVec Ideal S196 .f32)
    (W2 : FVec Ideal S196x16 .f32) (b2 : FVec Ideal S16 .f32) (p : Fin 512) (q : Fin 16) :
    headEntry X W1 (KernelIdeal.Stages.brow196 (F := Ideal) b1) W2 (KernelIdeal.Stages.brow16 (F := Ideal) b2) p q
      = ReferenceIdeal.Stages.head (F := Ideal) X W1 b1 W2 b2 (ix2 p q) := by
  rw [ReferenceIdeal.Stages.head_apply]
  show (∑ j : Fin 196, max ((∑ k : Fin 258, X (ix2 p k) * W1 (ix2 k j)) + KernelIdeal.Stages.brow196 (F := Ideal) b1 (ix2 (0 : Fin 1) j)) 0 * W2 (ix2 j q))
      + KernelIdeal.Stages.brow16 (F := Ideal) b2 (ix2 (0 : Fin 1) q) = _
  simp only [brow196_apply, brow16_apply]

/-! ## Each kernel region leaves the reference's stage of what it found -/

variable (m : (ℓ : Loc nD τ sig) → Buf (Elt Ideal) ℓ) (ρ : Dev nD → PrngReg) (c : Dev nD)

set_option maxHeartbeats 400000 in
/-- Region 0 leaves the first layer's product. -/
theorem v30 : W4 m ρ c (Proc.devRef .tc main_v30)
    = ReferenceIdeal.Stages.lin1 (F := Ideal) (V0 m ρ c main_arg0) (V0 m ρ c main_arg5) := by
  refine (KernelIdeal.Stages.W4_v30 m ρ c).trans ((final0 (V3 m ρ) c).trans ?_)
  funext i
  obtain ⟨p, q, rfl⟩ : ∃ (p : Fin 50000) (q : Fin 256), i = ix2 p q := ⟨i 0, i 1, eq_ix2 (n0 := 50000) (n1 := 256) i⟩
  rw [ReferenceIdeal.Stages.lin1_apply]
  show mulEntry 50000 128 256 (W3 m ρ c (Proc.devRef .tc main_arg0)) (W3 m ρ c (Proc.devRef .tc main_arg5)) p q = _
  rw [KernelIdeal.Stages.W3_arg0, KernelIdeal.Stages.W3_arg5]

set_option maxHeartbeats 400000 in
/-- Region 1 leaves the aggregated rows plus the bias row, clamped below at zero. -/
theorem v45 : W6 m ρ c (Proc.devRef .tc main_v45)
    = ReferenceIdeal.Stages.relu (F := Ideal) (ReferenceIdeal.Stages.addb (W5 m ρ c (Proc.devRef .tc main_v43)) (V0 m ρ c main_arg6)) := by
  refine (KernelIdeal.Stages.W6_v45 m ρ c).trans ((final1 (V5 m ρ) c).trans ?_)
  funext i
  obtain ⟨p, q, rfl⟩ : ∃ (p : Fin 50000) (q : Fin 256), i = ix2 p q := ⟨i 0, i 1, eq_ix2 (n0 := 50000) (n1 := 256) i⟩
  show biasEntry 50000 256 (W5 m ρ c (Proc.devRef .tc main_v43)) (W5 m ρ c (Proc.devRef .tc main_v44)) p q = _
  rw [KernelIdeal.Stages.W5_v44]
  exact biasEntry_brow _ _ p q

set_option maxHeartbeats 400000 in
/-- Region 2 leaves the second layer's product. -/
theorem v46 : W7 m ρ c (Proc.devRef .tc main_v46)
    = ReferenceIdeal.Stages.lin (F := Ideal) (W6 m ρ c (Proc.devRef .tc main_v45)) (V0 m ρ c main_arg7) := by
  refine (KernelIdeal.Stages.W7_v46 m ρ c).trans ((final2 (V6 m ρ) c).trans ?_)
  funext i
  obtain ⟨p, q, rfl⟩ : ∃ (p : Fin 50000) (q : Fin 256), i = ix2 p q := ⟨i 0, i 1, eq_ix2 (n0 := 50000) (n1 := 256) i⟩
  rw [ReferenceIdeal.Stages.lin_apply]
  show mulEntry 50000 256 256 (W6 m ρ c (Proc.devRef .tc main_v45)) (W6 m ρ c (Proc.devRef .tc main_arg7)) p q = _
  rw [KernelIdeal.Stages.W6_arg7]

set_option maxHeartbeats 400000 in
/-- Region 3 leaves the aggregated rows plus the bias row, clamped below at zero. -/
theorem v61 : W9 m ρ c (Proc.devRef .tc main_v61)
    = ReferenceIdeal.Stages.relu (F := Ideal) (ReferenceIdeal.Stages.addb (W8 m ρ c (Proc.devRef .tc main_v59)) (V0 m ρ c main_arg8)) := by
  refine (KernelIdeal.Stages.W9_v61 m ρ c).trans ((final3 (V8 m ρ) c).trans ?_)
  funext i
  obtain ⟨p, q, rfl⟩ : ∃ (p : Fin 50000) (q : Fin 256), i = ix2 p q := ⟨i 0, i 1, eq_ix2 (n0 := 50000) (n1 := 256) i⟩
  show biasEntry 50000 256 (W8 m ρ c (Proc.devRef .tc main_v59)) (W8 m ρ c (Proc.devRef .tc main_v60)) p q = _
  rw [KernelIdeal.Stages.W8_v60]
  exact biasEntry_brow _ _ p q

set_option maxHeartbeats 400000 in
/-- Region 4 leaves the third layer's product. -/
theorem v62 : W10 m ρ c (Proc.devRef .tc main_v62)
    = ReferenceIdeal.Stages.lin (F := Ideal) (W9 m ρ c (Proc.devRef .tc main_v61)) (V0 m ρ c main_arg9) := by
  refine (KernelIdeal.Stages.W10_v62 m ρ c).trans ((final4 (V9 m ρ) c).trans ?_)
  funext i
  obtain ⟨p, q, rfl⟩ : ∃ (p : Fin 50000) (q : Fin 256), i = ix2 p q := ⟨i 0, i 1, eq_ix2 (n0 := 50000) (n1 := 256) i⟩
  rw [ReferenceIdeal.Stages.lin_apply]
  show mulEntry 50000 256 256 (W9 m ρ c (Proc.devRef .tc main_v61)) (W9 m ρ c (Proc.devRef .tc main_arg9)) p q = _
  rw [KernelIdeal.Stages.W9_arg9]

set_option maxHeartbeats 400000 in
/-- Region 5 leaves the aggregated rows plus the bias row, clamped below at zero. -/
theorem v77 : W12 m ρ c (Proc.devRef .tc main_v77)
    = ReferenceIdeal.Stages.relu (F := Ideal) (ReferenceIdeal.Stages.addb (W11 m ρ c (Proc.devRef .tc main_v75)) (V0 m ρ c main_arg10)) := by
  refine (KernelIdeal.Stages.W12_v77 m ρ c).trans ((final5 (V11 m ρ) c).trans ?_)
  funext i
  obtain ⟨p, q, rfl⟩ : ∃ (p : Fin 50000) (q : Fin 256), i = ix2 p q := ⟨i 0, i 1, eq_ix2 (n0 := 50000) (n1 := 256) i⟩
  show biasEntry 50000 256 (W11 m ρ c (Proc.devRef .tc main_v75)) (W11 m ρ c (Proc.devRef .tc main_v76)) p q = _
  rw [KernelIdeal.Stages.W11_v76]
  exact biasEntry_brow _ _ p q

set_option maxHeartbeats 400000 in
/-- Region 6 leaves the reference's head of the joined features. -/
theorem v93 : W14 m ρ c (Proc.devRef .tc main_v93)
    = ReferenceIdeal.Stages.head (F := Ideal) (W13 m ρ c (Proc.devRef .tc main_v90)) (V0 m ρ c main_arg11) (V0 m ρ c main_arg12)
        (V0 m ρ c main_arg13) (V0 m ρ c main_arg14) := by
  refine (KernelIdeal.Stages.W14_v93 m ρ c).trans ((final6 (V13 m ρ) c).trans ?_)
  funext i
  obtain ⟨p, q, rfl⟩ : ∃ (p : Fin 512) (q : Fin 16), i = ix2 p q := ⟨i 0, i 1, eq_ix2 (n0 := 512) (n1 := 16) i⟩
  show headEntry (W13 m ρ c (Proc.devRef .tc main_v90)) (W13 m ρ c (Proc.devRef .tc main_arg11)) (W13 m ρ c (Proc.devRef .tc main_v91))
    (W13 m ρ c (Proc.devRef .tc main_arg13)) (W13 m ρ c (Proc.devRef .tc main_v92)) p q = _
  rw [KernelIdeal.Stages.W13_arg11, KernelIdeal.Stages.W13_v91, KernelIdeal.Stages.W13_arg13, KernelIdeal.Stages.W13_v92]
  exact headEntry_brow _ _ _ _ _ p q

/-! ## The three layers and the pooled, joined features, as the reference's stages of the arguments -/

set_option maxHeartbeats 400000 in
theorem layer1 : W6 m ρ c (Proc.devRef .tc main_v45)
    = ReferenceIdeal.Stages.relu (F := Ideal) (ReferenceIdeal.Stages.addb (ReferenceIdeal.Stages.agg (V0 m ρ c main_arg1)
        (ReferenceIdeal.Stages.lin1 (V0 m ρ c main_arg0) (V0 m ρ c main_arg5))) (V0 m ρ c main_arg6)) := by
  rw [v45, KernelIdeal.Stages.W5_v43, v30, agg_eq]

set_option maxHeartbeats 400000 in
theorem layer2 : W9 m ρ c (Proc.devRef .tc main_v61)
    = ReferenceIdeal.Stages.relu (F := Ideal) (ReferenceIdeal.Stages.addb (ReferenceIdeal.Stages.agg (V0 m ρ c main_arg1)
        (ReferenceIdeal.Stages.lin (W6 m ρ c (Proc.devRef .tc main_v45)) (V0 m ρ c main_arg7))) (V0 m ρ c main_arg8)) := by
  rw [v61, KernelIdeal.Stages.W8_v59, v46, agg_eq]

set_option maxHeartbeats 400000 in
theorem layer3 : W12 m ρ c (Proc.devRef .tc main_v77)
    = ReferenceIdeal.Stages.relu (F := Ideal) (ReferenceIdeal.Stages.addb (ReferenceIdeal.Stages.agg (V0 m ρ c main_arg1)
        (ReferenceIdeal.Stages.lin (W9 m ρ c (Proc.devRef .tc main_v61)) (V0 m ρ c main_arg9))) (V0 m ρ c main_arg10)) := by
  rw [v77, KernelIdeal.Stages.W11_v75, v62, agg_eq]

set_option maxHeartbeats 400000 in
theorem v90 : W13 m ρ c (Proc.devRef .tc main_v90)
    = ReferenceIdeal.Stages.cat (F := Ideal) (ReferenceIdeal.Stages.pool (W12 m ρ c (Proc.devRef .tc main_v77)) (V0 m ρ c main_arg2))
        (V0 m ρ c main_arg3) (V0 m ρ c main_arg4) := by
  rw [KernelIdeal.Stages.W13_v90, pool_eq, cat_eq]

/-! ## The kernel program's result is the reference's function of the arguments -/

set_option maxHeartbeats 400000 in
theorem kernel_value_V0 : W14 m ρ c (Proc.devRef .tc main_v93)
    = ReferenceIdeal.Stages.out (F := Ideal) (V0 m ρ c main_arg0) (V0 m ρ c main_arg1) (V0 m ρ c main_arg2) (V0 m ρ c main_arg3)
        (V0 m ρ c main_arg4) (V0 m ρ c main_arg5) (V0 m ρ c main_arg6) (V0 m ρ c main_arg7) (V0 m ρ c main_arg8) (V0 m ρ c main_arg9)
        (V0 m ρ c main_arg10) (V0 m ρ c main_arg11) (V0 m ρ c main_arg12) (V0 m ρ c main_arg13) (V0 m ρ c main_arg14) := by
  rw [v93, v90, layer3, layer2, layer1]
  rfl

end Cert.Bridge

/-- After the kernel program's last item the result buffer holds the reference's function `out` of the argument buffers. -/
theorem Cert.Bridge.kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Hand.W14 (F := Ideal) m ρ c (Proc.devRef .tc Cert.KernelIdeal.main_v93) = Cert.ReferenceIdeal.Stages.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  Cert.Bridge.kernel_value_V0 m ρ c

end
-- ==== Proof.lean ====
/-
  A three-layer graph convolution with mean pooling and a two-layer head, computed twice: by a program whose dense products,
  bias-and-clamp steps and head are kernel regions tiled over blocks of 2000 rows, the gathers and segment sums between them
  host operations; and by a reference that is host operations throughout. Read over the extended reals the two compute the
  same function of their arguments, operation for operation: a block-tiled product into a zero accumulator is the one whole
  product, rounding to a narrower float format is the identity, and a bias row added inside a region is the bias vector
  broadcast along the rows. No law that needs finiteness is used, so the precondition is never opened.
  The three frames: each kernel program's run over its fourteen items (KB/Run, KI/Run); the reference's run.
  The value: the kernel program's last contents of the result array, read back through the regions and host stretches to
  the staged form of the reference's term (Bridge), against the reference's run.
-/
import proofs.«166593_j71528385348100_1_alg».proof.Defs
import proofs.«166593_j71528385348100_1_alg».proof.Proof.Gen.Kernel
import proofs.«166593_j71528385348100_1_alg».proof.Proof.Gen.KernelIdeal
import proofs.«166593_j71528385348100_1_alg».proof.Proof.Gen.ReferenceIdeal
import proofs.«166593_j71528385348100_1_alg».proof.Proof.Gen.Pre_finite_inputs
import proofs.«166593_j71528385348100_1_alg».proof.Proof.KB.Run
import proofs.«166593_j71528385348100_1_alg».proof.Proof.KI.Run
import proofs.«166593_j71528385348100_1_alg».proof.Proof.RefRun
import proofs.«166593_j71528385348100_1_alg».proof.Proof.RefStages
import proofs.«166593_j71528385348100_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates, faults nowhere and leaves its argument arrays as launched. -/
theorem frame_k : Cert.frame_Kernel := fun m ρ _ => Cert.Kernel.Hand.frame (F := Bits) m ρ

/-- The same for the idealized kernel program, read over the extended reals. -/
theorem frame_ki : Cert.frame_KernelIdeal := fun m ρ _ => Cert.KernelIdeal.Hand.frame (F := Ideal) m ρ

/-- The reference has no kernel region: its run, with the result dropped, is its frame. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the fifteen arguments, the kernel program's result array is the reference's composed term:
    the reference's term is its staged form, whose arguments may be taken from either memory, and the kernel program's last
    contents of the result array is that staged form of its own arguments. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.KernelIdeal.Hand.W14 (F := Ideal) m ρ c (Proc.devRef .tc Cert.KernelIdeal.main_v93) = Cert.ReferenceIdeal.ValueP.res_main_v135 (F := Ideal) m' c := by
  obtain ⟨h0, h1, h2, h3, h4, h5, h6, h7, h8, h9, h10, h11, h12, h13, h14⟩ := hagree
  rw [Cert.ReferenceIdeal.Stages.res_eq, h0, h1, h2, h3, h4, h5, h6, h7, h8, h9, h10, h11, h12, h13, h14]
  exact Cert.Bridge.kernel_value m ρ c

theorem algebraic : Cert.algebraic_KernelIdeal_ReferenceIdeal := by
  intro m ρ m' ρ' _ hagree
  refine ⟨fun c => Cert.ReferenceIdeal.ValueP.res_main_v135 (F := Ideal) m' c, ?_, ?_⟩
  · exact (θ_run Cert.KernelIdeal.defs _ _).mono (fun r h c =>
      ⟨(h c _ (Cert.KernelIdeal.Hand.mem_uc Cert.KernelIdeal.main_v93 (by decide))).trans (value_eq m ρ m' c (hagree c)),
       (h c _ (Cert.KernelIdeal.Hand.mem_uc Cert.KernelIdeal.main_arg0 (by decide))).trans (Cert.KernelIdeal.Hand.W14_main_arg0 m ρ c),
       (h c _ (Cert.KernelIdeal.Hand.mem_uc Cert.KernelIdeal.main_arg1 (by decide))).trans (Cert.KernelIdeal.Hand.W14_main_arg1 m ρ c),
       (h c _ (Cert.KernelIdeal.Hand.mem_uc Cert.KernelIdeal.main_arg2 (by decide))).trans (Cert.KernelIdeal.Hand.W14_main_arg2 m ρ c),
       (h c _ (Cert.KernelIdeal.Hand.mem_uc Cert.KernelIdeal.main_arg3 (by decide))).trans (Cert.KernelIdeal.Hand.W14_main_arg3 m ρ c),
       (h c _ (Cert.KernelIdeal.Hand.mem_uc Cert.KernelIdeal.main_arg4 (by decide))).trans (Cert.KernelIdeal.Hand.W14_main_arg4 m ρ c),
       (h c _ (Cert.KernelIdeal.Hand.mem_uc Cert.KernelIdeal.main_arg5 (by decide))).trans (Cert.KernelIdeal.Hand.W14_main_arg5 m ρ c),
       (h c _ (Cert.KernelIdeal.Hand.mem_uc Cert.KernelIdeal.main_arg6 (by decide))).trans (Cert.KernelIdeal.Hand.W14_main_arg6 m ρ c),
       (h c _ (Cert.KernelIdeal.Hand.mem_uc Cert.KernelIdeal.main_arg7 (by decide))).trans (Cert.KernelIdeal.Hand.W14_main_arg7 m ρ c),
       (h c _ (Cert.KernelIdeal.Hand.mem_uc Cert.KernelIdeal.main_arg8 (by decide))).trans (Cert.KernelIdeal.Hand.W14_main_arg8 m ρ c),
       (h c _ (Cert.KernelIdeal.Hand.mem_uc Cert.KernelIdeal.main_arg9 (by decide))).trans (Cert.KernelIdeal.Hand.W14_main_arg9 m ρ c),
       (h c _ (Cert.KernelIdeal.Hand.mem_uc Cert.KernelIdeal.main_arg10 (by decide))).trans (Cert.KernelIdeal.Hand.W14_main_arg10 m ρ c),
       (h c _ (Cert.KernelIdeal.Hand.mem_uc Cert.KernelIdeal.main_arg11 (by decide))).trans (Cert.KernelIdeal.Hand.W14_main_arg11 m ρ c),
       (h c _ (Cert.KernelIdeal.Hand.mem_uc Cert.KernelIdeal.main_arg12 (by decide))).trans (Cert.KernelIdeal.Hand.W14_main_arg12 m ρ c),
       (h c _ (Cert.KernelIdeal.Hand.mem_uc Cert.KernelIdeal.main_arg13 (by decide))).trans (Cert.KernelIdeal.Hand.W14_main_arg13 m ρ c),
       (h c _ (Cert.KernelIdeal.Hand.mem_uc Cert.KernelIdeal.main_arg14 (by decide))).trans (Cert.KernelIdeal.Hand.W14_main_arg14 m ρ c)⟩)
      (Cert.KernelIdeal.Hand.run_all (F := Ideal) m ρ)
  · exact (θ_run Cert.ReferenceIdeal.defs _ _).mono (fun _ h c => h c) (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
